-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000 : Shape := ⟨1, ![100000]⟩
abbrev S2x2500000 : Shape := ⟨2, ![2, 2500000]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S2x32 : S_.BroadcastsInDim S2x32 (![] : Fin 0 → Fin S2x32.rank)
  reducesTo_S2x32_S_d0_1 : S2x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg12 : FVec F S1 .f32) (main_v48 : IVec S_ 1) (main_v49 : FVec F S32x1 .f32) (main_v50 : FVec F S32x1 .f32) : IVec S_ 1 :=
  let main_v51 : IVec S32x1 1 := cmpf .olt main_v49 main_v50
  let main_c_19 : IVec S_ 1 := constantI S_ 1 1#1
  let main_v52 : IVec S_ 1 := (fun x v => Host.reduce IntOp.andi x v reducesTo_S32x1_S_d0_1 h_S_) main_v51 main_c_19
  let main_v53 : IVec S_ 1 := andi main_v48 main_v52
  let main_v54 : FVec F S1 .f32 := Host.absf main_arg12
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg8 : FVec F S32 .f32) (main_arg9 : FVec F S32x32 .f32) (main_arg10 : FVec F S32 .f32) (main_arg11 : FVec F S32x1 .f32) (main_arg12 : FVec F S1 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32x32 .f32 := Host.absf main_arg9
  let main_cst_14 : FVec F S_ .f32 := constant S_ .f32 0x7F800000#32
  let main_v40 : FVec F S32x32 .f32 := broadcastInDim S32x32 ![] bcast_S_S32x32 main_cst_14
  let main_v41 : IVec S32x32 1 := cmpf .olt main_v39 main_v40
  let main_c_15 : IVec S_ 1 := constantI S_ 1 1#1
  let main_v42 : IVec S_ 1 := (fun x v => Host.reduce IntOp.andi x v reducesTo_S32x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x1 .f32 := Host.absf main_arg11
  let main_cst_18 : FVec F S_ .f32 := constant S_ .f32 0x7F800000#32
  let main_v50 : FVec F S32x1 .f32 := broadcastInDim S32x1 ![] bcast_S_S32x1 main_cst_18
  fn_part3 (F := F) main_arg12 main_v48 main_v49 main_v50

def fn_part1 {F : FTy → Type} [FloatOps F] (main_arg5 : FVec F S32x32 .f32) (main_arg6 : FVec F S32 .f32) (main_arg7 : FVec F S32x32 .f32) (main_arg8 : FVec F S32 .f32) (main_arg9 : FVec F S32x32 .f32) (main_arg10 : FVec F S32 .f32) (main_arg11 : FVec F S32x1 .f32) (main_arg12 : FVec F S1 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg5
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S100000 .f32) (main_arg1 : FVec F S100000 .f32) (main_arg2 : IVec S2x2500000 32) (main_arg3 : FVec F S2x32 .f32) (main_arg4 : FVec F S32 .f32) (main_arg5 : FVec F S32x32 .f32) (main_arg6 : FVec F S32 .f32) (main_arg7 : FVec F S32x32 .f32) (main_arg8 : FVec F S32 .f32) (main_arg9 : FVec F S32x32 .f32) (main_arg10 : FVec F S32 .f32) (main_arg11 : FVec F S32x1 .f32) (main_arg12 : FVec F S1 .f32) : IVec S_ 1 :=
  let main_v0 : FVec F S100000 .f32 := Host.absf main_arg0
  let main_cst : FVec F S_ .f32 := constant S_ .f32 0x7F800000#32
  let main_v1 : FVec F S100000 .f32 := broadcastInDim S100000 ![] bcast_S_S100000 main_cst
  let main_v2 : IVec S100000 1 := cmpf .olt main_v0 main_v1
  let main_c : IVec S_ 1 := constantI S_ 1 1#1
  let main_v3 : IVec S_ 1 := (fun x v => Host.reduce IntOp.andi x v reducesTo_S100000_S_d0 h_S_) main_v2 main_c
  let main_v4 : FVec F S100000 .f32 := Host.absf main_arg1
  let main_cst_0 : FVec F S_ .f32 := constant S_ .f32 0x7F800000#32
  let main_v5 : FVec F S100000 .f32 := broadcastInDim S100000 ![] bcast_S_S100000 main_cst_0
  let main_v6 : IVec S100000 1 := cmpf .olt main_v4 main_v5
  let main_c_1 : IVec S_ 1 := constantI S_ 1 1#1
  let main_v7 : IVec S_ 1 := (fun x v => Host.reduce IntOp.andi x v reducesTo_S100000_S_d0 h_S_) main_v6 main_c_1
  let main_v8 : IVec S_ 1 := andi main_v3 main_v7
  let main_v9 : FVec F S2x32 .f32 := Host.absf main_arg3
  let main_cst_2 : FVec F S_ .f32 := constant S_ .f32 0x7F800000#32
  let main_v10 : FVec F S2x32 .f32 := broadcastInDim S2x32 ![] bcast_S_S2x32 main_cst_2
  let main_v11 : IVec S2x32 1 := cmpf .olt main_v9 main_v10
  let main_c_3 : IVec S_ 1 := constantI S_ 1 1#1
  let main_v12 : IVec S_ 1 := (fun x v => Host.reduce IntOp.andi x v reducesTo_S2x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_arg12 main_v13 main_v16
-- ==== Kernel.lean ====
abbrev S100000 : Shape := ⟨1, ![100000]⟩
abbrev S2x2500000 : Shape := ⟨2, ![2, 2500000]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x2500000 : Shape := ⟨2, ![1, 2500000]⟩
abbrev S2500000 : Shape := ⟨1, ![2500000]⟩
abbrev S_ : Shape := ⟨0, ![]⟩
abbrev S2500000x1 : Shape := ⟨2, ![2500000, 1]⟩
abbrev S100000x1 : Shape := ⟨2, ![100000, 1]⟩
abbrev S100000x2 : Shape := ⟨2, ![100000, 2]⟩
abbrev S1x32 : Shape := ⟨2, ![1, 32]⟩
abbrev S100000x32 : Shape := ⟨2, ![100000, 32]⟩
abbrev S5000x2 : Shape := ⟨2, ![5000, 2]⟩
abbrev S5000x1 : Shape := ⟨2, ![5000, 1]⟩
abbrev S5000x32 : Shape := ⟨2, ![5000, 32]⟩
abbrev S2500000x32 : Shape := ⟨2, ![2500000, 32]⟩
abbrev S1x1 : Shape := ⟨2, ![1, 1]⟩

abbrev nBuf : Space → Nat
  | .hbm => 80
  | .vmem => 40
  | .smem => 0
  | _ => 0

abbrev bufTy : (tb : Table) → Fin (tcTables nBuf tb) → BufTy
  | .hbm, ⟨0, _⟩ => ⟨S100000, .f32⟩
  | .hbm, ⟨1, _⟩ => ⟨S100000, .f32⟩
  | .hbm, ⟨2, _⟩ => ⟨S2x2500000, .i32⟩
  | .hbm, ⟨3, _⟩ => ⟨S2x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S32x1, .f32⟩
  | .hbm, ⟨12, _⟩ => ⟨S1, .f32⟩
  | .hbm, ⟨13, _⟩ => ⟨S1x2500000, .i32⟩
  | .hbm, ⟨14, _⟩ => ⟨S2500000, .i32⟩
  | .hbm, ⟨15, _⟩ => ⟨S1x2500000, .i32⟩
  | .hbm, ⟨16, _⟩ => ⟨S2500000, .i32⟩
  | .hbm, ⟨17, _⟩ => ⟨S_, .f32⟩
  | .hbm, ⟨18, _⟩ => ⟨S2500000, .f32⟩
  | .hbm, ⟨19, _⟩ => ⟨S_, .f32⟩
  | .hbm, ⟨20, _⟩ => ⟨S100000, .f32⟩
  | .hbm, ⟨21, _⟩ => ⟨S2500000x1, .i32⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S100000, .f32⟩
  | .hbm, ⟨27, _⟩ => ⟨S100000x1, .f32⟩
  | .hbm, ⟨28, _⟩ => ⟨S100000x1, .f32⟩
  | .hbm, ⟨29, _⟩ => ⟨S100000x1, .f32⟩
  | .hbm, ⟨30, _⟩ => ⟨S100000x2, .f32⟩
  | .hbm, ⟨31, _⟩ => ⟨S1x32, .f32⟩
  | .hbm, ⟨32, _⟩ => ⟨S100000x32, .f32⟩
  | .hbm, ⟨33, _⟩ => ⟨S_, .i32⟩
  | .hbm, ⟨34, _⟩ => ⟨S2500000, .i32⟩
  | .hbm, ⟨35, _⟩ => ⟨S2500000, .i1⟩
  | .hbm, ⟨36, _⟩ => ⟨S_, .i32⟩
  | .hbm, ⟨37, _⟩ => ⟨S2500000, .i32⟩
  | .hbm, ⟨38, _⟩ => ⟨S2500000, .i32⟩
  | .hbm, ⟨39, _⟩ => ⟨S2500000, .i32⟩
  | .hbm, ⟨40, _⟩ => ⟨S2500000x1, .i32⟩
  | .hbm, ⟨41, _⟩ => ⟨S2500000x32, .f32⟩
  | .hbm, ⟨42, _⟩ => ⟨S_, .f32⟩
  | .hbm, ⟨43, _⟩ => ⟨S100000x32, .f32⟩
  | .hbm, ⟨44, _⟩ => ⟨S2500000x1, .i32⟩
  | .hbm, ⟨45, _⟩ => ⟨S100000x32, .f32⟩
  | .hbm, ⟨46, _⟩ => ⟨S1x32, .f32⟩
  | .hbm, ⟨47, _⟩ => ⟨S100000x32, .f32⟩
  | .hbm, ⟨48, _⟩ => ⟨S_, .i32⟩
  | .hbm, ⟨49, _⟩ => ⟨S2500000, .i32⟩
  | .hbm, ⟨50, _⟩ => ⟨S2500000, .i1⟩
  | .hbm, ⟨51, _⟩ => ⟨S_, .i32⟩
  | .hbm, ⟨52, _⟩ => ⟨S2500000, .i32⟩
  | .hbm, ⟨53, _⟩ => ⟨S2500000, .i32⟩
  | .hbm, ⟨54, _⟩ => ⟨S2500000, .i32⟩
  | .hbm, ⟨55, _⟩ => ⟨S2500000x1, .i32⟩
  | .hbm, ⟨56, _⟩ => ⟨S2500000x32, .f32⟩
  | .hbm, ⟨57, _⟩ => ⟨S_, .f32⟩
  | .hbm, ⟨58, _⟩ => ⟨S100000x32, .f32⟩
  | .hbm, ⟨59, _⟩ => ⟨S2500000x1, .i32⟩
  | .hbm, ⟨60, _⟩ => ⟨S100000x32, .f32⟩
  | .hbm, ⟨61, _⟩ => ⟨S1x32, .f32⟩
  | .hbm, ⟨62, _⟩ => ⟨S100000x32, .f32⟩
  | .hbm, ⟨63, _⟩ => ⟨S_, .i32⟩
  | .hbm, ⟨64, _⟩ => ⟨S2500000, .i32⟩
  | .hbm, ⟨65, _⟩ => ⟨S2500000, .i1⟩
  | .hbm, ⟨66, _⟩ => ⟨S_, .i32⟩
  | .hbm, ⟨67, _⟩ => ⟨S2500000, .i32⟩
  | .hbm, ⟨68, _⟩ => ⟨S2500000, .i32⟩
  | .hbm, ⟨69, _⟩ => ⟨S2500000, .i32⟩
  | .hbm, ⟨70, _⟩ => ⟨S2500000x1, .i32⟩
  | .hbm, ⟨71, _⟩ => ⟨S2500000x32, .f32⟩
  | .hbm, ⟨72, _⟩ => ⟨S_, .f32⟩
  | .hbm, ⟨73, _⟩ => ⟨S100000x32, .f32⟩
  | .hbm, ⟨74, _⟩ => ⟨S2500000x1, .i32⟩
  | .hbm, ⟨75, _⟩ => ⟨S100000x32, .f32⟩
  | .hbm, ⟨76, _⟩ => ⟨S1x32, .f32⟩
  | .hbm, ⟨77, _⟩ => ⟨S1x1, .f32⟩
  | .hbm, ⟨78, _⟩ => ⟨S100000x1, .f32⟩
  | .hbm, ⟨79, _⟩ => ⟨S100000, .f32⟩
  | .local _ .vmem, ⟨0, _⟩ => ⟨S5000x2, .f32⟩
  | .local _ .vmem, ⟨1, _⟩ => ⟨S5000x2, .f32⟩
  | .local _ .vmem, ⟨2, _⟩ => ⟨S2x32, .f32⟩
  | .local _ .vmem, ⟨3, _⟩ => ⟨S1x32, .f32⟩
  | .local _ .vmem, ⟨4, _⟩ => ⟨S32x32, .f32⟩
  | .local _ .vmem, ⟨5, _⟩ => ⟨S5000x1, .f32⟩
  | .local _ .vmem, ⟨6, _⟩ => ⟨S5000x1, .f32⟩
  | .local _ .vmem, ⟨7, _⟩ => ⟨S5000x32, .f32⟩
  | .local _ .vmem, ⟨8, _⟩ => ⟨S5000x32, .f32⟩
  | .local _ .vmem, ⟨9, _⟩ => ⟨S5000x32, .f32⟩
  | .local _ .vmem, ⟨10, _⟩ => ⟨S5000x32, .f32⟩
  | .local _ .vmem, ⟨11, _⟩ => ⟨S5000x32, .f32⟩
  | .local _ .vmem, ⟨12, _⟩ => ⟨S5000x32, .f32⟩
  | .local _ .vmem, ⟨13, _⟩ => ⟨S5000x1, .f32⟩
  | .local _ .vmem, ⟨14, _⟩ => ⟨S5000x1, .f32⟩
  | .local _ .vmem, ⟨15, _⟩ => ⟨S1x32, .f32⟩
  | .local _ .vmem, ⟨16, _⟩ => ⟨S32x32, .f32⟩
  | .local _ .vmem, ⟨17, _⟩ => ⟨S5000x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | .local _ .vmem, ⟨22, _⟩ => ⟨S5000x32, .f32⟩
  | .local _ .vmem, ⟨23, _⟩ => ⟨S5000x1, .f32⟩
  | .local _ .vmem, ⟨24, _⟩ => ⟨S5000x1, .f32⟩
  | .local _ .vmem, ⟨25, _⟩ => ⟨S1x32, .f32⟩
  | .local _ .vmem, ⟨26, _⟩ => ⟨S32x32, .f32⟩
  | .local _ .vmem, ⟨27, _⟩ => ⟨S5000x32, .f32⟩
  | .local _ .vmem, ⟨28, _⟩ => ⟨S5000x32, .f32⟩
  | .local _ .vmem, ⟨29, _⟩ => ⟨S5000x32, .f32⟩
  | .local _ .vmem, ⟨30, _⟩ => ⟨S5000x32, .f32⟩
  | .local _ .vmem, ⟨31, _⟩ => ⟨S5000x32, .f32⟩
  | .local _ .vmem, ⟨32, _⟩ => ⟨S5000x32, .f32⟩
  | .local _ .vmem, ⟨33, _⟩ => ⟨S5000x1, .f32⟩
  | .local _ .vmem, ⟨34, _⟩ => ⟨S5000x1, .f32⟩
  | .local _ .vmem, ⟨35, _⟩ => ⟨S1x32, .f32⟩
  | .local _ .vmem, ⟨36, _⟩ => ⟨S32x1, .f32⟩
  | .local _ .vmem, ⟨37, _⟩ => ⟨S1x1, .f32⟩
  | .local _ .vmem, ⟨38, _⟩ => ⟨S5000x1, .f32⟩
  | .local _ .vmem, ⟨39, _⟩ => ⟨S5000x1, .f32⟩
  | _, _ => ⟨S100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_2 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_4 : Ref sig .tc := ⟨.hbm, 48, rfl⟩
abbrev main_v29 : Ref sig .tc := ⟨.hbm, 49, rfl⟩
abbrev main_v30 : Ref sig .tc := ⟨.hbm, 50, rfl⟩
abbrev main_c_5 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_c_7 : Ref sig .tc := ⟨.hbm, 63, rfl⟩
abbrev main_v41 : Ref sig .tc := ⟨.hbm, 64, rfl⟩
abbrev main_v42 : Ref sig .tc := ⟨.hbm, 65, rfl⟩
abbrev main_c_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg5_1 : Ref sig .tc := ⟨.vmem, 28, rfl⟩
abbrev cc3_stg0_0 : Ref sig .tc := ⟨.vmem, 29, rfl⟩
abbrev cc3_stg0_1 : Ref sig .tc := ⟨.vmem, 30, rfl⟩
abbrev cc3_stg1_0 : Ref sig .tc := ⟨.vmem, 31, rfl⟩
abbrev cc3_stg1_1 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem5_1 : DmaSem sig := 28
abbrev cc3_sem0_0 : DmaSem sig := 29
abbrev cc3_sem0_1 : DmaSem sig := 30
abbrev cc3_sem1_0 : DmaSem sig := 31
abbrev cc3_sem1_1 : DmaSem sig := 32
abbrev cc3_sem2_0 : DmaSem sig := 33
abbrev cc3_sem2_1 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x32 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x32 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x32 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S32x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bcast_S_S2500000 : S_.BroadcastsInDim S2500000 (![] : Fin 0 → Fin S2500000.rank)
  bcast_S_S100000 : S_.BroadcastsInDim S100000 (![] : Fin 0 → Fin S100000.rank)
  bcast_S2500000_S2500000x1_0 : S2500000.BroadcastsInDim S2500000x1 (![0] : Fin 1 → Fin S2500000x1.rank)
  shapeCasts_S100000_S100000x1 : S100000.ShapeCasts S100000x1
  bcast_S100000_S100000x1_0 : S100000.BroadcastsInDim S100000x1 (![0] : Fin 1 → Fin S100000x1.rank)
  concatenates_S100000x1_S100000x1_S100000x2_d1 : Shape.Concatenates [S100000x1, S100000x1] S100000x2 1
  shapeCasts_S32_S1x32 : S32.ShapeCasts S1x32
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  bitsLt_bf16_f32 : FTy.bits .bf16 < FTy.bits .f32
  inb_S2x32_S2x32_0_0 : ∀ a, (![0, 0] : Fin 2 → Nat) a + S2x32.size a ≤ S2x32.size a
  h_S2x32 : 0 < S2x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S100000x32 : S_.BroadcastsInDim S100000x32 (![] : Fin 0 → Fin S100000x32.rank)
  shapeCasts_S5000x32_S5000x32 : S5000x32.ShapeCasts S5000x32
  shapeCasts_S1_S1x1 : S1.ShapeCasts S1x1
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  shapeCasts_S100000x1_S100000 : S100000x1.ShapeCasts S100000
  scatter_S100000_S2500000x1_S2500000_n_0_0_1_wf : ScatterDims.WF S100000 S2500000x1 S2500000 [] [0] [0] 1
  dot_S5000x2_S2x32_S5000x32_1_0_0_1_n_n_wf : DotDims.WF S5000x2 S2x32 S5000x32 [1] [0] [0] [1] [] []
  dot_S5000x32_S32x32_S5000x32_1_0_0_1_n_n_wf : DotDims.WF S5000x32 S32x32 S5000x32 [1] [0] [0] [1] [] []
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x2.size a ≤ S100000x2.size a
  hwx0_0 : ∀ i : grid0.Coords, EltTy.bits .f32 = 32 ∨ (Rect.block (s := S100000x2) S5000x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x32.size a ≤ S2x32.size a
  hwx0_1 : ∀ i : grid0.Coords, EltTy.bits .f32 = 32 ∨ (Rect.block (s := S2x32) S2x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S100000x1.size a
  hwx0_4 : ∀ i : grid0.Coords, EltTy.bits .f32 = 32 ∨ (Rect.block (s := S100000x1) S5000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x32.size a ≤ S100000x32.size a
  hwx0_5 : ∀ i : grid0.Coords, EltTy.bits .f32 = 32 ∨ (Rect.block (s := S100000x32) S5000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x32.size a ≤ S100000x32.size a
  hwx1_5 : ∀ i : grid1.Coords, EltTy.bits .f32 = 32 ∨ (Rect.block (s := S100000x32) S5000x32.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x32.size a ≤ S100000x32.size a
  hwx2_1 : ∀ i : grid2.Coords, EltTy.bits .f32 = 32 ∨ (Rect.block (s := S100000x32) S5000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x32.size a ≤ S100000x32.size a
  hwx2_5 : ∀ i : grid2.Coords, EltTy.bits .f32 = 32 ∨ (Rect.block (s := S100000x32) S5000x32.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x32.size a ≤ S100000x32.size a
  hwx3_0 : ∀ i : grid3.Coords, EltTy.bits .f32 = 32 ∨ (Rect.block (s := S100000x32) S5000x32.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x32.size a ≤ S100000x32.size a
  hwx3_1 : ∀ i : grid3.Coords, EltTy.bits .f32 = 32 ∨ (Rect.block (s := S100000x32) S5000x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x32.size a ≤ S1x32.size a
  hwx3_3 : ∀ i : grid3.Coords, EltTy.bits .f32 = 32 ∨ (Rect.block (s := S1x32) S1x32.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S32x1.size a ≤ S32x1.size a
  hwx3_4 : ∀ i : grid3.Coords, EltTy.bits .f32 = 32 ∨ (Rect.block (s := S32x1) S32x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x1.size a ≤ S100000x1.size a
  hwx3_6 : ∀ i : grid3.Coords, EltTy.bits .f32 = 32 ∨ (Rect.block (s := S100000x1) S5000x1.size (cc3_transform_6 i) (hinb3_6 i)).WholeWords (EltTy.packing .f32)

variable [Facts₀]

def scatter_S100000_S2500000x1_S2500000_n_0_0_1 : ScatterDims S100000 S2500000x1 S2500000 where
  updateWindowDims := []
  insertedWindowDims := [0]
  scatterDimsToOperandDims := [0]
  indexVectorDim := 1
  wf := scatter_S100000_S2500000x1_S2500000_n_0_0_1_wf
def dot_S5000x2_S2x32_S5000x32_1_0_0_1_n_n : DotDims S5000x2 S2x32 S5000x32 where
  lhsContracting := [1]
  rhsContracting := [0]
  lhsNonContracting := [0]
  rhsNonContracting := [1]
  lhsBatch := []
  rhsBatch := []
  wf := dot_S5000x2_S2x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf
def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_v14) S5000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S2x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S5000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v16) S5000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v26) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v27) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v28) S5000x32.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S5000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S5000x32.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v50) S5000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v40) S5000x32.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v51) S1x32.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg11) S32x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v52) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v53) S5000x1.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S100000 : Shape := ⟨1, ![100000]⟩
abbrev S2x2500000 : Shape := ⟨2, ![2, 2500000]⟩
abbrev S2x32 : Shape := ⟨2, ![2, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x2500000 : Shape := ⟨2, ![1, 2500000]⟩
abbrev S2500000 : Shape := ⟨1, ![2500000]⟩
abbrev S_ : Shape := ⟨0, ![]⟩
abbrev S2500000x1 : Shape := ⟨2, ![2500000, 1]⟩
abbrev S100000x1 : Shape := ⟨2, ![100000, 1]⟩
abbrev S100000x2 : Shape := ⟨2, ![100000, 2]⟩
abbrev S100000x32 : Shape := ⟨2, ![100000, 32]⟩
abbrev S1x32 : Shape := ⟨2, ![1, 32]⟩
abbrev S2500000x32 : Shape := ⟨2, ![2500000, 32]⟩
abbrev S1x1 : Shape := ⟨2, ![1, 1]⟩

abbrev nBuf : Space → Nat
  | .hbm => 151
  | .vmem => 0
  | .smem => 0
  | _ => 0

abbrev hbmTy0_0 (i : Nat) : BufTy := match i % 128 with
  | 0 => ⟨S100000, .f32⟩
  | 1 => ⟨S100000, .f32⟩
  | 2 => ⟨S2x2500000, .i32⟩
  | 3 => ⟨S2x32, .f32⟩
  | 4 => ⟨S32, .f32⟩
  | 5 => ⟨S32x32, .f32⟩
  | 6 => ⟨S32, .f32⟩
  | 7 => ⟨S32x32, .f32⟩
  | 8 => ⟨S32, .f32⟩
  | 9 => ⟨S32x32, .f32⟩
  | 10 => ⟨S32, .f32⟩
  | 11 => ⟨S32x1, .f32⟩
  | 12 => ⟨S1, .f32⟩
  | 13 => ⟨S1x2500000, .i32⟩
  | 14 => ⟨S2500000, .i32⟩
  | 15 => ⟨S1x2500000, .i32⟩
  | 16 => ⟨S2500000, .i32⟩
  | 17 => ⟨S_, .f32⟩
  | 18 => ⟨S2500000, .f32⟩
  | 19 => ⟨S_, .f32⟩
  | 20 => ⟨S100000, .f32⟩
  | 21 => ⟨S2500000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S2500000, .i32⟩
  | 29 => ⟨S2500000, .i1⟩
  | 30 => ⟨S_, .i32⟩
  | 31 => ⟨S2500000, .i32⟩
  | 32 => ⟨S2500000, .i32⟩
  | 33 => ⟨S2500000, .i32⟩
  | 34 => ⟨S2500000x1, .i32⟩
  | 35 => ⟨S2500000, .f32⟩
  | 36 => ⟨S_, .i32⟩
  | 37 => ⟨S2500000, .i32⟩
  | 38 => ⟨S2500000, .i1⟩
  | 39 => ⟨S_, .i32⟩
  | 40 => ⟨S2500000, .i32⟩
  | 41 => ⟨S2500000, .i32⟩
  | 42 => ⟨S2500000, .i32⟩
  | 43 => ⟨S2500000x1, .i32⟩
  | 44 => ⟨S2500000, .f32⟩
  | 45 => ⟨S2500000, .f32⟩
  | 46 => ⟨S100000x1, .f32⟩
  | 47 => ⟨S100000x1, .f32⟩
  | 48 => ⟨S100000x2, .f32⟩
  | 49 => ⟨S100000x32, .f32⟩
  | 50 => ⟨S1x32, .f32⟩
  | 51 => ⟨S100000x32, .f32⟩
  | 52 => ⟨S100000x32, .f32⟩
  | 53 => ⟨S_, .f32⟩
  | 54 => ⟨S100000x32, .f32⟩
  | 55 => ⟨S100000x32, .f32⟩
  | 56 => ⟨S100000x32, .f32⟩
  | 57 => ⟨S_, .i32⟩
  | 58 => ⟨S2500000, .i32⟩
  | 59 => ⟨S2500000, .i1⟩
  | 60 => ⟨S_, .i32⟩
  | 61 => ⟨S2500000, .i32⟩
  | 62 => ⟨S2500000, .i32⟩
  | 63 => ⟨S2500000, .i32⟩
  | 64 => ⟨S2500000x1, .i32⟩
  | 65 => ⟨S2500000x32, .f32⟩
  | 66 => ⟨S2500000x1, .f32⟩
  | 67 => ⟨S2500000x32, .f32⟩
  | 68 => ⟨S2500000x32, .f32⟩
  | 69 => ⟨S_, .f32⟩
  | 70 => ⟨S100000x32, .f32⟩
  | 71 => ⟨S2500000x1, .i32⟩
  | 72 => ⟨S100000x32, .f32⟩
  | 73 => ⟨S_, .f32⟩
  | 74 => ⟨S100000, .f32⟩
  | 75 => ⟨S100000, .f32⟩
  | 76 => ⟨S100000x1, .f32⟩
  | 77 => ⟨S100000x32, .f32⟩
  | 78 => ⟨S100000x32, .f32⟩
  | 79 => ⟨S100000x32, .f32⟩
  | 80 => ⟨S1x32, .f32⟩
  | 81 => ⟨S100000x32, .f32⟩
  | 82 => ⟨S100000x32, .f32⟩
  | 83 => ⟨S_, .f32⟩
  | 84 => ⟨S100000x32, .f32⟩
  | 85 => ⟨S100000x32, .f32⟩
  | 86 => ⟨S100000x32, .f32⟩
  | 87 => ⟨S_, .i32⟩
  | 88 => ⟨S2500000, .i32⟩
  | 89 => ⟨S2500000, .i1⟩
  | 90 => ⟨S_, .i32⟩
  | 91 => ⟨S2500000, .i32⟩
  | 92 => ⟨S2500000, .i32⟩
  | 93 => ⟨S2500000, .i32⟩
  | 94 => ⟨S2500000x1, .i32⟩
  | 95 => ⟨S2500000x32, .f32⟩
  | 96 => ⟨S2500000x1, .f32⟩
  | 97 => ⟨S2500000x32, .f32⟩
  | 98 => ⟨S2500000x32, .f32⟩
  | 99 => ⟨S_, .f32⟩
  | 100 => ⟨S100000x32, .f32⟩
  | 101 => ⟨S2500000x1, .i32⟩
  | 102 => ⟨S100000x32, .f32⟩
  | 103 => ⟨S_, .f32⟩
  | 104 => ⟨S100000, .f32⟩
  | 105 => ⟨S100000, .f32⟩
  | 106 => ⟨S100000x1, .f32⟩
  | 107 => ⟨S100000x32, .f32⟩
  | 108 => ⟨S100000x32, .f32⟩
  | 109 => ⟨S100000x32, .f32⟩
  | 110 => ⟨S1x32, .f32⟩
  | 111 => ⟨S100000x32, .f32⟩
  | 112 => ⟨S100000x32, .f32⟩
  | 113 => ⟨S_, .f32⟩
  | 114 => ⟨S100000x32, .f32⟩
  | 115 => ⟨S100000x32, .f32⟩
  | 116 => ⟨S100000x32, .f32⟩
  | 117 => ⟨S_, .i32⟩
  | 118 => ⟨S2500000, .i32⟩
  | 119 => ⟨S2500000, .i1⟩
  | 120 => ⟨S_, .i32⟩
  | 121 => ⟨S2500000, .i32⟩
  | 122 => ⟨S2500000, .i32⟩
  | 123 => ⟨S2500000, .i32⟩
  | 124 => ⟨S2500000x1, .i32⟩
  | 125 => ⟨S2500000x32, .f32⟩
  | 126 => ⟨S2500000x1, .f32⟩
  | 127 => ⟨S2500000x32, .f32⟩
  | _ => ⟨S100000, .f32⟩

abbrev hbmTy0_1 (i : Nat) : BufTy := match i % 128 with
  | 0 => ⟨S2500000x32, .f32⟩
  | 1 => ⟨S_, .f32⟩
  | 2 => ⟨S100000x32, .f32⟩
  | 3 => ⟨S2500000x1, .i32⟩
  | 4 => ⟨S100000x32, .f32⟩
  | 5 => ⟨S_, .f32⟩
  | 6 => ⟨S100000, .f32⟩
  | 7 => ⟨S100000, .f32⟩
  | 8 => ⟨S100000x1, .f32⟩
  | 9 => ⟨S100000x32, .f32⟩
  | 10 => ⟨S100000x32, .f32⟩
  | 11 => ⟨S100000x32, .f32⟩
  | 12 => ⟨S1x32, .f32⟩
  | 13 => ⟨S100000x32, .f32⟩
  | 14 => ⟨S100000x32, .f32⟩
  | 15 => ⟨S_, .f32⟩
  | 16 => ⟨S100000x32, .f32⟩
  | 17 => ⟨S100000x32, .f32⟩
  | 18 => ⟨S100000x1, .f32⟩
  | 19 => ⟨S1x1, .f32⟩
  | 20 => ⟨S100000x1, .f32⟩
  | 21 => ⟨S100000x1, .f32⟩
  | 22 => ⟨S100000, .f32⟩
  | _ => ⟨S100000, .f32⟩

abbrev hbmTy (i : Nat) : BufTy := match i / 128 with
  | 0 => hbmTy0_0 i
  | 1 => hbmTy0_1 i
  | _ => ⟨S100000, .f32⟩

abbrev bufTy : (tb : Table) → Fin (tcTables nBuf tb) → BufTy
  | .hbm, ⟨i, _⟩ => hbmTy i
  | _, _ => ⟨S100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c : Ref sig .tc := ⟨.hbm, 27, rfl⟩
abbrev main_v11 : Ref sig .tc := ⟨.hbm, 28, rfl⟩
abbrev main_v12 : Ref sig .tc := ⟨.hbm, 29, rfl⟩
abbrev main_c_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_call0_cst : Ref sig .tc := ⟨.hbm, 53, rfl⟩
abbrev main_call0_v0 : Ref sig .tc := ⟨.hbm, 54, rfl⟩
abbrev main_v33 : Ref sig .tc := ⟨.hbm, 55, rfl⟩
abbrev main_v34 : Ref sig .tc := ⟨.hbm, 56, rfl⟩
abbrev main_c_5 : Ref sig .tc := ⟨.hbm, 57, rfl⟩
abbrev main_v35 : Ref sig .tc := ⟨.hbm, 58, rfl⟩
abbrev main_v36 : Ref sig .tc := ⟨.hbm, 59, rfl⟩
abbrev main_c_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_7 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_call1_cst : Ref sig .tc := ⟨.hbm, 83, rfl⟩
abbrev main_call1_v0 : Ref sig .tc := ⟨.hbm, 84, rfl⟩
abbrev main_v57 : Ref sig .tc := ⟨.hbm, 85, rfl⟩
abbrev main_v58 : Ref sig .tc := ⟨.hbm, 86, rfl⟩
abbrev main_c_9 : Ref sig .tc := ⟨.hbm, 87, rfl⟩
abbrev main_v59 : Ref sig .tc := ⟨.hbm, 88, rfl⟩
abbrev main_v60 : Ref sig .tc := ⟨.hbm, 89, rfl⟩
abbrev main_c_10 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_cst_11 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_cst_12 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_call2_cst : Ref sig .tc := ⟨.hbm, 113, rfl⟩
abbrev main_call2_v0 : Ref sig .tc := ⟨.hbm, 114, rfl⟩
abbrev main_v81 : Ref sig .tc := ⟨.hbm, 115, rfl⟩
abbrev main_v82 : Ref sig .tc := ⟨.hbm, 116, rfl⟩
abbrev main_c_13 : Ref sig .tc := ⟨.hbm, 117, rfl⟩
abbrev main_v83 : Ref sig .tc := ⟨.hbm, 118, rfl⟩
abbrev main_v84 : Ref sig .tc := ⟨.hbm, 119, rfl⟩
abbrev main_c_14 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_cst_15 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_cst_16 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_call3_cst : Ref sig .tc := ⟨.hbm, 143, rfl⟩
abbrev main_call3_v0 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩

abbrev nD : Nat := 1
abbrev τ : Topo := Topo.v7x

variable {F : FTy → Type} [FloatOps F]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bcast_S_S2500000 : S_.BroadcastsInDim S2500000 (![] : Fin 0 → Fin S2500000.rank)
  bcast_S_S100000 : S_.BroadcastsInDim S100000 (![] : Fin 0 → Fin S100000.rank)
  bcast_S2500000_S2500000x1_0 : S2500000.BroadcastsInDim S2500000x1 (![0] : Fin 1 → Fin S2500000x1.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S2500000x1_S2500000x32_0_1 : S2500000x1.BroadcastsInDim S2500000x32 (![0, 1] : Fin 2 → Fin S2500000x32.rank)
  bcast_S100000x1_S100000x32_0_1 : S100000x1.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  shapeCasts_S100000x1_S100000 : S100000x1.ShapeCasts S100000
  scatter_S100000_S2500000x1_S2500000_n_0_0_1_wf : ScatterDims.WF S100000 S2500000x1 S2500000 [] [0] [0] 1
  gather_S100000_S2500000x1_S2500000_n_0_n_n_0_1_1_wf : GatherDims.WF S100000 S2500000x1 S2500000 [] [0] [] [0] [] 1 ![1]
  dot_S100000x2_S2x32_S100000x32_1_0_0_1_n_n_wf : DotDims.WF S100000x2 S2x32 S100000x32 [1] [0] [0] [1] [] []
  dot_S100000x32_S32x32_S100000x32_1_0_0_1_n_n_wf : DotDims.WF S100000x32 S32x32 S100000x32 [1] [0] [0] [1] [] []
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  dot_S100000x32_S32x1_S100000x1_1_0_0_1_n_n_wf : DotDims.WF S100000x32 S32x1 S100000x1 [1] [0] [0] [1] [] []

variable [Facts₀]

def scatter_S100000_S2500000x1_S2500000_n_0_0_1 : ScatterDims S100000 S2500000x1 S2500000 where
  updateWindowDims := []
  insertedWindowDims := [0]
  scatterDimsToOperandDims := [0]
  indexVectorDim := 1
  wf := scatter_S100000_S2500000x1_S2500000_n_0_0_1_wf
def gather_S100000_S2500000x1_S2500000_n_0_n_n_0_1_1 : GatherDims S100000 S2500000x1 S2500000 where
  offsetDims := []
  collapsedSliceDims := [0]
  operandBatchingDims := []
  startIndicesBatchingDims := []
  startIndexMap := [0]
  indexVectorDim := 1
  sliceSizes := ![1]
  wf := gather_S100000_S2500000x1_S2500000_n_0_n_n_0_1_1_wf
def dot_S100000x2_S2x32_S100000x32_1_0_0_1_n_n : DotDims S100000x2 S2x32 S100000x32 where
  lhsContracting := [1]
  rhsContracting := [0]
  lhsNonContracting := [0]
  rhsNonContracting := [1]
  lhsBatch := []
  rhsBatch := []
  wf := dot_S100000x2_S2x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.ResultRun.lean ====
/-
  THE IDEALIZED KERNEL'S RUN, WITH ITS RESULT NAMED.

  The program is four kernel regions among five stretches of host operations. Its buffers' contents at each of the ten
  boundaries are a fold from the launch memory: a stretch applies its operations, a region replaces each of its arrays by what
  its blocks' write-backs leave. Every weakly fair execution terminates, and in every final state each unscoped buffer holds
  the last boundary's contents; read here are the result buffer — at the last boundary's contents, whatever they are — and the
  thirteen argument arrays, which end as launched.
-/
import proofs.«117947_j46849503265421_2_alg».proof.Proof.PatchedKernelIdealFrame

set_option maxRecDepth 16384

noncomputable section

namespace Cert.KernelIdeal.ResultRun

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result buffer ends at the last boundary's contents and the arguments end
    as launched. -/
theorem run_result : θ_run defs (onTc (τ := τ) (main (F := F))) ⟨m, fun _ => 0, ρ⟩ (fun r => ∀ c : Dev nD,
      r.2.mem ((c.tc : Thread nD τ).loc main_v54) = W9 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v54 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c),
       (h c _ (mem_uc main_arg11 (by decide))).trans (W9_main_arg11 m ρ c),
       (h c _ (mem_uc main_arg12 (by decide))).trans (W9_main_arg12 m ρ c)⟩)

end Cert.KernelIdeal.ResultRun

end
-- ==== Proof.GraphConvLaw.lean ====
/-
  THE TWO ARRANGEMENTS OF A GRAPH CONVOLUTION, INDEX BY INDEX, AND THE LAW THAT JOINS THEM.

  A graph has `N` nodes and `E` edges; `S n` is the set of edges that land on node `n`, `s e` the node edge `e` reads its
  message from, `d e` the node whose normaliser edge `e` is weighted by, and `dinv n = deg(n)^(-1/2)`, `rdeg n = 1/deg(n)`.
  For features `h : N × H`:

  * the edge-weighted form sums, over the edges landing on `n`, the source row scaled by the edge weight
    `dinv (s e) · dinv (d e)`, and adds the self loop `h n · rdeg n` (`conv`);
  * the node-scaled form first scales every row, `g n = h n · dinv n`, sums the scaled source rows and the node's own scaled
    row, and scales the total by `dinv n` once (`combine`).

  They agree (`combine_eq_conv`) as soon as `dinv n` is a non-negative REAL number, `dinv n · dinv n = rdeg n`, and an edge
  that lands on `n` is weighted by `n`'s normaliser (`d e = n`): a non-negative real distributes over every sum of extended
  reals, infinite terms included, so nothing is asked of `h`.
-/
import Idealize.ShloMosaic.PureOps.Ideal
import Idealize.ShloMosaic.Lib.ValueIdx

noncomputable section

open scoped BigOperators

namespace Cert.Gcn

/-- The matrix product `X · W` at `(p, q)`. -/
def mm {a k b : Nat} (X : Fin a → Fin k → EReal) (W : Fin k → Fin b → EReal) (p : Fin a) (q : Fin b) : EReal :=
  ∑ j : Fin k, X p j * W j q

/-- A dense layer with a rectifier: `max (X · W + bias) 0`. -/
def dense {a k b : Nat} (X : Fin a → Fin k → EReal) (W : Fin k → Fin b → EReal) (bias : Fin b → EReal)
    (p : Fin a) (q : Fin b) : EReal :=
  max (mm X W p q + bias q) 0

/-- A product's entry reads one row of its left factor. -/
theorem mm_row {a a' k b : Nat} (X : Fin a → Fin k → EReal) (X' : Fin a' → Fin k → EReal) (W : Fin k → Fin b → EReal)
    (p : Fin a) (p' : Fin a') (q : Fin b) (h : ∀ j, X p j = X' p' j) : mm X W p q = mm X' W p' q := by
  unfold mm
  exact Finset.sum_congr rfl fun j _ => by rw [h j]

/-- A dense layer's entry reads one row of its input. -/
theorem dense_row {a a' k b : Nat} (X : Fin a → Fin k → EReal) (X' : Fin a' → Fin k → EReal) (W : Fin k → Fin b → EReal)
    (bias : Fin b → EReal) (p : Fin a) (p' : Fin a') (q : Fin b) (h : ∀ j, X p j = X' p' j) :
    dense X W bias p q = dense X' W bias p' q := by
  unfold dense
  rw [mm_row X X' W p p' q h]

section Graph
variable {N E H : Nat} (S : Fin N → Finset (Fin E)) (s d : Fin E → Fin N) (dinv rdeg : Fin N → EReal)

/-- The node-scaled form: `max (dinv n · ((0 + ∑ e → n, g (s e)) + g n) + bias) 0`. -/
def combine (g : Fin N → Fin H → EReal) (bias : Fin H → EReal) (n : Fin N) (c : Fin H) : EReal :=
  max (dinv n * ((0 + ∑ e ∈ S n, g (s e) c) + g n c) + bias c) 0

/-- The edge-weighted form: `max (((0 + ∑ e → n, h (s e) · (dinv (s e) · dinv (d e))) + h n · rdeg n) + bias) 0`. -/
def conv (h : Fin N → Fin H → EReal) (bias : Fin H → EReal) (n : Fin N) (c : Fin H) : EReal :=
  max (((0 + ∑ e ∈ S n, h (s e) c * (dinv (s e) * dinv (d e))) + h n c * rdeg n) + bias c) 0

/-- A non-negative real factor goes inside a finite sum of extended reals. -/
theorem coe_mul_sum {ι : Type} (r : ℝ) (hr : 0 ≤ r) (T : Finset ι) (f : ι → EReal) :
    (r : EReal) * ∑ e ∈ T, f e = ∑ e ∈ T, (r : EReal) * f e := by
  classical
  induction T using Finset.induction_on with
  | empty => simp
  | insert a T ha ih =>
    rw [Finset.sum_insert ha, Finset.sum_insert ha,
      EReal.left_distrib_of_nonneg_of_ne_top (EReal.coe_nonneg.mpr hr) (EReal.coe_ne_top r), ih]

/-- THE LAW: the node-scaled form of the scaled features is the edge-weighted form of the features. -/
theorem combine_eq_conv (hd : ∀ n, ∃ r : ℝ, 0 ≤ r ∧ dinv n = (r : EReal)) (hsq : ∀ n, dinv n * dinv n = rdeg n)
    (hdst : ∀ n, ∀ e ∈ S n, d e = n) (h : Fin N → Fin H → EReal) (bias : Fin H → EReal) :
    combine S s dinv (fun n c => h n c * dinv n) bias = conv S s d dinv rdeg h bias := by
  funext n c
  unfold combine conv
  obtain ⟨r, hr, hrn⟩ := hd n
  have hsum : dinv n * ∑ e ∈ S n, h (s e) c * dinv (s e) = ∑ e ∈ S n, h (s e) c * (dinv (s e) * dinv (d e)) := by
    rw [hrn, coe_mul_sum r hr]
    refine Finset.sum_congr rfl fun e he => ?_
    rw [hdst n e he, hrn]
    rw [mul_comm (r : EReal), mul_assoc]
  have hself : dinv n * (h n c * dinv n) = h n c * rdeg n := by
    rw [← hsq n, mul_comm (dinv n) (h n c * dinv n), mul_assoc]
  have hdist : dinv n * ((0 + ∑ e ∈ S n, h (s e) c * dinv (s e)) + h n c * dinv n)
      = (0 + ∑ e ∈ S n, h (s e) c * (dinv (s e) * dinv (d e))) + h n c * rdeg n := by
    rw [zero_add, zero_add, ← hsum, ← hself]
    rw [hrn]
    exact EReal.left_distrib_of_nonneg_of_ne_top (EReal.coe_nonneg.mpr hr) (EReal.coe_ne_top r) _ _
  rw [hdist]

end Graph

/-! ## The two whole networks -/

section Network
variable {N E : Nat} (S : Fin N → Finset (Fin E)) (s d : Fin E → Fin N) (dinv rdeg : Fin N → EReal)
  (Xin : Fin N → Fin 2 → EReal) (fc1w : Fin 2 → Fin 32 → EReal) (fc1b : Fin 32 → EReal)
  (w1 : Fin 32 → Fin 32 → EReal) (b1 : Fin 32 → EReal) (w2 : Fin 32 → Fin 32 → EReal) (b2 : Fin 32 → EReal)
  (w3 : Fin 32 → Fin 32 → EReal) (b3 : Fin 32 → EReal) (fc3w : Fin 32 → Fin 1 → EReal) (fc3b : EReal)

/-- Node-scaled features of the next layer: `(X · W) n · dinv n`. -/
def scaled (X : Fin N → Fin 32 → EReal) (W : Fin 32 → Fin 32 → EReal) (n : Fin N) (c : Fin 32) : EReal :=
  mm X W n c * dinv n

/-- The network in the node-scaled arrangement. -/
def outScaled (n : Fin N) : EReal :=
  mm (combine S s dinv (scaled dinv (combine S s dinv (scaled dinv (combine S s dinv
    (scaled dinv (dense Xin fc1w fc1b) w1) b1) w2) b2) w3) b3) fc3w n 0 + fc3b

/-- The network in the edge-weighted arrangement. -/
def outWeighted (n : Fin N) : EReal :=
  mm (conv S s d dinv rdeg (mm (conv S s d dinv rdeg (mm (conv S s d dinv rdeg
    (mm (dense Xin fc1w fc1b) w1) b1) w2) b2) w3) b3) fc3w n 0 + fc3b

/-- The two arrangements of the whole network agree, layer by layer by `combine_eq_conv`. -/
theorem outScaled_eq_outWeighted (hd : ∀ n, ∃ r : ℝ, 0 ≤ r ∧ dinv n = (r : EReal))
    (hsq : ∀ n, dinv n * dinv n = rdeg n) (hdst : ∀ n, ∀ e ∈ S n, d e = n) :
    outScaled S s dinv Xin fc1w fc1b w1 b1 w2 b2 w3 b3 fc3w fc3b
      = outWeighted S s d dinv rdeg Xin fc1w fc1b w1 b1 w2 b2 w3 b3 fc3w fc3b := by
  funext n
  unfold outScaled outWeighted
  have e : ∀ (X : Fin N → Fin 32 → EReal) (W : Fin 32 → Fin 32 → EReal) (bias : Fin 32 → EReal),
      combine S s dinv (scaled dinv X W) bias = conv S s d dinv rdeg (mm X W) bias :=
    fun X W bias => combine_eq_conv S s d dinv rdeg hd hsq hdst (mm X W) bias
  rw [e, e, e]

end Network

/-! ## The normaliser -/

/-- For a real degree `x ≥ 1`: `x^(-1/2)` is a non-negative real whose square is `1/x`. -/
theorem rsqrt_facts (x : ℝ) (hx : 1 ≤ x) :
    (∃ r : ℝ, 0 ≤ r ∧ Idealize.ShloMosaic.Ideal.rsqrt (x : EReal) = (r : EReal)) ∧
      Idealize.ShloMosaic.Ideal.rsqrt (x : EReal) * Idealize.ShloMosaic.Ideal.rsqrt (x : EReal)
        = Idealize.ShloMosaic.Ideal.div 1 (x : EReal) := by
  have hpos : 0 < x := by linarith
  have hne : x ≠ 0 := ne_of_gt hpos
  have hrs : Idealize.ShloMosaic.Ideal.rsqrt (x : EReal) = (((Real.sqrt x)⁻¹ : ℝ) : EReal) := by
    rw [Idealize.ShloMosaic.Ideal.rsqrt_coe, if_neg (not_lt.mpr hpos.le), if_neg hne]
  refine ⟨⟨(Real.sqrt x)⁻¹, inv_nonneg.mpr (Real.sqrt_nonneg x), hrs⟩, ?_⟩
  rw [hrs, Idealize.ShloMosaic.Ideal.div_coe hne, one_mul, ← EReal.coe_mul]
  congr 1
  rw [← mul_inv, Real.mul_self_sqrt hpos.le, one_div]

end Cert.Gcn

end
-- ==== Proof.LibPlainMatmul.lean ====
/-
  THE PLAIN MATRIX PRODUCT, READ AT AN INDEX.

  A contraction of `l : [A, K]` with `r : [K, B]` over the second axis of the left operand and the first of the right
  (no batch axis) — a `tpu.matmul` or a `stablehlo.dot_general` with those dimension numbers — sums over the dot's own
  contraction index. Re-indexed by the contracted coordinate, element `(p, q)` is `∑ k, l[p, k] · r[k, q]`.

  Proved here for every `A`, `K`, `B` and ANY dimension-number record with those fields:
  * `contraction_apply`: the sum over the record's contraction index is the sum over `k : Fin K`;
  * `matmul_zero_apply` / `dotGeneral_plain_apply`: a `tpu.matmul` from the zero accumulator and the host's `dot_general`
    at `(p, q)`, at the ideal values.
-/
import Idealize.ShloMosaic.PureOps.Ideal
import Idealize.ShloMosaic.PureOps.Ideal.Laws
import Idealize.ShloMosaic.Lib.ValueIdx

noncomputable section

open scoped BigOperators

namespace Cert.Lib.PlainMatmul

open Idealize.ShloMosaic Idealize.ShloMosaic.ValueIdx

variable {A K B : Nat}

/-- The plain product's dimension numbers as a record literal (its conditions `wf` arbitrary). -/
abbrev plainDot (A K B : Nat) (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ where
  lhsContracting := [1]
  rhsContracting := [0]
  lhsNonContracting := [0]
  rhsNonContracting := [1]
  lhsBatch := []
  rhsBatch := []
  wf := wf

/-- On the left operand's row axis the dot's left index is the result's row. -/
theorem plainDot_lhs_zero (wf : DotDims.WF ⟨2, ![A, K]⟩ ⟨2, ![K, B]⟩ ⟨2, ![A, B]⟩ [1] [0] [0] [1] [] [])
    (j : (⟨2, ![A, B]⟩ : Shape).Idx) (c : (plainDot A K B wf).contr.Idx) :
    ((plainDot A K B wf).lhsIdx j c 0).val = (j 0).val := by
  unfold DotDims.lhsIdx
  rw [dif_neg (show ¬(0 : Fin 2) ∈ (plainDot A K B wf).lhsBatch from List.not_mem_nil),
    dif_pos (show (0 : Fin 2) ∈ (plainDot A K B wf).lhsNonContracting from List.mem_singleton.mpr rfl)]
  rfl

/-- On the right operand's column axis the dot's right index is the result's column. -/
theorem plainDot_rhs_one (wf : DotDims.WF ⟨2, ![A, K]⟩ ⟨2, ![K, B]⟩ ⟨2, ![A, B]⟩ [1] [0] [0] [1] [] [])
    (j : (⟨2, ![A, B]⟩ : Shape).Idx) (c : (plainDot A K B wf).contr.Idx) :
    ((plainDot A K B wf).rhsIdx j c 1).val = (j 1).val := by
  unfold DotDims.rhsIdx
  rw [dif_neg (show ¬(1 : Fin 2) ∈ (plainDot A K B wf).rhsBatch from List.not_mem_nil),
    dif_pos (show (1 : Fin 2) ∈ (plainDot A K B wf).rhsNonContracting from List.mem_singleton.mpr rfl)]
  rfl

/-- The contraction of the record literal at `(p, q)`, re-indexed by the contracted coordinate. -/
theorem plainDot_contraction (wf : DotDims.WF ⟨2, ![A, K]⟩ ⟨2, ![K, B]⟩ ⟨2, ![A, B]⟩ [1] [0] [0] [1] [] [])
    (l : (⟨2, ![A, K]⟩ : Shape).Idx → EReal) (r : (⟨2, ![K, B]⟩ : Shape).Idx → EReal) (p : Fin A) (q : Fin B) :
    ∑ k : (plainDot A K B wf).contr.Idx, l ((plainDot A K B wf).lhsIdx (ix2 p q) k) * r ((plainDot A K B wf).rhsIdx (ix2 p q) k)
      = ∑ k : Fin K, l (ix2 p k) * r (ix2 k q) := by
  rw [← Equiv.sum_comp (contrEquiv1 (plainDot A K B wf) K rfl rfl).symm]
  refine Finset.sum_congr rfl fun k _ => ?_
  have hk := contrEquiv1_symm_val (plainDot A K B wf) K rfl rfl k
  have el : (plainDot A K B wf).lhsIdx (ix2 p q) ((contrEquiv1 (plainDot A K B wf) K rfl rfl).symm k) = ix2 p k :=
    funext fun a => Fin.ext (by
      match a with
      | ⟨0, _⟩ => exact plainDot_lhs_zero wf _ _
      | ⟨1, _⟩ => exact ((plainDot A K B wf).lhsIdx_val_of_single rfl (ix2 p q) _).trans hk)
  have er : (plainDot A K B wf).rhsIdx (ix2 p q) ((contrEquiv1 (plainDot A K B wf) K rfl rfl).symm k) = ix2 k q :=
    funext fun a => Fin.ext (by
      match a with
      | ⟨0, _⟩ => exact ((plainDot A K B wf).rhsIdx_val_of_single rfl (ix2 p q) _).trans hk
      | ⟨1, _⟩ => exact plainDot_rhs_one wf _ _)
  rw [el, er]

/-- THE CONTRACTION AT `(p, q)`, for any record with the plain product's fields: `∑ k, l[p, k] · r[k, q]`. -/
theorem contraction_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![A, K]⟩ : Shape).Idx → EReal) (r : (⟨2, ![K, B]⟩ : Shape).Idx → EReal) (p : Fin A) (q : Fin B) :
    ∑ k : d.contr.Idx, l (d.lhsIdx (ix2 p q) k) * r (d.rhsIdx (ix2 p q) k) = ∑ k : Fin K, l (ix2 p k) * r (ix2 k q) := by
  obtain ⟨lc, rc, ln, rn, lb, rb, wf⟩ := d
  simp only at h1 h2 h3 h4 h5 h6
  subst h1 h2 h3 h4 h5 h6
  exact plainDot_contraction wf l r p q

/-- A `tpu.matmul` from the zero accumulator at `(p, q)`, at the ideal values. -/
theorem matmul_zero_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![A, K]⟩ .f32) (r : FVec Ideal ⟨2, ![K, B]⟩ .f32) (p : Fin A) (q : Fin B) :
    FloatOps.matmul d prec l r (constant (F := Ideal) ⟨2, ![A, B]⟩ .f32 0x00000000#32) (ix2 p q)
      = ∑ k : Fin K, l (ix2 p k) * r (ix2 k q) :=
  (Ideal.matmul_constant_zero_apply d prec l r (ix2 p q)).trans (contraction_apply d h1 h2 h3 h4 h5 h6 l r p q)

/-- The host's `dot_general` at `(p, q)`, at the ideal values. -/
theorem dotGeneral_plain_apply (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (sched : HostSchedule)
    (l : FVec Ideal ⟨2, ![A, K]⟩ .f32) (r : FVec Ideal ⟨2, ![K, B]⟩ .f32) (p : Fin A) (q : Fin B) :
    FloatOps.dotGeneral d prec sched l r (ix2 p q) = ∑ k : Fin K, l (ix2 p k) * r (ix2 k q) :=
  (Ideal.dotGeneral_apply d prec sched l r (ix2 p q)).trans (contraction_apply d h1 h2 h3 h4 h5 h6 l r p q)

end Cert.Lib.PlainMatmul

end
-- ==== Proof.LibColumnForms.lean ====
/-
  COLUMN AND ROW FORMS READ AT AN INDEX.

  The small layout steps between a vector and a matrix with a unit axis, for every extent and element type:
  * `broadcastTo_col_apply`: a column `[a, 1]` broadcast along the lanes to `[a, b]` reads, at `(p, q)`, the column at `(p, 0)`;
  * `broadcastTo_row_apply`: a row `[1, b]` broadcast along the rows to `[a, b]` reads, at `(p, q)`, the row at `(0, q)`;
  * `shapeCast_col_apply`: a vector `[a]` reshaped to a column `[a, 1]` reads, at `(p, 0)`, the vector at `p`;
  * `shapeCast_row_apply`: a vector `[b]` reshaped to a row `[1, b]` reads, at `(0, q)`, the vector at `q`.
-/
import Idealize.ShloMosaic.Lib.Pipeline.Value
import Idealize.ShloMosaic.Lib.ValueIdx

noncomputable section

namespace Cert.Lib.ColumnForms

open Idealize.ShloMosaic Idealize.ShloMosaic.ValueIdx

variable {α : Type} {a b : Nat}

/-- A column broadcast along the lanes. -/
theorem broadcastTo_col_apply (x : (⟨2, ![a, 1]⟩ : Shape).Idx → α)
    (h : (⟨2, ![a, 1]⟩ : Shape).Broadcasts ⟨2, ![a, b]⟩) (p : Fin a) (q : Fin b) :
    broadcastTo ⟨2, ![a, b]⟩ x h (ix2 p q) = x (ix2 p 0) :=
  broadcastTo_apply x h (ix2 p q) (ix2 p 0) (fun ax => by
    match ax with
    | ⟨0, _⟩ =>
      show p.val = if a = 1 then 0 else p.val
      by_cases ha : a = 1
      · rw [if_pos ha]; have := p.isLt; omega
      · rw [if_neg ha]
    | ⟨1, _⟩ =>
      show 0 = if (1 : Nat) = 1 then 0 else q.val
      rw [if_pos rfl])

/-- A row broadcast along the rows. -/
theorem broadcastTo_row_apply (x : (⟨2, ![1, b]⟩ : Shape).Idx → α)
    (h : (⟨2, ![1, b]⟩ : Shape).Broadcasts ⟨2, ![a, b]⟩) (p : Fin a) (q : Fin b) :
    broadcastTo ⟨2, ![a, b]⟩ x h (ix2 p q) = x (ix2 0 q) :=
  broadcastTo_apply x h (ix2 p q) (ix2 0 q) (fun ax => by
    match ax with
    | ⟨0, _⟩ =>
      show 0 = if (1 : Nat) = 1 then 0 else p.val
      rw [if_pos rfl]
    | ⟨1, _⟩ =>
      show q.val = if b = 1 then 0 else q.val
      by_cases hb : b = 1
      · rw [if_pos hb]; have := q.isLt; omega
      · rw [if_neg hb])

/-- A vector reshaped to a column. -/
theorem shapeCast_col_apply (v : (⟨1, ![a]⟩ : Shape).Idx → α)
    (h : (⟨1, ![a]⟩ : Shape).ShapeCasts ⟨2, ![a, 1]⟩) (p : Fin a) :
    shapeCast ⟨2, ![a, 1]⟩ v h (ix2 p 0) = v (ix1 p) :=
  shapeCast_apply v h (ix2 p 0) (ix1 p) (by
    rw [Shape.rowMajor_val_one, Shape.rowMajor_val_two]
    show p.val = p.val * 1 + 0
    omega)

/-- A vector reshaped to a row. -/
theorem shapeCast_row_apply (v : (⟨1, ![b]⟩ : Shape).Idx → α)
    (h : (⟨1, ![b]⟩ : Shape).ShapeCasts ⟨2, ![1, b]⟩) (q : Fin b) :
    shapeCast ⟨2, ![1, b]⟩ v h (ix2 0 q) = v (ix1 q) :=
  shapeCast_apply v h (ix2 0 q) (ix1 q) (by
    rw [Shape.rowMajor_val_one, Shape.rowMajor_val_two]
    show q.val = 0 * b + q.val
    omega)

end Cert.Lib.ColumnForms

end
-- ==== Proof.BodyReads.lean ====
/-
  THE FOUR KERNEL BODIES' STORED VALUES, READ AT AN INDEX.

  Each body stores one value computed from its loaded blocks. At the ideal values a change of float format is the identity
  and a matrix product from the zero accumulator is the plain sum over the contracted axis, so:

  * the projection body stores `(max (x · fc1w + fc1b) 0 · w) · dinv`, the row's normaliser read from the column block;
  * a combine body stores `(max (dinv · (seg + g) + bias) 0 · w) · dinv`;
  * the final body stores `max (dinv · (seg + g) + bias) 0 · w + bias'`, the last bias a `[1, 1]` block.
-/
import proofs.«117947_j46849503265421_2_alg».proof.Proof.Gen.KernelIdeal.Skeleton
import proofs.«117947_j46849503265421_2_alg».proof.Proof.GraphConvLaw
import proofs.«117947_j46849503265421_2_alg».proof.Proof.LibPlainMatmul
import proofs.«117947_j46849503265421_2_alg».proof.Proof.LibColumnForms
import Idealize.ShloMosaic.Lib.Pipeline.Value
import Idealize.ShloMosaic.Lib.ValueIdx
import Idealize.ShloMosaic.PureOps.Ideal.Laws

noncomputable section

open scoped BigOperators

namespace Cert.KernelIdeal.BodyReads

open Cert.KernelIdeal Cert.KernelIdeal.Gen Idealize.ShloMosaic Idealize.ShloMosaic.ValueIdx Cert.Gcn
open Cert.Lib.PlainMatmul Cert.Lib.ColumnForms

/-- A matrix product from the zero accumulator at `(p, q)`, its operands stored in any two float formats. -/
theorem matmul0_apply {A K B : Nat} {φ₁ φ₂ : FTy} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision)
    (l : FVec Ideal ⟨2, ![A, K]⟩ φ₁) (r : FVec Ideal ⟨2, ![K, B]⟩ φ₂) (p : Fin A) (q : Fin B) :
    matmul d prec l r (constant (F := Ideal) ⟨2, ![A, B]⟩ .f32 0x00000000#32) (ix2 p q)
      = ∑ k : Fin K, (l (ix2 p k) : EReal) * (r (ix2 k q) : EReal) :=
  (Ideal.matmul_constant_zero_apply d prec l r (ix2 p q)).trans
    (contraction_apply d h1 h2 h3 h4 h5 h6 (fun i => (l i : EReal)) (fun i => (r i : EReal)) p q)

/-- The rectifier's zero splat at the ideal values. -/
theorem zero_splat : (FloatOps.ofBits (F := Ideal) .f32 0x00000000#32 : EReal) = 0 := Ideal.ofBits_zero_f32

/-- The projection body's stored value at `(p, q)`. -/
theorem pay0_apply (x0 : Vec Ideal S5000x2 .f32) (x1 : Vec Ideal S2x32 .f32) (x2 : Vec Ideal S1x32 .f32)
    (x3 : Vec Ideal S32x32 .f32) (x4 : Vec Ideal S5000x1 .f32) (p : Fin 5000) (q : Fin 32) :
    k0_pay1 (F := Ideal) x0 x1 x2 x3 x4 (ix2 p q)
      = mm (dense (fun a b => x0 (ix2 a b)) (fun a b => x1 (ix2 a b)) (fun b => x2 (ix2 0 b)))
          (fun a b => x3 (ix2 a b)) p q * x4 (ix2 p 0) := by
  unfold k0_pay1
  simp only [shapeCast_self]
  rw [mulf_apply, matmul0_apply _ rfl rfl rfl rfl rfl rfl, broadcastTo_col_apply]
  unfold mm
  refine congrArg (· * x4 (ix2 p 0)) (Finset.sum_congr rfl fun k _ => ?_)
  rw [truncf_apply, truncf_apply, maximumf_apply, addf_apply, matmul0_apply _ rfl rfl rfl rfl rfl rfl,
    broadcastTo_row_apply, broadcast_apply, zero_splat]
  unfold dense mm
  simp only [truncf_apply]

/-- A combine body's stored value at `(p, q)` (the second region's). -/
theorem pay1_apply (v0 : Vec Ideal S5000x1 .f32) (v2 : Vec Ideal S5000x32 .f32) (v4 : Vec Ideal S5000x32 .f32)
    (v9 : Vec Ideal S1x32 .f32) (v16 : Vec Ideal S32x32 .f32) (p : Fin 5000) (q : Fin 32) :
    k1_pay1 (F := Ideal) v0 v2 v4 v9 v16 (ix2 p q)
      = mm (fun a c => max (v0 (ix2 a 0) * (v2 (ix2 a c) + v4 (ix2 a c)) + v9 (ix2 0 c)) 0)
          (fun a b => v16 (ix2 a b)) p q * v0 (ix2 p 0) := by
  unfold k1_pay1
  simp only [shapeCast_self]
  rw [mulf_apply, matmul0_apply _ rfl rfl rfl rfl rfl rfl, broadcastTo_col_apply]
  unfold mm
  refine congrArg (· * v0 (ix2 p 0)) (Finset.sum_congr rfl fun k _ => ?_)
  rw [truncf_apply, truncf_apply, maximumf_apply, addf_apply, mulf_apply, addf_apply, broadcastTo_col_apply,
    broadcastTo_row_apply, broadcast_apply, zero_splat]

/-- A combine body's stored value at `(p, q)` (the third region's: the same body). -/
theorem pay2_apply (v0 : Vec Ideal S5000x1 .f32) (v2 : Vec Ideal S5000x32 .f32) (v4 : Vec Ideal S5000x32 .f32)
    (v9 : Vec Ideal S1x32 .f32) (v16 : Vec Ideal S32x32 .f32) (p : Fin 5000) (q : Fin 32) :
    k2_pay1 (F := Ideal) v0 v2 v4 v9 v16 (ix2 p q)
      = mm (fun a c => max (v0 (ix2 a 0) * (v2 (ix2 a c) + v4 (ix2 a c)) + v9 (ix2 0 c)) 0)
          (fun a b => v16 (ix2 a b)) p q * v0 (ix2 p 0) := by
  unfold k2_pay1
  simp only [shapeCast_self]
  rw [mulf_apply, matmul0_apply _ rfl rfl rfl rfl rfl rfl, broadcastTo_col_apply]
  unfold mm
  refine congrArg (· * v0 (ix2 p 0)) (Finset.sum_congr rfl fun k _ => ?_)
  rw [truncf_apply, truncf_apply, maximumf_apply, addf_apply, mulf_apply, addf_apply, broadcastTo_col_apply,
    broadcastTo_row_apply, broadcast_apply, zero_splat]

/-- The final body's stored value at `(p, 0)`. -/
theorem pay3_apply (v0 : Vec Ideal S5000x1 .f32) (v2 : Vec Ideal S5000x32 .f32) (v4 : Vec Ideal S5000x32 .f32)
    (v9 : Vec Ideal S1x32 .f32) (v16 : Vec Ideal S32x1 .f32) (v19 : Vec Ideal S1x1 .f32) (p : Fin 5000) :
    k3_pay1 (F := Ideal) v0 v2 v4 v9 v16 v19 (ix2 p 0)
      = mm (fun a c => max (v0 (ix2 a 0) * (v2 (ix2 a c) + v4 (ix2 a c)) + v9 (ix2 0 c)) 0)
          (fun a b => v16 (ix2 a b)) p 0 + v19 (ix2 0 0) := by
  unfold k3_pay1
  simp only [shapeCast_self]
  rw [addf_apply, matmul0_apply _ rfl rfl rfl rfl rfl rfl, broadcastTo_row_apply]
  unfold mm
  refine congrArg (· + v19 (ix2 0 0)) (Finset.sum_congr rfl fun k _ => ?_)
  rw [truncf_apply, truncf_apply, maximumf_apply, addf_apply, mulf_apply, addf_apply, broadcastTo_col_apply,
    broadcastTo_row_apply, broadcast_apply, zero_splat]

end Cert.KernelIdeal.BodyReads

end
-- ==== Proof.Region0.lean ====
/-
  THE FIRST REGION'S RESULT ARRAY AS ONE FUNCTION OF THE ARRAYS IT IS ENTERED WITH.

  The grid has 20 points; point `t` works on rows `5000 t … 5000 t + 4999`: it reads those rows of the `[100000, 2]` input and of
  the normaliser column, the whole of the two weight matrices and of the bias row, and writes those rows of the `[100000, 32]`
  result. A stored entry depends on its own row only, so block `t` of what the body stores is block `t` of ONE function of the
  whole arrays; the 20 row blocks cover the result, which therefore ends holding that function:
  row `n` is `(max (x n · fc1w + fc1b) 0 · w) · dinv n`.
-/
import proofs.«117947_j46849503265421_2_alg».proof.Proof.PatchedKernelIdealFrame
import proofs.«117947_j46849503265421_2_alg».proof.Proof.BodyReads
import Idealize.ShloMosaic.Lib.Pipeline.Value

set_option maxRecDepth 16384

noncomputable section

open scoped BigOperators

namespace Cert.KernelIdeal.Region0

open Cert.KernelIdeal Cert.KernelIdeal.Gen Cert.KernelIdeal.GenP Cert.KernelIdeal.BodyReads
open Idealize.ShloMosaic Idealize.ShloMosaic.TcCoe Idealize.SL.Sem Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A grid point is one of 20. -/
theorem t_lt (t : Fin cfg0.N) : t.val < 20 := by
  have h : t.val < grid0.N := t.isLt
  rw [N_0] at h
  exact h

/-- Row `a` of point `t`'s block is row `5000 t + a` of the array. -/
def nodeAt (t : Fin cfg0.N) (a : Fin 5000) : Fin 100000 :=
  ⟨5000 * t.val + a.val, by have := t_lt t; have := a.isLt; omega⟩

/-- The printed index maps, decided over the grid: a row window's block index is `(t, 0)`, a whole-array window's `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-! ## Each input block as rows of its array -/

theorem blk0_apply (c : Dev nD) (t : Fin cfg0.N) (a : Fin 5000) (b : Fin 2) :
    (iblk0 V c 0 t : Vec Ideal S5000x2 .f32) (ix2 a b) = (V c main_v14 : S100000x2.Idx → EReal) (ix2 (nodeAt t a) b) := by
  obtain ⟨h0, h1, -⟩ := idx_facts t
  unfold iblk0
  rw [View.read_apply]
  show V c main_v14 _ = V c main_v14 _
  congr 1
  funext ax
  apply Fin.ext
  match ax with
  | ⟨0, _⟩ => show win0_0.index t 0 * 5000 + 1 * a.val = 5000 * t.val + a.val; rw [h0]; omega
  | ⟨1, _⟩ => show win0_0.index t 1 * 2 + 1 * b.val = b.val; rw [h1]; omega

theorem blk1_apply (c : Dev nD) (t : Fin cfg0.N) (a : Fin 2) (b : Fin 32) :
    (iblk0 V c 1 t : Vec Ideal S2x32 .f32) (ix2 a b) = (V c main_arg3 : S2x32.Idx → EReal) (ix2 a b) := by
  obtain ⟨-, -, h0, h1, -⟩ := idx_facts t
  unfold iblk0
  rw [View.read_apply]
  show V c main_arg3 _ = V c main_arg3 _
  congr 1
  funext ax
  apply Fin.ext
  match ax with
  | ⟨0, _⟩ => show win0_1.index t 0 * 2 + 1 * a.val = a.val; rw [h0]; omega
  | ⟨1, _⟩ => show win0_1.index t 1 * 32 + 1 * b.val = b.val; rw [h1]; omega

theorem blk2_apply (c : Dev nD) (t : Fin cfg0.N) (a : Fin 1) (b : Fin 32) :
    (iblk0 V c 2 t : Vec Ideal S1x32 .f32) (ix2 a b) = (V c main_v15 : S1x32.Idx → EReal) (ix2 a b) := by
  obtain ⟨-, -, -, -, h0, h1, -⟩ := idx_facts t
  unfold iblk0
  rw [View.read_apply]
  show V c main_v15 _ = V c main_v15 _
  congr 1
  funext ax
  apply Fin.ext
  match ax with
  | ⟨0, _⟩ => show win0_2.index t 0 * 1 + 1 * a.val = a.val; rw [h0]; omega
  | ⟨1, _⟩ => show win0_2.index t 1 * 32 + 1 * b.val = b.val; rw [h1]; omega

theorem blk3_apply (c : Dev nD) (t : Fin cfg0.N) (a : Fin 32) (b : Fin 32) :
    (iblk0 V c 3 t : Vec Ideal S32x32 .f32) (ix2 a b) = (V c main_arg5 : S32x32.Idx → EReal) (ix2 a b) := by
  obtain ⟨-, -, -, -, -, -, h0, h1, -⟩ := idx_facts t
  unfold iblk0
  rw [View.read_apply]
  show V c main_arg5 _ = V c main_arg5 _
  congr 1
  funext ax
  apply Fin.ext
  match ax with
  | ⟨0, _⟩ => show win0_3.index t 0 * 32 + 1 * a.val = a.val; rw [h0]; omega
  | ⟨1, _⟩ => show win0_3.index t 1 * 32 + 1 * b.val = b.val; rw [h1]; omega

theorem blk4_apply (c : Dev nD) (t : Fin cfg0.N) (a : Fin 5000) (b : Fin 1) :
    (iblk0 V c 4 t : Vec Ideal S5000x1 .f32) (ix2 a b) = (V c main_v11 : S100000x1.Idx → EReal) (ix2 (nodeAt t a) b) := by
  obtain ⟨-, -, -, -, -, -, -, -, h0, h1, -⟩ := idx_facts t
  unfold iblk0
  rw [View.read_apply]
  show V c main_v11 _ = V c main_v11 _
  congr 1
  funext ax
  apply Fin.ext
  match ax with
  | ⟨0, _⟩ => show win0_4.index t 0 * 5000 + 1 * a.val = 5000 * t.val + a.val; rw [h0]; omega
  | ⟨1, _⟩ => show win0_4.index t 1 * 1 + 1 * b.val = b.val; rw [h1]; omega

/-! ## The whole-array function -/

/-- What the result array ends holding, as a function of the five arrays the region reads. -/
def G (A0 : S100000x2.Idx → EReal) (A1 : S2x32.Idx → EReal) (A2 : S1x32.Idx → EReal) (A3 : S32x32.Idx → EReal)
    (A4 : S100000x1.Idx → EReal) : S100000x32.Idx → EReal := fun i =>
  mm (dense (fun a b => A0 (ix2 a b)) (fun a b => A1 (ix2 a b)) (fun b => A2 (ix2 0 b))) (fun a b => A3 (ix2 a b))
      (⟨(i 0).val, (i 0).isLt⟩ : Fin 100000) (⟨(i 1).val, (i 1).isLt⟩ : Fin 32)
    * A4 (ix2 (⟨(i 0).val, (i 0).isLt⟩ : Fin 100000) 0)

theorem G_apply (A0 : S100000x2.Idx → EReal) (A1 : S2x32.Idx → EReal) (A2 : S1x32.Idx → EReal) (A3 : S32x32.Idx → EReal)
    (A4 : S100000x1.Idx → EReal) (n : Fin 100000) (q : Fin 32) :
    G A0 A1 A2 A3 A4 (ix2 n q)
      = mm (dense (fun a b => A0 (ix2 a b)) (fun a b => A1 (ix2 a b)) (fun b => A2 (ix2 0 b))) (fun a b => A3 (ix2 a b)) n q
        * A4 (ix2 n 0) := rfl

/-- WHAT POINT `t` WRITES BACK is block `t` of `G` of the arrays as the region finds them. -/
theorem flushed_eq (c : Dev nD) (t : Fin cfg0.N) :
    (dat0 V c).flushed 5 t = ((cfg0.win 5).blk t).view.read (Elt Ideal)
      (G (V c main_v14) (V c main_arg3) (V c main_v15) (V c main_arg5) (V c main_v11)) := by
  show (cfg0.win 5).cut (grid0.coords t) ((dat0 V c).after 5 t) = _
  rw [after0_5]
  unfold out0_5
  rw [View.canon_unit_zero hz]
  simp only [View.ld_unit_zero (S := S5000x2) hz, View.ld_unit_zero (S := S2x32) hz, View.ld_unit_zero (S := S1x32) hz,
    View.ld_unit_zero (S := S32x32) hz, View.ld_unit_zero (S := S5000x1) hz]
  funext j
  obtain ⟨p, q, rfl⟩ : ∃ (p : Fin 5000) (q : Fin 32), j = ix2 p q := ⟨j 0, j 1, eq_ix2 j⟩
  obtain ⟨-, -, -, -, -, -, -, -, -, -, h50, h51⟩ := idx_facts t
  rw [View.read_apply]
  have hemb : ((cfg0.win 5).blk t).view.emb (ix2 p q) = ix2 (nodeAt t p) q := by
    funext ax
    apply Fin.ext
    match ax with
    | ⟨0, _⟩ => show win0_5.index t 0 * 5000 + 1 * p.val = 5000 * t.val + p.val; rw [h50]; omega
    | ⟨1, _⟩ => show win0_5.index t 1 * 32 + 1 * q.val = q.val; rw [h51]; omega
  rw [hemb, G_apply]
  refine (pay0_apply (iblk0 V c 0 t) (iblk0 V c 1 t) (iblk0 V c 2 t) (iblk0 V c 3 t) (iblk0 V c 4 t) p q).trans ?_
  rw [blk4_apply V c t p 0]
  refine congrArg (· * (V c main_v11 : S100000x1.Idx → EReal) (ix2 (nodeAt t p) 0)) ?_
  have e1 : (fun a b => (iblk0 V c 1 t : Vec Ideal S2x32 .f32) (ix2 a b)) = fun a b => (V c main_arg3 : S2x32.Idx → EReal) (ix2 a b) :=
    funext fun a => funext fun b => blk1_apply V c t a b
  have e2 : (fun b => (iblk0 V c 2 t : Vec Ideal S1x32 .f32) (ix2 0 b)) = fun b => (V c main_v15 : S1x32.Idx → EReal) (ix2 0 b) :=
    funext fun b => blk2_apply V c t 0 b
  have e3 : (fun a b => (iblk0 V c 3 t : Vec Ideal S32x32 .f32) (ix2 a b)) = fun a b => (V c main_arg5 : S32x32.Idx → EReal) (ix2 a b) :=
    funext fun a => funext fun b => blk3_apply V c t a b
  rw [e1, e2, e3]
  exact mm_row _ _ _ p (nodeAt t p) q fun k => dense_row _ _ _ _ p (nodeAt t p) k fun j => blk0_apply V c t p j

/-- An index of the array is in point `t`'s block iff each coordinate is in the block's range on its axis. -/
theorem mem_blk (t : Fin cfg0.N) (i : S100000x32.Idx) :
    i ∈ ((cfg0.win 5).blk t).view.set ↔ ∀ a : Fin 2, win0_5.index t a * S5000x32.size a ≤ (i a).val
      ∧ (i a).val < win0_5.index t a * S5000x32.size a + S5000x32.size a := by
  show i ∈ ((View.whole main_v16).slice (win0_5.rect t)).set ↔ _
  rw [View.set_slice_whole, Rect.mem_set_unit]
  exact Iff.rfl

/-- The 20 row blocks cover the array: row `r` is in the block of point `r / 5000`. -/
theorem cover (i : S100000x32.Idx) :
    ∃ t : Fin cfg0.N, (cfg0.win 5).flush t = true ∧ i ∈ ((cfg0.win 5).blk t).view.set := by
  have h0 : (i 0).val < 100000 := (i 0).isLt
  have h1 : (i 1).val < 32 := (i 1).isLt
  have hN : (i 0).val / 5000 < grid0.N := by rw [N_0]; omega
  obtain ⟨-, -, -, -, -, -, -, -, -, -, h50, h51⟩ := idx_facts (⟨(i 0).val / 5000, hN⟩ : Fin cfg0.N)
  refine ⟨⟨(i 0).val / 5000, hN⟩, flush0_5 _, ?_⟩
  rw [mem_blk]
  intro a
  match a with
  | ⟨0, _⟩ =>
    show win0_5.index ⟨(i 0).val / 5000, hN⟩ 0 * 5000 ≤ (i 0).val ∧ (i 0).val < win0_5.index ⟨(i 0).val / 5000, hN⟩ 0 * 5000 + 5000
    rw [h50]
    show (i 0).val / 5000 * 5000 ≤ (i 0).val ∧ (i 0).val < (i 0).val / 5000 * 5000 + 5000
    omega
  | ⟨1, _⟩ =>
    show win0_5.index ⟨(i 0).val / 5000, hN⟩ 1 * 32 ≤ (i 1).val ∧ (i 1).val < win0_5.index ⟨(i 0).val / 5000, hN⟩ 1 * 32 + 32
    rw [h51]
    omega

/-- THE RESULT ARRAY after the region: `G` of the arrays the region is entered with. -/
theorem final (c : Dev nD) :
    (dat0 V c).arrAt 5 cfg0.N = G (V c main_v14) (V c main_arg3) (V c main_v15) (V c main_arg5) (V c main_v11) :=
  (dat0 V c).arrAt_eq_of_cover 5 _ (fun t _ => flushed_eq V c t) cover

end Cert.KernelIdeal.Region0

end
-- ==== Proof.Region1.lean ====
/-
  THE SECOND REGION'S RESULT ARRAY AS ONE FUNCTION OF THE ARRAYS IT IS ENTERED WITH.

  The grid has 20 points; point `t` works on rows `5000 t … 5000 t + 4999`: it reads those rows of the summed messages `seg`, of the
  scaled features `g` and of the normaliser column, the whole bias row and weight matrix, and writes those rows of the
  result. A stored entry depends on its own row only, so block `t` of what the body stores is block `t` of ONE function of the whole
  arrays; the 20 row blocks cover the result, which therefore ends holding that function:
  row `n` is `(max (dinv n · (seg n + g n) + bias) 0 · w) · dinv n`.
-/
import proofs.«117947_j46849503265421_2_alg».proof.Proof.PatchedKernelIdealFrame
import proofs.«117947_j46849503265421_2_alg».proof.Proof.BodyReads
import Idealize.ShloMosaic.Lib.Pipeline.Value

set_option maxRecDepth 16384

noncomputable section

open scoped BigOperators

namespace Cert.KernelIdeal.Region1

open Cert.KernelIdeal Cert.KernelIdeal.Gen Cert.KernelIdeal.GenP Cert.KernelIdeal.BodyReads
open Idealize.ShloMosaic Idealize.ShloMosaic.TcCoe Idealize.SL.Sem Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A grid point is one of 20. -/
theorem t_lt (t : Fin cfg1.N) : t.val < 20 := by
  have h : t.val < grid1.N := t.isLt
  rw [N_1] at h
  exact h

/-- Row `a` of point `t`'s block is row `5000 t + a` of the array. -/
def nodeAt (t : Fin cfg1.N) (a : Fin 5000) : Fin 100000 :=
  ⟨5000 * t.val + a.val, by have := t_lt t; have := a.isLt; omega⟩

/-- The printed index maps, decided over the grid: a row window's block index is `(t, 0)`, a whole-array window's `(0, 0)`. -/
theorem idx_facts : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

/-! ## Each input block as rows of its array -/

theorem blk0_apply (c : Dev nD) (t : Fin cfg1.N) (a : Fin 5000) (b : Fin 32) :
    (iblk1 V c 0 t : Vec Ideal S5000x32 .f32) (ix2 a b) = (V c main_v26 : S100000x32.Idx → EReal) (ix2 (nodeAt t a) b) := by
  obtain ⟨h0, h1, -⟩ := idx_facts t
  unfold iblk1
  rw [View.read_apply]
  show V c main_v26 _ = V c main_v26 _
  congr 1
  funext ax
  apply Fin.ext
  match ax with
  | ⟨0, _⟩ => show win1_0.index t 0 * 5000 + 1 * a.val = 5000 * t.val + a.val; rw [h0]; omega
  | ⟨1, _⟩ => show win1_0.index t 1 * 32 + 1 * b.val = b.val; rw [h1]; omega

theorem blk1_apply (c : Dev nD) (t : Fin cfg1.N) (a : Fin 5000) (b : Fin 32) :
    (iblk1 V c 1 t : Vec Ideal S5000x32 .f32) (ix2 a b) = (V c main_v16 : S100000x32.Idx → EReal) (ix2 (nodeAt t a) b) := by
  obtain ⟨-, -, h0, h1, -⟩ := idx_facts t
  unfold iblk1
  rw [View.read_apply]
  show V c main_v16 _ = V c main_v16 _
  congr 1
  funext ax
  apply Fin.ext
  match ax with
  | ⟨0, _⟩ => show win1_1.index t 0 * 5000 + 1 * a.val = 5000 * t.val + a.val; rw [h0]; omega
  | ⟨1, _⟩ => show win1_1.index t 1 * 32 + 1 * b.val = b.val; rw [h1]; omega

theorem blk2_apply (c : Dev nD) (t : Fin cfg1.N) (a : Fin 5000) (b : Fin 1) :
    (iblk1 V c 2 t : Vec Ideal S5000x1 .f32) (ix2 a b) = (V c main_v11 : S100000x1.Idx → EReal) (ix2 (nodeAt t a) b) := by
  obtain ⟨-, -, -, -, h0, h1, -⟩ := idx_facts t
  unfold iblk1
  rw [View.read_apply]
  show V c main_v11 _ = V c main_v11 _
  congr 1
  funext ax
  apply Fin.ext
  match ax with
  | ⟨0, _⟩ => show win1_2.index t 0 * 5000 + 1 * a.val = 5000 * t.val + a.val; rw [h0]; omega
  | ⟨1, _⟩ => show win1_2.index t 1 * 1 + 1 * b.val = b.val; rw [h1]; omega

theorem blk3_apply (c : Dev nD) (t : Fin cfg1.N) (a : Fin 1) (b : Fin 32) :
    (iblk1 V c 3 t : Vec Ideal S1x32 .f32) (ix2 a b) = (V c main_v27 : S1x32.Idx → EReal) (ix2 a b) := by
  obtain ⟨-, -, -, -, -, -, h0, h1, -⟩ := idx_facts t
  unfold iblk1
  rw [View.read_apply]
  show V c main_v27 _ = V c main_v27 _
  congr 1
  funext ax
  apply Fin.ext
  match ax with
  | ⟨0, _⟩ => show win1_3.index t 0 * 1 + 1 * a.val = a.val; rw [h0]; omega
  | ⟨1, _⟩ => show win1_3.index t 1 * 32 + 1 * b.val = b.val; rw [h1]; omega

theorem blk4_apply (c : Dev nD) (t : Fin cfg1.N) (a : Fin 32) (b : Fin 32) :
    (iblk1 V c 4 t : Vec Ideal S32x32 .f32) (ix2 a b) = (V c main_arg7 : S32x32.Idx → EReal) (ix2 a b) := by
  obtain ⟨-, -, -, -, -, -, -, -, h0, h1, -⟩ := idx_facts t
  unfold iblk1
  rw [View.read_apply]
  show V c main_arg7 _ = V c main_arg7 _
  congr 1
  funext ax
  apply Fin.ext
  match ax with
  | ⟨0, _⟩ => show win1_4.index t 0 * 32 + 1 * a.val = a.val; rw [h0]; omega
  | ⟨1, _⟩ => show win1_4.index t 1 * 32 + 1 * b.val = b.val; rw [h1]; omega

/-! ## The whole-array function -/

/-- What the result array ends holding, as a function of the arrays the region reads. -/
def G (A0 : S100000x32.Idx → EReal) (A1 : S100000x32.Idx → EReal) (A2 : S100000x1.Idx → EReal) (A3 : S1x32.Idx → EReal)
    (A4 : S32x32.Idx → EReal) : S100000x32.Idx → EReal := fun i =>
  mm (fun a c => max (A2 (ix2 a 0) * (A0 (ix2 a c) + A1 (ix2 a c)) + A3 (ix2 0 c)) 0) (fun a b => A4 (ix2 a b))
      (⟨(i 0).val, (i 0).isLt⟩ : Fin 100000) (⟨(i 1).val, (i 1).isLt⟩ : Fin 32)
    * A2 (ix2 (⟨(i 0).val, (i 0).isLt⟩ : Fin 100000) 0)

theorem G_apply (A0 : S100000x32.Idx → EReal) (A1 : S100000x32.Idx → EReal) (A2 : S100000x1.Idx → EReal) (A3 : S1x32.Idx → EReal)
    (A4 : S32x32.Idx → EReal) (n : Fin 100000) (q : Fin 32) :
    G A0 A1 A2 A3 A4 (ix2 n q) = mm (fun a c => max (A2 (ix2 a 0) * (A0 (ix2 a c) + A1 (ix2 a c)) + A3 (ix2 0 c)) 0) (fun a b => A4 (ix2 a b)) n q * A2 (ix2 n 0) := rfl

/-- WHAT POINT `t` WRITES BACK is block `t` of `G` of the arrays as the region finds them. -/
theorem flushed_eq (c : Dev nD) (t : Fin cfg1.N) :
    (dat1 V c).flushed 5 t = ((cfg1.win 5).blk t).view.read (Elt Ideal)
      (G (V c main_v26) (V c main_v16) (V c main_v11) (V c main_v27) (V c main_arg7)) := by
  show (cfg1.win 5).cut (grid1.coords t) ((dat1 V c).after 5 t) = _
  rw [after1_5]
  unfold out1_5
  rw [View.canon_unit_zero hz]
  simp only [View.ld_unit_zero (S := S5000x1) hz, View.ld_unit_zero (S := S5000x32) hz, View.ld_unit_zero (S := S1x32) hz, View.ld_unit_zero (S := S32x32) hz]
  funext j
  obtain ⟨p, q, rfl⟩ : ∃ (p : Fin 5000) (q : Fin 32), j = ix2 p q := ⟨j 0, j 1, eq_ix2 j⟩
  obtain ⟨-, -, -, -, -, -, -, -, -, -, h0, h1⟩ := idx_facts t
  rw [View.read_apply]
  have hemb : ((cfg1.win 5).blk t).view.emb (ix2 p q) = ix2 (nodeAt t p) q := by
    funext ax
    apply Fin.ext
    match ax with
    | ⟨0, _⟩ => show win1_5.index t 0 * 5000 + 1 * p.val = 5000 * t.val + p.val; rw [h0]; omega
    | ⟨1, _⟩ => show win1_5.index t 1 * 32 + 1 * q.val = q.val; rw [h1]; omega
  rw [hemb, G_apply]
  refine (pay1_apply (iblk1 V c 2 t) (iblk1 V c 0 t) (iblk1 V c 1 t) (iblk1 V c 3 t) (iblk1 V c 4 t) p q).trans ?_
  rw [blk2_apply V c t p 0]
  refine congrArg (· * (V c main_v11 : S100000x1.Idx → EReal) (ix2 (nodeAt t p) 0)) ?_
  have e4 : (fun a b => (iblk1 V c 4 t : Vec Ideal S32x32 .f32) (ix2 a b)) = fun a b => (V c main_arg7 : S32x32.Idx → EReal) (ix2 a b) :=
    funext fun a => funext fun b => blk4_apply V c t a b
  rw [e4]
  refine mm_row _ _ _ p (nodeAt t p) q fun k => ?_
  rw [blk2_apply V c t p 0, blk0_apply V c t p k, blk1_apply V c t p k, blk3_apply V c t 0 k]

/-- An index of the array is in point `t`'s block iff each coordinate is in the block's range on its axis. -/
theorem mem_blk (t : Fin cfg1.N) (i : S100000x32.Idx) :
    i ∈ ((cfg1.win 5).blk t).view.set ↔ ∀ a : Fin 2, win1_5.index t a * S5000x32.size a ≤ (i a).val
      ∧ (i a).val < win1_5.index t a * S5000x32.size a + S5000x32.size a := by
  show i ∈ ((View.whole main_v28).slice (win1_5.rect t)).set ↔ _
  rw [View.set_slice_whole, Rect.mem_set_unit]
  exact Iff.rfl

/-- The 20 row blocks cover the array: row `r` is in the block of point `r / 5000`. -/
theorem cover (i : S100000x32.Idx) :
    ∃ t : Fin cfg1.N, (cfg1.win 5).flush t = true ∧ i ∈ ((cfg1.win 5).blk t).view.set := by
  have h0 : (i 0).val < 100000 := (i 0).isLt
  have h1 : (i 1).val < 32 := (i 1).isLt
  have hN : (i 0).val / 5000 < grid1.N := by rw [N_1]; omega
  obtain ⟨-, -, -, -, -, -, -, -, -, -, h0, h1⟩ := idx_facts (⟨(i 0).val / 5000, hN⟩ : Fin cfg1.N)
  refine ⟨⟨(i 0).val / 5000, hN⟩, flush1_5 _, ?_⟩
  rw [mem_blk]
  intro a
  match a with
  | ⟨0, _⟩ =>
    show win1_5.index ⟨(i 0).val / 5000, hN⟩ 0 * 5000 ≤ (i 0).val ∧ (i 0).val < win1_5.index ⟨(i 0).val / 5000, hN⟩ 0 * 5000 + 5000
    rw [h0]
    show (i 0).val / 5000 * 5000 ≤ (i 0).val ∧ (i 0).val < (i 0).val / 5000 * 5000 + 5000
    omega
  | ⟨1, _⟩ =>
    show win1_5.index ⟨(i 0).val / 5000, hN⟩ 1 * 32 ≤ (i 1).val ∧ (i 1).val < win1_5.index ⟨(i 0).val / 5000, hN⟩ 1 * 32 + 32
    rw [h1]
    omega

/-- THE RESULT ARRAY after the region: `G` of the arrays the region is entered with. -/
theorem final (c : Dev nD) :
    (dat1 V c).arrAt 5 cfg1.N = G (V c main_v26) (V c main_v16) (V c main_v11) (V c main_v27) (V c main_arg7) :=
  (dat1 V c).arrAt_eq_of_cover 5 _ (fun t _ => flushed_eq V c t) cover

end Cert.KernelIdeal.Region1

end
-- ==== Proof.Region2.lean ====
/-
  THE THIRD REGION'S RESULT ARRAY AS ONE FUNCTION OF THE ARRAYS IT IS ENTERED WITH.

  The grid has 20 points; point `t` works on rows `5000 t … 5000 t + 4999`: it reads those rows of the summed messages `seg`, of the
  scaled features `g` and of the normaliser column, the whole bias row and weight matrix, and writes those rows of the
  result. A stored entry depends on its own row only, so block `t` of what the body stores is block `t` of ONE function of the whole
  arrays; the 20 row blocks cover the result, which therefore ends holding that function:
  row `n` is `(max (dinv n · (seg n + g n) + bias) 0 · w) · dinv n`.
-/
import proofs.«117947_j46849503265421_2_alg».proof.Proof.PatchedKernelIdealFrame
import proofs.«117947_j46849503265421_2_alg».proof.Proof.BodyReads
import Idealize.ShloMosaic.Lib.Pipeline.Value

set_option maxRecDepth 16384

noncomputable section

open scoped BigOperators

namespace Cert.KernelIdeal.Region2

open Cert.KernelIdeal Cert.KernelIdeal.Gen Cert.KernelIdeal.GenP Cert.KernelIdeal.BodyReads
open Idealize.ShloMosaic Idealize.ShloMosaic.TcCoe Idealize.SL.Sem Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A grid point is one of 20. -/
theorem t_lt (t : Fin cfg2.N) : t.val < 20 := by
  have h : t.val < grid2.N := t.isLt
  rw [N_2] at h
  exact h

/-- Row `a` of point `t`'s block is row `5000 t + a` of the array. -/
def nodeAt (t : Fin cfg2.N) (a : Fin 5000) : Fin 100000 :=
  ⟨5000 * t.val + a.val, by have := t_lt t; have := a.isLt; omega⟩

/-- The printed index maps, decided over the grid: a row window's block index is `(t, 0)`, a whole-array window's `(0, 0)`. -/
theorem idx_facts : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = t.val
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-! ## Each input block as rows of its array -/

theorem blk0_apply (c : Dev nD) (t : Fin cfg2.N) (a : Fin 5000) (b : Fin 32) :
    (iblk2 V c 0 t : Vec Ideal S5000x32 .f32) (ix2 a b) = (V c main_v38 : S100000x32.Idx → EReal) (ix2 (nodeAt t a) b) := by
  obtain ⟨h0, h1, -⟩ := idx_facts t
  unfold iblk2
  rw [View.read_apply]
  show V c main_v38 _ = V c main_v38 _
  congr 1
  funext ax
  apply Fin.ext
  match ax with
  | ⟨0, _⟩ => show win2_0.index t 0 * 5000 + 1 * a.val = 5000 * t.val + a.val; rw [h0]; omega
  | ⟨1, _⟩ => show win2_0.index t 1 * 32 + 1 * b.val = b.val; rw [h1]; omega

theorem blk1_apply (c : Dev nD) (t : Fin cfg2.N) (a : Fin 5000) (b : Fin 32) :
    (iblk2 V c 1 t : Vec Ideal S5000x32 .f32) (ix2 a b) = (V c main_v28 : S100000x32.Idx → EReal) (ix2 (nodeAt t a) b) := by
  obtain ⟨-, -, h0, h1, -⟩ := idx_facts t
  unfold iblk2
  rw [View.read_apply]
  show V c main_v28 _ = V c main_v28 _
  congr 1
  funext ax
  apply Fin.ext
  match ax with
  | ⟨0, _⟩ => show win2_1.index t 0 * 5000 + 1 * a.val = 5000 * t.val + a.val; rw [h0]; omega
  | ⟨1, _⟩ => show win2_1.index t 1 * 32 + 1 * b.val = b.val; rw [h1]; omega

theorem blk2_apply (c : Dev nD) (t : Fin cfg2.N) (a : Fin 5000) (b : Fin 1) :
    (iblk2 V c 2 t : Vec Ideal S5000x1 .f32) (ix2 a b) = (V c main_v11 : S100000x1.Idx → EReal) (ix2 (nodeAt t a) b) := by
  obtain ⟨-, -, -, -, h0, h1, -⟩ := idx_facts t
  unfold iblk2
  rw [View.read_apply]
  show V c main_v11 _ = V c main_v11 _
  congr 1
  funext ax
  apply Fin.ext
  match ax with
  | ⟨0, _⟩ => show win2_2.index t 0 * 5000 + 1 * a.val = 5000 * t.val + a.val; rw [h0]; omega
  | ⟨1, _⟩ => show win2_2.index t 1 * 1 + 1 * b.val = b.val; rw [h1]; omega

theorem blk3_apply (c : Dev nD) (t : Fin cfg2.N) (a : Fin 1) (b : Fin 32) :
    (iblk2 V c 3 t : Vec Ideal S1x32 .f32) (ix2 a b) = (V c main_v39 : S1x32.Idx → EReal) (ix2 a b) := by
  obtain ⟨-, -, -, -, -, -, h0, h1, -⟩ := idx_facts t
  unfold iblk2
  rw [View.read_apply]
  show V c main_v39 _ = V c main_v39 _
  congr 1
  funext ax
  apply Fin.ext
  match ax with
  | ⟨0, _⟩ => show win2_3.index t 0 * 1 + 1 * a.val = a.val; rw [h0]; omega
  | ⟨1, _⟩ => show win2_3.index t 1 * 32 + 1 * b.val = b.val; rw [h1]; omega

theorem blk4_apply (c : Dev nD) (t : Fin cfg2.N) (a : Fin 32) (b : Fin 32) :
    (iblk2 V c 4 t : Vec Ideal S32x32 .f32) (ix2 a b) = (V c main_arg9 : S32x32.Idx → EReal) (ix2 a b) := by
  obtain ⟨-, -, -, -, -, -, -, -, h0, h1, -⟩ := idx_facts t
  unfold iblk2
  rw [View.read_apply]
  show V c main_arg9 _ = V c main_arg9 _
  congr 1
  funext ax
  apply Fin.ext
  match ax with
  | ⟨0, _⟩ => show win2_4.index t 0 * 32 + 1 * a.val = a.val; rw [h0]; omega
  | ⟨1, _⟩ => show win2_4.index t 1 * 32 + 1 * b.val = b.val; rw [h1]; omega

/-! ## The whole-array function -/

/-- What the result array ends holding, as a function of the arrays the region reads. -/
def G (A0 : S100000x32.Idx → EReal) (A1 : S100000x32.Idx → EReal) (A2 : S100000x1.Idx → EReal) (A3 : S1x32.Idx → EReal)
    (A4 : S32x32.Idx → EReal) : S100000x32.Idx → EReal := fun i =>
  mm (fun a c => max (A2 (ix2 a 0) * (A0 (ix2 a c) + A1 (ix2 a c)) + A3 (ix2 0 c)) 0) (fun a b => A4 (ix2 a b))
      (⟨(i 0).val, (i 0).isLt⟩ : Fin 100000) (⟨(i 1).val, (i 1).isLt⟩ : Fin 32)
    * A2 (ix2 (⟨(i 0).val, (i 0).isLt⟩ : Fin 100000) 0)

theorem G_apply (A0 : S100000x32.Idx → EReal) (A1 : S100000x32.Idx → EReal) (A2 : S100000x1.Idx → EReal) (A3 : S1x32.Idx → EReal)
    (A4 : S32x32.Idx → EReal) (n : Fin 100000) (q : Fin 32) :
    G A0 A1 A2 A3 A4 (ix2 n q) = mm (fun a c => max (A2 (ix2 a 0) * (A0 (ix2 a c) + A1 (ix2 a c)) + A3 (ix2 0 c)) 0) (fun a b => A4 (ix2 a b)) n q * A2 (ix2 n 0) := rfl

/-- WHAT POINT `t` WRITES BACK is block `t` of `G` of the arrays as the region finds them. -/
theorem flushed_eq (c : Dev nD) (t : Fin cfg2.N) :
    (dat2 V c).flushed 5 t = ((cfg2.win 5).blk t).view.read (Elt Ideal)
      (G (V c main_v38) (V c main_v28) (V c main_v11) (V c main_v39) (V c main_arg9)) := by
  show (cfg2.win 5).cut (grid2.coords t) ((dat2 V c).after 5 t) = _
  rw [after2_5]
  unfold out2_5
  rw [View.canon_unit_zero hz]
  simp only [View.ld_unit_zero (S := S5000x1) hz, View.ld_unit_zero (S := S5000x32) hz, View.ld_unit_zero (S := S1x32) hz, View.ld_unit_zero (S := S32x32) hz]
  funext j
  obtain ⟨p, q, rfl⟩ : ∃ (p : Fin 5000) (q : Fin 32), j = ix2 p q := ⟨j 0, j 1, eq_ix2 j⟩
  obtain ⟨-, -, -, -, -, -, -, -, -, -, h0, h1⟩ := idx_facts t
  rw [View.read_apply]
  have hemb : ((cfg2.win 5).blk t).view.emb (ix2 p q) = ix2 (nodeAt t p) q := by
    funext ax
    apply Fin.ext
    match ax with
    | ⟨0, _⟩ => show win2_5.index t 0 * 5000 + 1 * p.val = 5000 * t.val + p.val; rw [h0]; omega
    | ⟨1, _⟩ => show win2_5.index t 1 * 32 + 1 * q.val = q.val; rw [h1]; omega
  rw [hemb, G_apply]
  refine (pay2_apply (iblk2 V c 2 t) (iblk2 V c 0 t) (iblk2 V c 1 t) (iblk2 V c 3 t) (iblk2 V c 4 t) p q).trans ?_
  rw [blk2_apply V c t p 0]
  refine congrArg (· * (V c main_v11 : S100000x1.Idx → EReal) (ix2 (nodeAt t p) 0)) ?_
  have e4 : (fun a b => (iblk2 V c 4 t : Vec Ideal S32x32 .f32) (ix2 a b)) = fun a b => (V c main_arg9 : S32x32.Idx → EReal) (ix2 a b) :=
    funext fun a => funext fun b => blk4_apply V c t a b
  rw [e4]
  refine mm_row _ _ _ p (nodeAt t p) q fun k => ?_
  rw [blk2_apply V c t p 0, blk0_apply V c t p k, blk1_apply V c t p k, blk3_apply V c t 0 k]

/-- An index of the array is in point `t`'s block iff each coordinate is in the block's range on its axis. -/
theorem mem_blk (t : Fin cfg2.N) (i : S100000x32.Idx) :
    i ∈ ((cfg2.win 5).blk t).view.set ↔ ∀ a : Fin 2, win2_5.index t a * S5000x32.size a ≤ (i a).val
      ∧ (i a).val < win2_5.index t a * S5000x32.size a + S5000x32.size a := by
  show i ∈ ((View.whole main_v40).slice (win2_5.rect t)).set ↔ _
  rw [View.set_slice_whole, Rect.mem_set_unit]
  exact Iff.rfl

/-- The 20 row blocks cover the array: row `r` is in the block of point `r / 5000`. -/
theorem cover (i : S100000x32.Idx) :
    ∃ t : Fin cfg2.N, (cfg2.win 5).flush t = true ∧ i ∈ ((cfg2.win 5).blk t).view.set := by
  have h0 : (i 0).val < 100000 := (i 0).isLt
  have h1 : (i 1).val < 32 := (i 1).isLt
  have hN : (i 0).val / 5000 < grid2.N := by rw [N_2]; omega
  obtain ⟨-, -, -, -, -, -, -, -, -, -, h0, h1⟩ := idx_facts (⟨(i 0).val / 5000, hN⟩ : Fin cfg2.N)
  refine ⟨⟨(i 0).val / 5000, hN⟩, flush2_5 _, ?_⟩
  rw [mem_blk]
  intro a
  match a with
  | ⟨0, _⟩ =>
    show win2_5.index ⟨(i 0).val / 5000, hN⟩ 0 * 5000 ≤ (i 0).val ∧ (i 0).val < win2_5.index ⟨(i 0).val / 5000, hN⟩ 0 * 5000 + 5000
    rw [h0]
    show (i 0).val / 5000 * 5000 ≤ (i 0).val ∧ (i 0).val < (i 0).val / 5000 * 5000 + 5000
    omega
  | ⟨1, _⟩ =>
    show win2_5.index ⟨(i 0).val / 5000, hN⟩ 1 * 32 ≤ (i 1).val ∧ (i 1).val < win2_5.index ⟨(i 0).val / 5000, hN⟩ 1 * 32 + 32
    rw [h1]
    omega

/-- THE RESULT ARRAY after the region: `G` of the arrays the region is entered with. -/
theorem final (c : Dev nD) :
    (dat2 V c).arrAt 5 cfg2.N = G (V c main_v38) (V c main_v28) (V c main_v11) (V c main_v39) (V c main_arg9) :=
  (dat2 V c).arrAt_eq_of_cover 5 _ (fun t _ => flushed_eq V c t) cover

end Cert.KernelIdeal.Region2

end
-- ==== Proof.Region3.lean ====
/-
  THE LAST REGION'S RESULT ARRAY AS ONE FUNCTION OF THE ARRAYS IT IS ENTERED WITH.

  The grid has 20 points; point `t` works on rows `5000 t … 5000 t + 4999`: it reads those rows of the summed messages `seg`, of the
  scaled features `g` and of the normaliser column, the whole bias row and weight matrix and the `[1, 1]` output bias, and writes those rows of the
  result. A stored entry depends on its own row only, so block `t` of what the body stores is block `t` of ONE function of the whole
  arrays; the 20 row blocks cover the result, which therefore ends holding that function:
  row `n` is `max (dinv n · (seg n + g n) + bias) 0 · w + bias'`.
-/
import proofs.«117947_j46849503265421_2_alg».proof.Proof.PatchedKernelIdealFrame
import proofs.«117947_j46849503265421_2_alg».proof.Proof.BodyReads
import Idealize.ShloMosaic.Lib.Pipeline.Value

set_option maxRecDepth 16384

noncomputable section

open scoped BigOperators

namespace Cert.KernelIdeal.Region3

open Cert.KernelIdeal Cert.KernelIdeal.Gen Cert.KernelIdeal.GenP Cert.KernelIdeal.BodyReads
open Idealize.ShloMosaic Idealize.ShloMosaic.TcCoe Idealize.SL.Sem Idealize.ShloMosaic.ValueIdx Cert.Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A grid point is one of 20. -/
theorem t_lt (t : Fin cfg3.N) : t.val < 20 := by
  have h : t.val < grid3.N := t.isLt
  rw [N_3] at h
  exact h

/-- Row `a` of point `t`'s block is row `5000 t + a` of the array. -/
def nodeAt (t : Fin cfg3.N) (a : Fin 5000) : Fin 100000 :=
  ⟨5000 * t.val + a.val, by have := t_lt t; have := a.isLt; omega⟩

/-- The printed index maps, decided over the grid: a row window's block index is `(t, 0)`, a whole-array window's `(0, 0)`. -/
theorem idx_facts : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = t.val
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = 0
    ∧ win3_5.index t (1 : Fin 2) = 0
    ∧ win3_6.index t (0 : Fin 2) = t.val
    ∧ win3_6.index t (1 : Fin 2) = 0 :=
  (by decide +kernel : ∀ t : Fin grid3.N, _)

/-! ## Each input block as rows of its array -/

theorem blk0_apply (c : Dev nD) (t : Fin cfg3.N) (a : Fin 5000) (b : Fin 32) :
    (iblk3 V c 0 t : Vec Ideal S5000x32 .f32) (ix2 a b) = (V c main_v50 : S100000x32.Idx → EReal) (ix2 (nodeAt t a) b) := by
  obtain ⟨h0, h1, -⟩ := idx_facts t
  unfold iblk3
  rw [View.read_apply]
  show V c main_v50 _ = V c main_v50 _
  congr 1
  funext ax
  apply Fin.ext
  match ax with
  | ⟨0, _⟩ => show win3_0.index t 0 * 5000 + 1 * a.val = 5000 * t.val + a.val; rw [h0]; omega
  | ⟨1, _⟩ => show win3_0.index t 1 * 32 + 1 * b.val = b.val; rw [h1]; omega

theorem blk1_apply (c : Dev nD) (t : Fin cfg3.N) (a : Fin 5000) (b : Fin 32) :
    (iblk3 V c 1 t : Vec Ideal S5000x32 .f32) (ix2 a b) = (V c main_v40 : S100000x32.Idx → EReal) (ix2 (nodeAt t a) b) := by
  obtain ⟨-, -, h0, h1, -⟩ := idx_facts t
  unfold iblk3
  rw [View.read_apply]
  show V c main_v40 _ = V c main_v40 _
  congr 1
  funext ax
  apply Fin.ext
  match ax with
  | ⟨0, _⟩ => show win3_1.index t 0 * 5000 + 1 * a.val = 5000 * t.val + a.val; rw [h0]; omega
  | ⟨1, _⟩ => show win3_1.index t 1 * 32 + 1 * b.val = b.val; rw [h1]; omega

theorem blk2_apply (c : Dev nD) (t : Fin cfg3.N) (a : Fin 5000) (b : Fin 1) :
    (iblk3 V c 2 t : Vec Ideal S5000x1 .f32) (ix2 a b) = (V c main_v11 : S100000x1.Idx → EReal) (ix2 (nodeAt t a) b) := by
  obtain ⟨-, -, -, -, h0, h1, -⟩ := idx_facts t
  unfold iblk3
  rw [View.read_apply]
  show V c main_v11 _ = V c main_v11 _
  congr 1
  funext ax
  apply Fin.ext
  match ax with
  | ⟨0, _⟩ => show win3_2.index t 0 * 5000 + 1 * a.val = 5000 * t.val + a.val; rw [h0]; omega
  | ⟨1, _⟩ => show win3_2.index t 1 * 1 + 1 * b.val = b.val; rw [h1]; omega

theorem blk3_apply (c : Dev nD) (t : Fin cfg3.N) (a : Fin 1) (b : Fin 32) :
    (iblk3 V c 3 t : Vec Ideal S1x32 .f32) (ix2 a b) = (V c main_v51 : S1x32.Idx → EReal) (ix2 a b) := by
  obtain ⟨-, -, -, -, -, -, h0, h1, -⟩ := idx_facts t
  unfold iblk3
  rw [View.read_apply]
  show V c main_v51 _ = V c main_v51 _
  congr 1
  funext ax
  apply Fin.ext
  match ax with
  | ⟨0, _⟩ => show win3_3.index t 0 * 1 + 1 * a.val = a.val; rw [h0]; omega
  | ⟨1, _⟩ => show win3_3.index t 1 * 32 + 1 * b.val = b.val; rw [h1]; omega

theorem blk4_apply (c : Dev nD) (t : Fin cfg3.N) (a : Fin 32) (b : Fin 1) :
    (iblk3 V c 4 t : Vec Ideal S32x1 .f32) (ix2 a b) = (V c main_arg11 : S32x1.Idx → EReal) (ix2 a b) := by
  obtain ⟨-, -, -, -, -, -, -, -, h0, h1, -⟩ := idx_facts t
  unfold iblk3
  rw [View.read_apply]
  show V c main_arg11 _ = V c main_arg11 _
  congr 1
  funext ax
  apply Fin.ext
  match ax with
  | ⟨0, _⟩ => show win3_4.index t 0 * 32 + 1 * a.val = a.val; rw [h0]; omega
  | ⟨1, _⟩ => show win3_4.index t 1 * 1 + 1 * b.val = b.val; rw [h1]; omega

theorem blk5_apply (c : Dev nD) (t : Fin cfg3.N) (a : Fin 1) (b : Fin 1) :
    (iblk3 V c 5 t : Vec Ideal S1x1 .f32) (ix2 a b) = (V c main_v52 : S1x1.Idx → EReal) (ix2 a b) := by
  obtain ⟨-, -, -, -, -, -, -, -, -, -, h0, h1, -⟩ := idx_facts t
  unfold iblk3
  rw [View.read_apply]
  show V c main_v52 _ = V c main_v52 _
  congr 1
  funext ax
  apply Fin.ext
  match ax with
  | ⟨0, _⟩ => show win3_5.index t 0 * 1 + 1 * a.val = a.val; rw [h0]; omega
  | ⟨1, _⟩ => show win3_5.index t 1 * 1 + 1 * b.val = b.val; rw [h1]; omega

/-! ## The whole-array function -/

/-- What the result array ends holding, as a function of the arrays the region reads. -/
def G (A0 : S100000x32.Idx → EReal) (A1 : S100000x32.Idx → EReal) (A2 : S100000x1.Idx → EReal) (A3 : S1x32.Idx → EReal)
    (A4 : S32x1.Idx → EReal) (A5 : S1x1.Idx → EReal) : S100000x1.Idx → EReal := fun i =>
  mm (fun a c => max (A2 (ix2 a 0) * (A0 (ix2 a c) + A1 (ix2 a c)) + A3 (ix2 0 c)) 0) (fun a b => A4 (ix2 a b))
      (⟨(i 0).val, (i 0).isLt⟩ : Fin 100000) (⟨(i 1).val, (i 1).isLt⟩ : Fin 1) + A5 (ix2 0 0)

theorem G_apply (A0 : S100000x32.Idx → EReal) (A1 : S100000x32.Idx → EReal) (A2 : S100000x1.Idx → EReal) (A3 : S1x32.Idx → EReal)
    (A4 : S32x1.Idx → EReal) (A5 : S1x1.Idx → EReal) (n : Fin 100000) (q : Fin 1) :
    G A0 A1 A2 A3 A4 A5 (ix2 n q) = mm (fun a c => max (A2 (ix2 a 0) * (A0 (ix2 a c) + A1 (ix2 a c)) + A3 (ix2 0 c)) 0) (fun a b => A4 (ix2 a b)) n q + A5 (ix2 0 0) := rfl

/-- WHAT POINT `t` WRITES BACK is block `t` of `G` of the arrays as the region finds them. -/
theorem flushed_eq (c : Dev nD) (t : Fin cfg3.N) :
    (dat3 V c).flushed 6 t = ((cfg3.win 6).blk t).view.read (Elt Ideal)
      (G (V c main_v50) (V c main_v40) (V c main_v11) (V c main_v51) (V c main_arg11) (V c main_v52)) := by
  show (cfg3.win 6).cut (grid3.coords t) ((dat3 V c).after 6 t) = _
  rw [after3_6]
  unfold out3_6
  rw [View.canon_unit_zero hz]
  simp only [View.ld_unit_zero (S := S5000x1) hz, View.ld_unit_zero (S := S5000x32) hz, View.ld_unit_zero (S := S1x32) hz, View.ld_unit_zero (S := S32x1) hz, View.ld_unit_zero (S := S1x1) hz]
  funext j
  obtain ⟨p, q, rfl⟩ : ∃ (p : Fin 5000) (q : Fin 1), j = ix2 p q := ⟨j 0, j 1, eq_ix2 j⟩
  obtain ⟨-, -, -, -, -, -, -, -, -, -, -, -, h0, h1⟩ := idx_facts t
  rw [View.read_apply]
  have hemb : ((cfg3.win 6).blk t).view.emb (ix2 p q) = ix2 (nodeAt t p) q := by
    funext ax
    apply Fin.ext
    match ax with
    | ⟨0, _⟩ => show win3_6.index t 0 * 5000 + 1 * p.val = 5000 * t.val + p.val; rw [h0]; omega
    | ⟨1, _⟩ => show win3_6.index t 1 * 1 + 1 * q.val = q.val; rw [h1]; omega
  rw [hemb, G_apply]
  obtain rfl : q = 0 := Subsingleton.elim _ _
  refine (pay3_apply (iblk3 V c 2 t) (iblk3 V c 0 t) (iblk3 V c 1 t) (iblk3 V c 3 t) (iblk3 V c 4 t) (iblk3 V c 5 t) p).trans ?_
  rw [blk5_apply V c t 0 0]
  refine congrArg (· + (V c main_v52 : S1x1.Idx → EReal) (ix2 0 0)) ?_
  have e4 : (fun a b => (iblk3 V c 4 t : Vec Ideal S32x1 .f32) (ix2 a b)) = fun a b => (V c main_arg11 : S32x1.Idx → EReal) (ix2 a b) :=
    funext fun a => funext fun b => blk4_apply V c t a b
  rw [e4]
  refine mm_row _ _ _ p (nodeAt t p) 0 fun k => ?_
  rw [blk2_apply V c t p 0, blk0_apply V c t p k, blk1_apply V c t p k, blk3_apply V c t 0 k]

/-- An index of the array is in point `t`'s block iff each coordinate is in the block's range on its axis. -/
theorem mem_blk (t : Fin cfg3.N) (i : S100000x1.Idx) :
    i ∈ ((cfg3.win 6).blk t).view.set ↔ ∀ a : Fin 2, win3_6.index t a * S5000x1.size a ≤ (i a).val
      ∧ (i a).val < win3_6.index t a * S5000x1.size a + S5000x1.size a := by
  show i ∈ ((View.whole main_v53).slice (win3_6.rect t)).set ↔ _
  rw [View.set_slice_whole, Rect.mem_set_unit]
  exact Iff.rfl

/-- The 20 row blocks cover the array: row `r` is in the block of point `r / 5000`. -/
theorem cover (i : S100000x1.Idx) :
    ∃ t : Fin cfg3.N, (cfg3.win 6).flush t = true ∧ i ∈ ((cfg3.win 6).blk t).view.set := by
  have h0 : (i 0).val < 100000 := (i 0).isLt
  have h1 : (i 1).val < 1 := (i 1).isLt
  have hN : (i 0).val / 5000 < grid3.N := by rw [N_3]; omega
  obtain ⟨-, -, -, -, -, -, -, -, -, -, -, -, h0, h1⟩ := idx_facts (⟨(i 0).val / 5000, hN⟩ : Fin cfg3.N)
  refine ⟨⟨(i 0).val / 5000, hN⟩, flush3_6 _, ?_⟩
  rw [mem_blk]
  intro a
  match a with
  | ⟨0, _⟩ =>
    show win3_6.index ⟨(i 0).val / 5000, hN⟩ 0 * 5000 ≤ (i 0).val ∧ (i 0).val < win3_6.index ⟨(i 0).val / 5000, hN⟩ 0 * 5000 + 5000
    rw [h0]
    show (i 0).val / 5000 * 5000 ≤ (i 0).val ∧ (i 0).val < (i 0).val / 5000 * 5000 + 5000
    omega
  | ⟨1, _⟩ =>
    show win3_6.index ⟨(i 0).val / 5000, hN⟩ 1 * 1 ≤ (i 1).val ∧ (i 1).val < win3_6.index ⟨(i 0).val / 5000, hN⟩ 1 * 1 + 1
    rw [h1]
    omega

/-- THE RESULT ARRAY after the region: `G` of the arrays the region is entered with. -/
theorem final (c : Dev nD) :
    (dat3 V c).arrAt 6 cfg3.N = G (V c main_v50) (V c main_v40) (V c main_v11) (V c main_v51) (V c main_arg11) (V c main_v52) :=
  (dat3 V c).arrAt_eq_of_cover 6 _ (fun t _ => flushed_eq V c t) cover

end Cert.KernelIdeal.Region3

end
-- ==== Proof.LibSegmentSum.lean ====
/-
  ROWS GATHERED AND ROWS SCATTER-ADDED, READ AT AN INDEX.

  What \`x[src]\` of a matrix \`x : [N, C]\` at an integer column \`src : [E, 1]\` is: a \`stablehlo.gather\` of whole rows
  (offset axis 1, collapsed axis 0, start index map [0], slice sizes [1, C], index vector axis 1); and what a segment sum
  of rows \`upd : [E, C]\` into \`[N, C]\` at an integer column \`dst : [E, 1]\` is: a \`stablehlo.scatter\` with an \`add\` body
  (update window axis 1, inserted window axis 0, scatter-dims-to-operand-dims [0], index vector axis 1).

  Proved here, for every \`N\`, \`E\`, \`C\` and index width \`w\`, and for ANY dimension-number records with those fields:
  * \`gather_rows_apply\`: element \`(e, c)\` of the gather is the operand at row \`srcRow e\` — the start index \`src[e, 0]\`
    read as a signed integer and clamped into \`[0, N − 1]\` — and column \`c\`;
  * \`scatterAdd_rows_apply\`: element \`(n, c)\` of the exact scatter-add is the operand's element plus the sum, over the
    edges \`e\` whose index \`dst[e, 0]\`, read signed, is \`n\`, of \`upd[e, c]\` (an index outside \`[0, N)\` names no row: its
    update is dropped);
  * \`segsum_apply\`: the two composed.
-/
import Idealize.ShloMosaic.PureOps.Ideal
import Idealize.ShloMosaic.Lib.ValueIdx

noncomputable section

open scoped BigOperators

namespace Cert.Lib.SegmentSum

open Idealize.ShloMosaic Idealize.ShloMosaic.ValueIdx

/-- In \`Fin 2\`, \`1\` is not \`0\`. -/
theorem fin2_one_ne_zero : ¬ ((1 : Fin 2) = 0) := by decide

/-! ## The gather of rows -/

section Gather
variable {α : Type}

/-- The row gather's dimension numbers as a record literal (its conditions \`wf\` arbitrary). -/
abbrev rowsGather (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row edge \`e\` reads: its start index \`si[e, 0]\` as a signed integer, clamped into \`[0, N − 1]\`. -/
def srcRow {N E w : Nat} (hN : 0 < N) (si : IVec ⟨2, ![E, 1]⟩ w) (e : Fin E) : Fin N :=
  ⟨min (si (ix2 e 0)).toInt.toNat (N - 1), by omega⟩

/-- Row coordinate of the operand index: the clamped start index. -/
theorem rowsGather_operandIdx_zero {N E C w : Nat}
    (wf : GatherDims.WF ⟨2, ![N, C]⟩ ⟨2, ![E, 1]⟩ ⟨2, ![E, C]⟩ [1] [0] [] [0] [] 1 ![1, C])
    (si : IVec ⟨2, ![E, 1]⟩ w) (e : Fin E) (c : Fin C) :
    ((rowsGather N E C wf).operandIdx (ix2 e c) si 0).val = min (si (ix2 e 0)).toInt.toNat (N - 1) := by
  show (rowsGather N E C wf).start (ix2 e c) si 0 + (rowsGather N E C wf).batchCoord (ix2 e c) 0
    + (rowsGather N E C wf).offCoord (ix2 e c) 0 = _
  rw [GatherDims.batchCoord_eq_zero _ _ _ List.not_mem_nil, Nat.add_zero,
    GatherDims.offCoord_eq_zero _ _ _ (fun h => ((GatherDims.mem_sKept _ _).mp h).1 (List.mem_singleton.mpr rfl)),
    Nat.add_zero]
  unfold GatherDims.start
  rw [dif_pos (show (0 : Fin 2) ∈ (rowsGather N E C wf).startIndexMap from List.mem_singleton.mpr rfl)]
  have hsi : (rowsGather N E C wf).siIdx (ix2 e c) ⟨List.idxOf (0 : Fin 2) (rowsGather N E C wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- Column coordinate of the operand index: the result's column. -/
theorem rowsGather_operandIdx_one {N E C w : Nat}
    (wf : GatherDims.WF ⟨2, ![N, C]⟩ ⟨2, ![E, 1]⟩ ⟨2, ![E, C]⟩ [1] [0] [] [0] [] 1 ![1, C])
    (si : IVec ⟨2, ![E, 1]⟩ w) (e : Fin E) (c : Fin C) :
    ((rowsGather N E C wf).operandIdx (ix2 e c) si 1).val = c.val := by
  show (rowsGather N E C wf).start (ix2 e c) si 1 + (rowsGather N E C wf).batchCoord (ix2 e c) 1
    + (rowsGather N E C wf).offCoord (ix2 e c) 1 = _
  rw [GatherDims.batchCoord_eq_zero _ _ _ List.not_mem_nil, Nat.add_zero]
  have hs : (rowsGather N E C wf).start (ix2 e c) si 1 = 0 := by
    unfold GatherDims.start
    rw [dif_neg (show (1 : Fin 2) ∉ (rowsGather N E C wf).startIndexMap from
      fun h => absurd (List.mem_singleton.mp h) fin2_one_ne_zero)]
  rw [hs, Nat.zero_add]
  unfold GatherDims.offCoord
  rw [dif_pos (show (1 : Fin 2) ∈ (rowsGather N E C wf).sKept from (GatherDims.mem_sKept _ _).mpr
    ⟨fun h => absurd (List.mem_singleton.mp h) fin2_one_ne_zero, List.not_mem_nil⟩)]
  rfl

/-- The gather of rows at \`(e, c)\`, for the record literal. -/
theorem rowsGather_apply {N E C w : Nat} (hN : 0 < N)
    (wf : GatherDims.WF ⟨2, ![N, C]⟩ ⟨2, ![E, 1]⟩ ⟨2, ![E, C]⟩ [1] [0] [] [0] [] 1 ![1, C])
    (u : (⟨2, ![N, C]⟩ : Shape).Idx → α) (si : IVec ⟨2, ![E, 1]⟩ w) (e : Fin E) (c : Fin C) :
    Host.gather (rowsGather N E C wf) u si (ix2 e c) = u (ix2 (srcRow hN si e) c) := by
  unfold Host.gather
  congr 1
  funext a
  refine Fin.ext ?_
  match a with
  | ⟨0, _⟩ => exact rowsGather_operandIdx_zero wf si e c
  | ⟨1, _⟩ => exact rowsGather_operandIdx_one wf si e c

end Gather

/-! ## The scatter-add of rows -/

section Scatter

/-- The row scatter's dimension numbers as a record literal (its conditions \`wf\` arbitrary). -/
abbrev rowsScatter (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (di : IVec ⟨2, ![E, 1]⟩ w) (e : Fin E) (c : Fin C)

/-- The window's start on the row axis: the scatter index \`di[e, 0]\`, read signed. -/
theorem rowsScatter_start_zero :
    (rowsScatter N E C wf).start (ix2 e c) di 0 = (di (ix2 e 0)).toInt := by
  unfold ScatterDims.start
  rw [dif_pos (show (0 : Fin 2) ∈ (rowsScatter N E C wf).scatterDimsToOperandDims from List.mem_singleton.mpr rfl)]
  have hsi : (rowsScatter N E C wf).siIdx (ix2 e c) ⟨List.idxOf (0 : Fin 2) (rowsScatter N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The window's start on the column axis: \`0\`. -/
theorem rowsScatter_start_one : (rowsScatter N E C wf).start (ix2 e c) di 1 = 0 := by
  unfold ScatterDims.start
  rw [dif_neg (show (1 : Fin 2) ∉ (rowsScatter N E C wf).scatterDimsToOperandDims from
    fun h => absurd (List.mem_singleton.mp h) fin2_one_ne_zero)]

/-- The window coordinate on the row axis (an inserted axis): \`0\`. -/
theorem rowsScatter_window_zero : (rowsScatter N E C wf).window (ix2 e c) 0 = 0 := by
  unfold ScatterDims.window
  rw [dif_neg (show (0 : Fin 2) ∉ (rowsScatter N E C wf).sKept from
    fun h => of_decide_eq_true (List.mem_filter.mp h).2 (List.mem_singleton.mpr rfl))]

/-- The window coordinate on the column axis: the update's column. -/
theorem rowsScatter_window_one : (rowsScatter N E C wf).window (ix2 e c) 1 = c.val := by
  unfold ScatterDims.window
  rw [dif_pos (show (1 : Fin 2) ∈ (rowsScatter N E C wf).sKept from
    List.mem_filter.mpr ⟨List.mem_finRange _,
      decide_eq_true (fun h => absurd (List.mem_singleton.mp h) fin2_one_ne_zero)⟩)]
  rfl

/-- WHERE AN UPDATE LANDS: update \`(e, c')\` lands on operand element \`(n, c)\` exactly when its scatter index, read
    signed, is \`n\` and its column is \`c\`. -/
theorem rowsScatter_resultIdx?_eq_some_iff (c' : Fin C) (n : Fin N) :
    (rowsScatter N E C wf).resultIdx? (ix2 e c') di = some (ix2 n c) ↔
      (di (ix2 e 0)).toInt = (n.val : ℤ) ∧ c' = c := by
  unfold ScatterDims.resultIdx?
  constructor
  · intro h
    split at h
    · rename_i hh
      have hf := Option.some.inj h
      have e0 : ((rowsScatter N E C wf).start (ix2 e c') di 0 + ((rowsScatter N E C wf).window (ix2 e c') 0 : ℤ)).toNat
          = n.val := congrArg Fin.val (congrFun hf 0)
      have e1 : ((rowsScatter N E C wf).start (ix2 e c') di 1 + ((rowsScatter N E C wf).window (ix2 e c') 1 : ℤ)).toNat
          = c.val := congrArg Fin.val (congrFun hf 1)
      have p0 : 0 ≤ (rowsScatter N E C wf).start (ix2 e c') di 0 + ((rowsScatter N E C wf).window (ix2 e c') 0 : ℤ) :=
        (hh 0).1
      rw [rowsScatter_start_zero, rowsScatter_window_zero] at e0 p0
      rw [rowsScatter_start_one, rowsScatter_window_one] at e1
      refine ⟨by omega, Fin.ext (by omega)⟩
    · exact absurd h (by simp)
  · rintro ⟨ht, rfl⟩
    have hh : ∀ a, 0 ≤ (rowsScatter N E C wf).start (ix2 e c') di a + ((rowsScatter N E C wf).window (ix2 e c') a : ℤ) ∧
        (rowsScatter N E C wf).start (ix2 e c') di a + ((rowsScatter N E C wf).window (ix2 e c') a : ℤ)
          < ((⟨2, ![N, C]⟩ : Shape).size a : ℤ) := by
      refine Fin.forall_fin_two.mpr ⟨?_, ?_⟩
      · rw [rowsScatter_start_zero, rowsScatter_window_zero, ht]
        have := n.isLt
        show _ ∧ _ < (N : ℤ)
        omega
      · rw [rowsScatter_start_one, rowsScatter_window_one]
        have := c'.isLt
        show _ ∧ _ < (C : ℤ)
        omega
    rw [dif_pos hh]
    congr 1
    funext a
    refine Fin.ext ?_
    match a with
    | ⟨0, _⟩ =>
      show ((rowsScatter N E C wf).start (ix2 e c') di 0 + ((rowsScatter N E C wf).window (ix2 e c') 0 : ℤ)).toNat = n.val
      rw [rowsScatter_start_zero, rowsScatter_window_zero, ht]; omega
    | ⟨1, _⟩ =>
      show ((rowsScatter N E C wf).start (ix2 e c') di 1 + ((rowsScatter N E C wf).window (ix2 e c') 1 : ℤ)).toNat = c'.val
      rw [rowsScatter_start_one, rowsScatter_window_one]; omega

/-- THE SCATTER-ADD OF ROWS AT \`(n, c)\`, for the record literal: the operand's element plus the sum of column \`c\` of the
    updates of the edges whose scatter index, read signed, is \`n\`. -/
theorem rowsScatter_add_apply (z : (⟨2, ![N, C]⟩ : Shape).Idx → EReal) (upd : (⟨2, ![E, C]⟩ : Shape).Idx → EReal)
    (n : Fin N) :
    Ideal.hostScatterAdd (rowsScatter N E C wf) z di upd (ix2 n c) =
      z (ix2 n c) + ∑ e ∈ Finset.univ.filter (fun e : Fin E => (di (ix2 e 0)).toInt = (n.val : ℤ)), upd (ix2 e c) := by
  unfold Ideal.hostScatterAdd
  congr 1
  refine Finset.sum_nbij' (fun j => j 0) (fun e => ix2 e c) ?_ ?_ ?_ ?_ ?_
  · intro j hj
    have h := (Finset.mem_filter.mp hj).2
    rw [eq_ix2 j] at h
    exact Finset.mem_filter.mpr ⟨Finset.mem_univ _, ((rowsScatter_resultIdx?_eq_some_iff wf di (j 0) c (j 1) n).mp h).1⟩
  · intro e he
    have h := (Finset.mem_filter.mp he).2
    exact Finset.mem_filter.mpr ⟨Finset.mem_univ _, (rowsScatter_resultIdx?_eq_some_iff wf di e c c n).mpr ⟨h, rfl⟩⟩
  · intro j hj
    have h := (Finset.mem_filter.mp hj).2
    rw [eq_ix2 j] at h
    have hc := ((rowsScatter_resultIdx?_eq_some_iff wf di (j 0) c (j 1) n).mp h).2
    rw [← hc]; exact (eq_ix2 j).symm
  · intro e _; rfl
  · intro j hj
    have h := (Finset.mem_filter.mp hj).2
    rw [eq_ix2 j] at h
    have hc := ((rowsScatter_resultIdx?_eq_some_iff wf di (j 0) c (j 1) n).mp h).2
    rw [← hc]; exact congrArg upd (eq_ix2 j)

end Scatter

/-! ## Any records with those fields, and the two composed -/

section Records
variable {N E C w : Nat}

/-- THE GATHER OF ROWS AT \`(e, c)\`: the operand at row \`srcRow e\` — the start index \`si[e, 0]\` read signed and clamped into
    \`[0, N − 1]\` — and column \`c\`, for any record with the row gather's fields. -/
theorem gather_rows_apply {α : Type} (hN : 0 < N) (g : GatherDims ⟨2, ![N, C]⟩ ⟨2, ![E, 1]⟩ ⟨2, ![E, C]⟩)
    (h1 : g.offsetDims = [1]) (h2 : g.collapsedSliceDims = [0]) (h3 : g.operandBatchingDims = [])
    (h4 : g.startIndicesBatchingDims = []) (h5 : g.startIndexMap = [0]) (h6 : g.indexVectorDim = 1)
    (h7 : g.sliceSizes = ![1, C])
    (u : (⟨2, ![N, C]⟩ : Shape).Idx → α) (si : IVec ⟨2, ![E, 1]⟩ w) (e : Fin E) (c : Fin C) :
    Host.gather g u si (ix2 e c) = u (ix2 (srcRow hN si e) c) := by
  obtain ⟨od, cd, ob, sb, sm, iv, ss, wf⟩ := g
  simp only at h1 h2 h3 h4 h5 h6 h7
  subst h1 h2 h3 h4 h5 h6 h7
  exact rowsGather_apply hN wf u si e c

/-- THE SCATTER-ADD OF ROWS AT \`(n, c)\`: the operand's element plus the sum, over the edges \`e\` whose scatter index
    \`di[e, 0]\`, read signed, is \`n\`, of \`upd[e, c]\`, for any record with the row scatter's fields. -/
theorem scatterAdd_rows_apply (d : ScatterDims ⟨2, ![N, C]⟩ ⟨2, ![E, 1]⟩ ⟨2, ![E, C]⟩)
    (h1 : d.updateWindowDims = [1]) (h2 : d.insertedWindowDims = [0]) (h3 : d.scatterDimsToOperandDims = [0])
    (h4 : d.indexVectorDim = 1)
    (z : (⟨2, ![N, C]⟩ : Shape).Idx → EReal) (di : IVec ⟨2, ![E, 1]⟩ w) (upd : (⟨2, ![E, C]⟩ : Shape).Idx → EReal)
    (n : Fin N) (c : Fin C) :
    Ideal.hostScatterAdd d z di upd (ix2 n c) =
      z (ix2 n c) + ∑ e ∈ Finset.univ.filter (fun e : Fin E => (di (ix2 e 0)).toInt = (n.val : ℤ)), upd (ix2 e c) := by
  obtain ⟨uw, iw, sd, iv, wf⟩ := d
  simp only at h1 h2 h3 h4
  subst h1 h2 h3 h4
  exact rowsScatter_add_apply wf di c z upd n

/-- THE SEGMENT SUM OF GATHERED ROWS AT \`(n, c)\`: the operand's element plus the sum, over the edges \`e\` whose
    destination index, read signed, is \`n\`, of column \`c\` of the source row of \`e\`. -/
theorem segsum_apply (hN : 0 < N) (d : ScatterDims ⟨2, ![N, C]⟩ ⟨2, ![E, 1]⟩ ⟨2, ![E, C]⟩)
    (g : GatherDims ⟨2, ![N, C]⟩ ⟨2, ![E, 1]⟩ ⟨2, ![E, C]⟩)
    (hd1 : d.updateWindowDims = [1]) (hd2 : d.insertedWindowDims = [0]) (hd3 : d.scatterDimsToOperandDims = [0])
    (hd4 : d.indexVectorDim = 1)
    (hg1 : g.offsetDims = [1]) (hg2 : g.collapsedSliceDims = [0]) (hg3 : g.operandBatchingDims = [])
    (hg4 : g.startIndicesBatchingDims = []) (hg5 : g.startIndexMap = [0]) (hg6 : g.indexVectorDim = 1)
    (hg7 : g.sliceSizes = ![1, C])
    (z u : (⟨2, ![N, C]⟩ : Shape).Idx → EReal) (di si : IVec ⟨2, ![E, 1]⟩ w) (n : Fin N) (c : Fin C) :
    Ideal.hostScatterAdd d z di (Host.gather g u si) (ix2 n c) =
      z (ix2 n c) + ∑ e ∈ Finset.univ.filter (fun e : Fin E => (di (ix2 e 0)).toInt = (n.val : ℤ)),
        u (ix2 (srcRow hN si e) c) := by
  rw [scatterAdd_rows_apply d hd1 hd2 hd3 hd4]
  congr 1
  exact Finset.sum_congr rfl fun e _ => gather_rows_apply hN g hg1 hg2 hg3 hg4 hg5 hg6 hg7 u si e c

end Records

end Cert.Lib.SegmentSum

end
-- ==== Proof.LibBroadcastInDim.lean ====
/-
  THE HOST'S `broadcast_in_dim` BETWEEN A VECTOR AND A MATRIX, READ AT AN INDEX.

  The keepdims steps of a host program, for every extent and element type:
  * `bid_vec_col_apply`: a vector `[a]` placed on axis 0 of a column `[a, 1]` reads, at `(p, 0)`, the vector at `p`;
  * `bid_col_mat_apply`: a column `[a, 1]` placed on axes `(0, 1)` of `[a, b]` reads, at `(p, q)`, the column at `(p, 0)`;
  * `bid_vec_row_apply`: a vector `[b]` placed on axis 1 of a row `[1, b]` reads, at `(0, q)`, the vector at `q`;
  * `bid_row_mat_apply`: a row `[1, b]` placed on axes `(0, 1)` of `[a, b]` reads, at `(p, q)`, the row at `(0, q)`;
  * `bid_scalar_apply`: a rank-0 value broadcast to any shape reads, everywhere, that value.
-/
import Idealize.ShloMosaic.Lib.Pipeline.Value
import Idealize.ShloMosaic.Lib.ValueIdx

noncomputable section

namespace Cert.Lib.BroadcastInDim

open Idealize.ShloMosaic Idealize.ShloMosaic.ValueIdx

variable {α : Type} {a b : Nat}

/-- A vector placed on axis 0 of a column. -/
theorem bid_vec_col_apply (v : (⟨1, ![a]⟩ : Shape).Idx → α)
    (h : (⟨1, ![a]⟩ : Shape).BroadcastsInDim ⟨2, ![a, 1]⟩ ![0]) (p : Fin a) :
    broadcastInDim ⟨2, ![a, 1]⟩ ![0] h v (ix2 p 0) = v (ix1 p) :=
  broadcastInDim_apply _ h v (ix2 p 0) (ix1 p) (fun ax => by
    match ax with
    | ⟨0, _⟩ =>
      show p.val = if a = 1 then 0 else p.val
      by_cases ha : a = 1
      · rw [if_pos ha]; have := p.isLt; omega
      · rw [if_neg ha])

/-- A column placed on axes `(0, 1)` of a matrix. -/
theorem bid_col_mat_apply (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p 0) :=
  broadcastInDim_apply _ h x (ix2 p q) (ix2 p 0) (fun ax => by
    match ax with
    | ⟨0, _⟩ =>
      show p.val = if a = 1 then 0 else p.val
      by_cases ha : a = 1
      · rw [if_pos ha]; have := p.isLt; omega
      · rw [if_neg ha]
    | ⟨1, _⟩ =>
      show 0 = if (1 : Nat) = 1 then 0 else q.val
      rw [if_pos rfl])

/-- A vector placed on axis 1 of a row. -/
theorem bid_vec_row_apply (v : (⟨1, ![b]⟩ : Shape).Idx → α)
    (h : (⟨1, ![b]⟩ : Shape).BroadcastsInDim ⟨2, ![1, b]⟩ ![1]) (q : Fin b) :
    broadcastInDim ⟨2, ![1, b]⟩ ![1] h v (ix2 0 q) = v (ix1 q) :=
  broadcastInDim_apply _ h v (ix2 0 q) (ix1 q) (fun ax => by
    match ax with
    | ⟨0, _⟩ =>
      show q.val = if b = 1 then 0 else q.val
      by_cases hb : b = 1
      · rw [if_pos hb]; have := q.isLt; omega
      · rw [if_neg hb])

/-- A row placed on axes `(0, 1)` of a matrix. -/
theorem bid_row_mat_apply (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 0 q) :=
  broadcastInDim_apply _ h x (ix2 p q) (ix2 0 q) (fun ax => by
    match ax with
    | ⟨0, _⟩ =>
      show 0 = if (1 : Nat) = 1 then 0 else p.val
      rw [if_pos rfl]
    | ⟨1, _⟩ =>
      show q.val = if b = 1 then 0 else q.val
      by_cases hb : b = 1
      · rw [if_pos hb]; have := q.isLt; omega
      · rw [if_neg hb])

/-- A rank-0 value broadcast to any shape. -/
theorem bid_scalar_apply {t : Shape} (x : (⟨0, ![]⟩ : Shape).Idx → α)
    (h : (⟨0, ![]⟩ : Shape).BroadcastsInDim t ![]) (j : t.Idx) :
    broadcastInDim t ![] h x j = x (fun ax => ax.elim0) :=
  broadcastInDim_apply _ h x j (fun ax => ax.elim0) (fun ax => ax.elim0)

end Cert.Lib.BroadcastInDim

end
-- ==== Proof.KernelValue.lean ====
/-
  THE IDEALIZED KERNEL'S RESULT, INDEX BY INDEX, IS THE NODE-SCALED NETWORK.

  Between the four regions the host gathers the wrapped source rows of the last scaled feature array and scatter-adds them at
  the raw destination index: at `(n, q)` that is the sum, over the edges that land on `n`, of column `q` of the source row. Each
  region's result array is one function of the arrays it is entered with (the four region modules); a buffer that no stretch writes
  and no region flushes keeps its contents from one boundary to the next. Chained from the first region's entry to the last
  boundary, the result at node `n` is the node-scaled network of GraphConvLaw.lean over
  * `landing n`: the edges whose destination index, read signed, is `n`;
  * `srcNode e`: the edge's wrapped source index, read signed and clamped into `[0, N − 1]`;
  * the normaliser column, the stacked input and the weights as the first region finds them.
-/
import proofs.«117947_j46849503265421_2_alg».proof.Proof.PatchedKernelIdealFrame
import proofs.«117947_j46849503265421_2_alg».proof.Proof.Region0
import proofs.«117947_j46849503265421_2_alg».proof.Proof.Region1
import proofs.«117947_j46849503265421_2_alg».proof.Proof.Region2
import proofs.«117947_j46849503265421_2_alg».proof.Proof.Region3
import proofs.«117947_j46849503265421_2_alg».proof.Proof.GraphConvLaw
import proofs.«117947_j46849503265421_2_alg».proof.Proof.LibSegmentSum
import proofs.«117947_j46849503265421_2_alg».proof.Proof.LibBroadcastInDim
import proofs.«117947_j46849503265421_2_alg».proof.Proof.LibColumnForms
import Idealize.ShloMosaic.Lib.StableHlo.Run
import Idealize.ShloMosaic.Lib.Pipeline.Value
import Idealize.ShloMosaic.PureOps.Ideal.Laws

set_option maxRecDepth 16384

noncomputable section

open scoped BigOperators

namespace Cert.KernelIdeal.KernelValue

open Cert.KernelIdeal Cert.KernelIdeal.Gen Cert.KernelIdeal.GenP
open Idealize.ShloMosaic Idealize.ShloMosaic.TcCoe Idealize.SL.Sem Idealize.ShloMosaic.StableHlo Idealize.ShloMosaic.ValueIdx Cert.Gcn
open Cert.Lib.SegmentSum Cert.Lib.BroadcastInDim Cert.Lib.ColumnForms
open Idealize.ShloMosaic.Pipeline (Dat)

theorem hN : 0 < 100000 := by decide

/-! ## The summed messages -/

/-- The wrapped source column of a source index vector: a negative index has `100000` added. -/
def srcWrapCol (src : IVec S2500000 32) : IVec S2500000x1 32 :=
  broadcastInDim S2500000x1 ![0] bcast_S2500000_S2500000x1_0
    (select (cmpi .slt src (broadcastInDim S2500000 ![] bcast_S_S2500000 (constantI S_ 32 0#32)))
      (addi src (broadcastInDim S2500000 ![] bcast_S_S2500000 (constantI S_ 32 100000#32))) src)

/-- The raw destination column of a destination index vector. -/
def dstRawCol (dst : IVec S2500000 32) : IVec S2500000x1 32 :=
  broadcastInDim S2500000x1 ![0] bcast_S2500000_S2500000x1_0 dst

/-- The host's summed messages of a feature array. -/
def segArr (g : FVec Ideal S100000x32 .f32) (src dst : IVec S2500000 32) : FVec Ideal S100000x32 .f32 :=
  Host.scatterAdd scatter_S100000x32_S2500000x1_S2500000x32_1_0_0_1
    (broadcastInDim S100000x32 ![] bcast_S_S100000x32 (constant (F := Ideal) S_ .f32 0x00000000#32))
    (dstRawCol dst)
    (Host.gather gather_S100000x32_S2500000x1_S2500000x32_1_0_n_n_0_1_132 g (srcWrapCol src))

/-- The edges that land on node `n`. -/
def landing (dst : IVec S2500000 32) (n : Fin 100000) : Finset (Fin 2500000) :=
  Finset.univ.filter (fun e : Fin 2500000 => (dstRawCol dst (ix2 e 0)).toInt = (n.val : ℤ))

/-- The node an edge reads its message from. -/
def srcNode (src : IVec S2500000 32) (e : Fin 2500000) : Fin 100000 := srcRow hN (srcWrapCol src) e

theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-- The summed messages at `(n, q)`. -/
theorem segArr_apply (g : FVec Ideal S100000x32 .f32) (src dst : IVec S2500000 32) (n : Fin 100000) (q : Fin 32) :
    segArr g src dst (ix2 n q) = 0 + ∑ e ∈ landing dst n, g (ix2 (srcNode src e) q) := by
  unfold segArr
  rw [scatterAdd_ideal, segsum_apply hN scatter_S100000x32_S2500000x1_S2500000x32_1_0_0_1
    gather_S100000x32_S2500000x1_S2500000x32_1_0_n_n_0_1_132 rfl rfl rfl rfl rfl rfl rfl rfl rfl rfl rfl]
  rw [bid_scalar_apply, constant_apply, Ideal.ofBits_zero_f32]
  rfl

variable (m : (ℓ : Loc nD τ sig) → Buf (Elt Ideal) ℓ) (ρ : Dev nD → PrngReg)

/-! ## What the first region is entered with -/

abbrev srcVec (c : Dev nD) : IVec S2500000 32 := W1 m ρ c (Proc.devRef .tc main_v1)
abbrev dstVec (c : Dev nD) : IVec S2500000 32 := W1 m ρ c (Proc.devRef .tc main_v3)
abbrev dinvCol (c : Dev nD) : S100000x1.Idx → EReal := W1 m ρ c (Proc.devRef .tc main_v11)
abbrev xin (c : Dev nD) : S100000x2.Idx → EReal := W1 m ρ c (Proc.devRef .tc main_v14)

/-! ## Buffers that persist from boundary to boundary -/

/-- No operation of the stretch writes the buffer. -/
macro "host_keep" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

-- the source and destination index vectors
theorem src_W2 (c : Dev nD) : W2 m ρ c (Proc.devRef .tc main_v1) = W1 m ρ c (Proc.devRef .tc main_v1) := W2_of_ne m ρ c main_v1 (by decide)
theorem src_W3 (c : Dev nD) : W3 m ρ c (Proc.devRef .tc main_v1) = W1 m ρ c (Proc.devRef .tc main_v1) :=
  (by host_keep hostOps1 : W3 m ρ c (Proc.devRef .tc main_v1) = W2 m ρ c (Proc.devRef .tc main_v1)).trans (src_W2 m ρ c)
theorem src_W4 (c : Dev nD) : W4 m ρ c (Proc.devRef .tc main_v1) = W1 m ρ c (Proc.devRef .tc main_v1) :=
  (W4_of_ne m ρ c main_v1 (by decide)).trans (src_W3 m ρ c)
theorem src_W5 (c : Dev nD) : W5 m ρ c (Proc.devRef .tc main_v1) = W1 m ρ c (Proc.devRef .tc main_v1) :=
  (by host_keep hostOps2 : W5 m ρ c (Proc.devRef .tc main_v1) = W4 m ρ c (Proc.devRef .tc main_v1)).trans (src_W4 m ρ c)
theorem src_W6 (c : Dev nD) : W6 m ρ c (Proc.devRef .tc main_v1) = W1 m ρ c (Proc.devRef .tc main_v1) :=
  (W6_of_ne m ρ c main_v1 (by decide)).trans (src_W5 m ρ c)
theorem dst_W2 (c : Dev nD) : W2 m ρ c (Proc.devRef .tc main_v3) = W1 m ρ c (Proc.devRef .tc main_v3) := W2_of_ne m ρ c main_v3 (by decide)
theorem dst_W3 (c : Dev nD) : W3 m ρ c (Proc.devRef .tc main_v3) = W1 m ρ c (Proc.devRef .tc main_v3) :=
  (by host_keep hostOps1 : W3 m ρ c (Proc.devRef .tc main_v3) = W2 m ρ c (Proc.devRef .tc main_v3)).trans (dst_W2 m ρ c)
theorem dst_W4 (c : Dev nD) : W4 m ρ c (Proc.devRef .tc main_v3) = W1 m ρ c (Proc.devRef .tc main_v3) :=
  (W4_of_ne m ρ c main_v3 (by decide)).trans (dst_W3 m ρ c)
theorem dst_W5 (c : Dev nD) : W5 m ρ c (Proc.devRef .tc main_v3) = W1 m ρ c (Proc.devRef .tc main_v3) :=
  (by host_keep hostOps2 : W5 m ρ c (Proc.devRef .tc main_v3) = W4 m ρ c (Proc.devRef .tc main_v3)).trans (dst_W4 m ρ c)
theorem dst_W6 (c : Dev nD) : W6 m ρ c (Proc.devRef .tc main_v3) = W1 m ρ c (Proc.devRef .tc main_v3) :=
  (W6_of_ne m ρ c main_v3 (by decide)).trans (dst_W5 m ρ c)

-- the normaliser column: an input window of every region
theorem dinv_W3 (c : Dev nD) : W3 m ρ c (Proc.devRef .tc main_v11) = W1 m ρ c (Proc.devRef .tc main_v11) :=
  (by host_keep hostOps1 : W3 m ρ c (Proc.devRef .tc main_v11) = W2 m ρ c (Proc.devRef .tc main_v11)).trans
    ((W2_arr m ρ c 4).trans (((dat0 (V1 m ρ) c).arrAt_in 4 rfl _).trans (A_eq0 (V1 m ρ) c 4)))
theorem dinv_W5 (c : Dev nD) : W5 m ρ c (Proc.devRef .tc main_v11) = W1 m ρ c (Proc.devRef .tc main_v11) :=
  (by host_keep hostOps2 : W5 m ρ c (Proc.devRef .tc main_v11) = W4 m ρ c (Proc.devRef .tc main_v11)).trans
    (((W4_arr m ρ c 2).trans (((dat1 (V3 m ρ) c).arrAt_in 2 rfl _).trans (A_eq1 (V3 m ρ) c 2))).trans (dinv_W3 m ρ c))
theorem dinv_W7 (c : Dev nD) : W7 m ρ c (Proc.devRef .tc main_v11) = W1 m ρ c (Proc.devRef .tc main_v11) :=
  (by host_keep hostOps3 : W7 m ρ c (Proc.devRef .tc main_v11) = W6 m ρ c (Proc.devRef .tc main_v11)).trans
    (((W6_arr m ρ c 2).trans (((dat2 (V5 m ρ) c).arrAt_in 2 rfl _).trans (A_eq2 (V5 m ρ) c 2))).trans (dinv_W5 m ρ c))

-- the arguments, from the launch to where they are read
theorem arg_W1 (b : Ref sig .tc) (c : Dev nD) (h : W1 m ρ c (Proc.devRef .tc b) = W0 m ρ c (Proc.devRef .tc b)) :
    W1 m ρ c (Proc.devRef .tc b) = m ((c : Thread nD τ).loc b) := h.trans rfl
theorem arg3_W1 (c : Dev nD) : W1 m ρ c (Proc.devRef .tc main_arg3) = (m ((c : Thread nD τ).loc main_arg3)) := arg_W1 m ρ main_arg3 c (by host_keep hostOps0)
theorem arg5_W1 (c : Dev nD) : W1 m ρ c (Proc.devRef .tc main_arg5) = (m ((c : Thread nD τ).loc main_arg5)) := arg_W1 m ρ main_arg5 c (by host_keep hostOps0)
theorem arg6_W2 (c : Dev nD) : W2 m ρ c (Proc.devRef .tc main_arg6) = (m ((c : Thread nD τ).loc main_arg6)) :=
  (W2_of_ne m ρ c main_arg6 (by decide)).trans (arg_W1 m ρ main_arg6 c (by host_keep hostOps0))
theorem arg7_W3 (c : Dev nD) : W3 m ρ c (Proc.devRef .tc main_arg7) = (m ((c : Thread nD τ).loc main_arg7)) :=
  (by host_keep hostOps1 : W3 m ρ c (Proc.devRef .tc main_arg7) = W2 m ρ c (Proc.devRef .tc main_arg7)).trans
    ((W2_of_ne m ρ c main_arg7 (by decide)).trans (arg_W1 m ρ main_arg7 c (by host_keep hostOps0)))
theorem arg8_W4 (c : Dev nD) : W4 m ρ c (Proc.devRef .tc main_arg8) = (m ((c : Thread nD τ).loc main_arg8)) :=
  (W4_of_ne m ρ c main_arg8 (by decide)).trans
    ((by host_keep hostOps1 : W3 m ρ c (Proc.devRef .tc main_arg8) = W2 m ρ c (Proc.devRef .tc main_arg8)).trans
      ((W2_of_ne m ρ c main_arg8 (by decide)).trans (arg_W1 m ρ main_arg8 c (by host_keep hostOps0))))
theorem arg9_W5 (c : Dev nD) : W5 m ρ c (Proc.devRef .tc main_arg9) = (m ((c : Thread nD τ).loc main_arg9)) :=
  (by host_keep hostOps2 : W5 m ρ c (Proc.devRef .tc main_arg9) = W4 m ρ c (Proc.devRef .tc main_arg9)).trans
    ((W4_of_ne m ρ c main_arg9 (by decide)).trans
      ((by host_keep hostOps1 : W3 m ρ c (Proc.devRef .tc main_arg9) = W2 m ρ c (Proc.devRef .tc main_arg9)).trans
        ((W2_of_ne m ρ c main_arg9 (by decide)).trans (arg_W1 m ρ main_arg9 c (by host_keep hostOps0)))))
theorem arg_W6 (b : Ref sig .tc) (c : Dev nD) (h6 : ∀ w, Pipeline.arrRef spec2 w ≠ b) (h4 : ∀ w, Pipeline.arrRef spec1 w ≠ b)
    (h2 : ∀ w, Pipeline.arrRef spec0 w ≠ b)
    (k5 : W5 m ρ c (Proc.devRef .tc b) = W4 m ρ c (Proc.devRef .tc b)) (k3 : W3 m ρ c (Proc.devRef .tc b) = W2 m ρ c (Proc.devRef .tc b))
    (k1 : W1 m ρ c (Proc.devRef .tc b) = W0 m ρ c (Proc.devRef .tc b)) :
    W6 m ρ c (Proc.devRef .tc b) = m ((c : Thread nD τ).loc b) :=
  (W6_of_ne m ρ c b h6).trans (k5.trans ((W4_of_ne m ρ c b h4).trans (k3.trans ((W2_of_ne m ρ c b h2).trans (k1.trans rfl)))))
theorem arg10_W6 (c : Dev nD) : W6 m ρ c (Proc.devRef .tc main_arg10) = (m ((c : Thread nD τ).loc main_arg10)) :=
  arg_W6 m ρ main_arg10 c (by decide) (by decide) (by decide) (by host_keep hostOps2) (by host_keep hostOps1) (by host_keep hostOps0)
theorem arg12_W6 (c : Dev nD) : W6 m ρ c (Proc.devRef .tc main_arg12) = (m ((c : Thread nD τ).loc main_arg12)) :=
  arg_W6 m ρ main_arg12 c (by decide) (by decide) (by decide) (by host_keep hostOps2) (by host_keep hostOps1) (by host_keep hostOps0)
theorem arg11_W7 (c : Dev nD) : W7 m ρ c (Proc.devRef .tc main_arg11) = (m ((c : Thread nD τ).loc main_arg11)) :=
  (by host_keep hostOps3 : W7 m ρ c (Proc.devRef .tc main_arg11) = W6 m ρ c (Proc.devRef .tc main_arg11)).trans
    (arg_W6 m ρ main_arg11 c (by decide) (by decide) (by decide) (by host_keep hostOps2) (by host_keep hostOps1) (by host_keep hostOps0))

/-! ## The scaled feature arrays after each region, and the result -/

abbrev g1 (c : Dev nD) : S100000x32.Idx → EReal := W2 m ρ c (Proc.devRef .tc main_v16)
abbrev g2 (c : Dev nD) : S100000x32.Idx → EReal := W4 m ρ c (Proc.devRef .tc main_v28)
abbrev g3 (c : Dev nD) : S100000x32.Idx → EReal := W6 m ρ c (Proc.devRef .tc main_v40)

/-- The first bias row is the first bias argument. -/
theorem bias0_apply (c : Dev nD) (b : Fin 32) :
    (V1 m ρ c main_v15 : S1x32.Idx → EReal) (ix2 0 b) = ((m ((c : Thread nD τ).loc main_arg4)) : S32.Idx → EReal) (ix1 b) := by
  show StableHlo.after hostOps0 (W0 m ρ c) (Proc.devRef .tc main_v15) (ix2 0 b) = _
  after_results
  show (shapeCast S1x32 (W0 m ρ c (Proc.devRef .tc main_arg4)) shapeCasts_S32_S1x32 : S1x32.Idx → EReal) (ix2 0 b) = _
  exact shapeCast_row_apply _ _ b

/-- After the first region: the scaled features of the first convolution. -/
theorem g1_fun (c : Dev nD) :
    (fun a b => g1 m ρ c (ix2 a b))
      = scaled (fun a => dinvCol m ρ c (ix2 a 0))
          (dense (fun a b => xin m ρ c (ix2 a b)) (fun a b => ((m ((c : Thread nD τ).loc main_arg3)) : S2x32.Idx → EReal) (ix2 a b))
            (fun b => ((m ((c : Thread nD τ).loc main_arg4)) : S32.Idx → EReal) (ix1 b)))
          (fun a b => ((m ((c : Thread nD τ).loc main_arg5)) : S32x32.Idx → EReal) (ix2 a b)) := by
  funext n q
  show W2 m ρ c (Proc.devRef .tc main_v16) (ix2 n q) = _
  rw [show W2 m ρ c (Proc.devRef .tc main_v16) = (dat0 (V1 m ρ) c).arrAt 5 cfg0.N from W2_arr m ρ c 5,
    Region0.final (V1 m ρ) c, Region0.G_apply]
  have e3 : (V1 m ρ c main_arg3 : S2x32.Idx → EReal) = (m ((c : Thread nD τ).loc main_arg3)) := arg3_W1 m ρ c
  have e5 : (V1 m ρ c main_arg5 : S32x32.Idx → EReal) = (m ((c : Thread nD τ).loc main_arg5)) := arg5_W1 m ρ c
  have e15 : (fun b => (V1 m ρ c main_v15 : S1x32.Idx → EReal) (ix2 0 b)) = fun b => ((m ((c : Thread nD τ).loc main_arg4)) : S32.Idx → EReal) (ix1 b) :=
    funext fun b => bias0_apply m ρ c b
  rw [e3, e5, e15]
  rfl

/-- The summed messages the last region is entered with. -/
theorem seg1_raw (c : Dev nD) : W3 m ρ c (Proc.devRef .tc main_v26)
    = segArr (W2 m ρ c (Proc.devRef .tc main_v16)) (W2 m ρ c (Proc.devRef .tc main_v1)) (W2 m ρ c (Proc.devRef .tc main_v3)) := by
  show StableHlo.after hostOps1 (W2 m ρ c) (Proc.devRef .tc main_v26) = _
  after_results
  rfl
theorem seg1 (c : Dev nD) : (V3 m ρ c main_v26 : S100000x32.Idx → EReal) = segArr (g1 m ρ c) (srcVec m ρ c) (dstVec m ρ c) := by
  show W3 m ρ c (Proc.devRef .tc main_v26) = _
  rw [seg1_raw, src_W2 m ρ c, dst_W2 m ρ c]
/-- The bias row the region is entered with is the bias argument. -/
theorem bias1_apply (c : Dev nD) (b : Fin 32) :
    (V3 m ρ c main_v27 : S1x32.Idx → EReal) (ix2 0 b) = ((m ((c : Thread nD τ).loc main_arg6)) : S32.Idx → EReal) (ix1 b) := by
  show StableHlo.after hostOps1 (W2 m ρ c) (Proc.devRef .tc main_v27) (ix2 0 b) = _
  after_results
  show (shapeCast S1x32 (W2 m ρ c (Proc.devRef .tc main_arg6)) shapeCasts_S32_S1x32 : S1x32.Idx → EReal) (ix2 0 b) = _
  rw [arg6_W2 m ρ c]
  exact shapeCast_row_apply _ _ b

/-- After the second region: the scaled features of the second convolution. -/
theorem g2_fun (c : Dev nD) :
    (fun a b => g2 m ρ c (ix2 a b))
      = scaled (fun a => dinvCol m ρ c (ix2 a 0))
          (combine (landing (dstVec m ρ c)) (srcNode (srcVec m ρ c)) (fun a => dinvCol m ρ c (ix2 a 0))
            (fun a b => g1 m ρ c (ix2 a b)) (fun b => ((m ((c : Thread nD τ).loc main_arg6)) : S32.Idx → EReal) (ix1 b)))
          (fun a b => ((m ((c : Thread nD τ).loc main_arg7)) : S32x32.Idx → EReal) (ix2 a b)) := by
  funext n q
  show W4 m ρ c (Proc.devRef .tc main_v28) (ix2 n q) = _
  rw [show W4 m ρ c (Proc.devRef .tc main_v28) = (dat1 (V3 m ρ) c).arrAt 5 cfg1.N from W4_arr m ρ c 5,
    Region1.final (V3 m ρ) c, Region1.G_apply]
  have e16 : (V3 m ρ c main_v16 : S100000x32.Idx → EReal) = g1 m ρ c := by
    show W3 m ρ c (Proc.devRef .tc main_v16) = W2 m ρ c (Proc.devRef .tc main_v16)
    host_keep hostOps1
  have e11 : (V3 m ρ c main_v11 : S100000x1.Idx → EReal) = dinvCol m ρ c := dinv_W3 m ρ c
  have e7 : (V3 m ρ c main_arg7 : S32x32.Idx → EReal) = (m ((c : Thread nD τ).loc main_arg7)) := arg7_W3 m ρ c
  rw [seg1 m ρ c, e16, e11, e7]
  unfold scaled
  refine congrArg (· * dinvCol m ρ c (ix2 n 0)) (mm_row _ _ _ n n q fun k => ?_)
  unfold combine
  rw [segArr_apply, bias1_apply m ρ c k]

/-- The summed messages the second region is entered with. -/
theorem seg2_raw (c : Dev nD) : W5 m ρ c (Proc.devRef .tc main_v38)
    = segArr (W4 m ρ c (Proc.devRef .tc main_v28)) (W4 m ρ c (Proc.devRef .tc main_v1)) (W4 m ρ c (Proc.devRef .tc main_v3)) := by
  show StableHlo.after hostOps2 (W4 m ρ c) (Proc.devRef .tc main_v38) = _
  after_results
  rfl
theorem seg2 (c : Dev nD) : (V5 m ρ c main_v38 : S100000x32.Idx → EReal) = segArr (g2 m ρ c) (srcVec m ρ c) (dstVec m ρ c) := by
  show W5 m ρ c (Proc.devRef .tc main_v38) = _
  rw [seg2_raw, src_W4 m ρ c, dst_W4 m ρ c]
/-- The bias row the region is entered with is the bias argument. -/
theorem bias2_apply (c : Dev nD) (b : Fin 32) :
    (V5 m ρ c main_v39 : S1x32.Idx → EReal) (ix2 0 b) = ((m ((c : Thread nD τ).loc main_arg8)) : S32.Idx → EReal) (ix1 b) := by
  show StableHlo.after hostOps2 (W4 m ρ c) (Proc.devRef .tc main_v39) (ix2 0 b) = _
  after_results
  show (shapeCast S1x32 (W4 m ρ c (Proc.devRef .tc main_arg8)) shapeCasts_S32_S1x32 : S1x32.Idx → EReal) (ix2 0 b) = _
  rw [arg8_W4 m ρ c]
  exact shapeCast_row_apply _ _ b

/-- After the third region: the scaled features of the third convolution. -/
theorem g3_fun (c : Dev nD) :
    (fun a b => g3 m ρ c (ix2 a b))
      = scaled (fun a => dinvCol m ρ c (ix2 a 0))
          (combine (landing (dstVec m ρ c)) (srcNode (srcVec m ρ c)) (fun a => dinvCol m ρ c (ix2 a 0))
            (fun a b => g2 m ρ c (ix2 a b)) (fun b => ((m ((c : Thread nD τ).loc main_arg8)) : S32.Idx → EReal) (ix1 b)))
          (fun a b => ((m ((c : Thread nD τ).loc main_arg9)) : S32x32.Idx → EReal) (ix2 a b)) := by
  funext n q
  show W6 m ρ c (Proc.devRef .tc main_v40) (ix2 n q) = _
  rw [show W6 m ρ c (Proc.devRef .tc main_v40) = (dat2 (V5 m ρ) c).arrAt 5 cfg2.N from W6_arr m ρ c 5,
    Region2.final (V5 m ρ) c, Region2.G_apply]
  have e16 : (V5 m ρ c main_v28 : S100000x32.Idx → EReal) = g2 m ρ c := by
    show W5 m ρ c (Proc.devRef .tc main_v28) = W4 m ρ c (Proc.devRef .tc main_v28)
    host_keep hostOps2
  have e11 : (V5 m ρ c main_v11 : S100000x1.Idx → EReal) = dinvCol m ρ c := dinv_W5 m ρ c
  have e7 : (V5 m ρ c main_arg9 : S32x32.Idx → EReal) = (m ((c : Thread nD τ).loc main_arg9)) := arg9_W5 m ρ c
  rw [seg2 m ρ c, e16, e11, e7]
  unfold scaled
  refine congrArg (· * dinvCol m ρ c (ix2 n 0)) (mm_row _ _ _ n n q fun k => ?_)
  unfold combine
  rw [segArr_apply, bias2_apply m ρ c k]

/-- The summed messages the third region is entered with. -/
theorem seg3_raw (c : Dev nD) : W7 m ρ c (Proc.devRef .tc main_v50)
    = segArr (W6 m ρ c (Proc.devRef .tc main_v40)) (W6 m ρ c (Proc.devRef .tc main_v1)) (W6 m ρ c (Proc.devRef .tc main_v3)) := by
  show StableHlo.after hostOps3 (W6 m ρ c) (Proc.devRef .tc main_v50) = _
  after_results
  rfl
theorem seg3 (c : Dev nD) : (V7 m ρ c main_v50 : S100000x32.Idx → EReal) = segArr (g3 m ρ c) (srcVec m ρ c) (dstVec m ρ c) := by
  show W7 m ρ c (Proc.devRef .tc main_v50) = _
  rw [seg3_raw, src_W6 m ρ c, dst_W6 m ρ c]
/-- The bias row the region is entered with is the bias argument. -/
theorem bias3_apply (c : Dev nD) (b : Fin 32) :
    (V7 m ρ c main_v51 : S1x32.Idx → EReal) (ix2 0 b) = ((m ((c : Thread nD τ).loc main_arg10)) : S32.Idx → EReal) (ix1 b) := by
  show StableHlo.after hostOps3 (W6 m ρ c) (Proc.devRef .tc main_v51) (ix2 0 b) = _
  after_results
  show (shapeCast S1x32 (W6 m ρ c (Proc.devRef .tc main_arg10)) shapeCasts_S32_S1x32 : S1x32.Idx → EReal) (ix2 0 b) = _
  rw [arg10_W6 m ρ c]
  exact shapeCast_row_apply _ _ b

/-- The output bias the last region is entered with is the output bias argument. -/
theorem bias_out_apply (c : Dev nD) :
    (V7 m ρ c main_v52 : S1x1.Idx → EReal) (ix2 0 0) = ((m ((c : Thread nD τ).loc main_arg12)) : S1.Idx → EReal) (ix1 0) := by
  show StableHlo.after hostOps3 (W6 m ρ c) (Proc.devRef .tc main_v52) (ix2 0 0) = _
  after_results
  show (shapeCast S1x1 (W6 m ρ c (Proc.devRef .tc main_arg12)) shapeCasts_S1_S1x1 : S1x1.Idx → EReal) (ix2 0 0) = _
  rw [arg12_W6 m ρ c]
  exact shapeCast_row_apply _ _ 0

/-- THE KERNEL'S RESULT at node `n` is the node-scaled network over the graph of the edge list. -/
theorem kernel_value (c : Dev nD) (n : Fin 100000) :
    (W9 m ρ c (Proc.devRef .tc main_v54) : S100000.Idx → EReal) (ix1 n)
      = outScaled (landing (dstVec m ρ c)) (srcNode (srcVec m ρ c)) (fun a => dinvCol m ρ c (ix2 a 0))
          (fun a b => xin m ρ c (ix2 a b)) (fun a b => ((m ((c : Thread nD τ).loc main_arg3)) : S2x32.Idx → EReal) (ix2 a b))
          (fun b => ((m ((c : Thread nD τ).loc main_arg4)) : S32.Idx → EReal) (ix1 b)) (fun a b => ((m ((c : Thread nD τ).loc main_arg5)) : S32x32.Idx → EReal) (ix2 a b))
          (fun b => ((m ((c : Thread nD τ).loc main_arg6)) : S32.Idx → EReal) (ix1 b)) (fun a b => ((m ((c : Thread nD τ).loc main_arg7)) : S32x32.Idx → EReal) (ix2 a b))
          (fun b => ((m ((c : Thread nD τ).loc main_arg8)) : S32.Idx → EReal) (ix1 b)) (fun a b => ((m ((c : Thread nD τ).loc main_arg9)) : S32x32.Idx → EReal) (ix2 a b))
          (fun b => ((m ((c : Thread nD τ).loc main_arg10)) : S32.Idx → EReal) (ix1 b)) (fun a b => ((m ((c : Thread nD τ).loc main_arg11)) : S32x1.Idx → EReal) (ix2 a b))
          (((m ((c : Thread nD τ).loc main_arg12)) : S1.Idx → EReal) (ix1 0)) n := by
  show StableHlo.after hostOps4 (W8 m ρ c) (Proc.devRef .tc main_v54) (ix1 n) = _
  after_results
  show (shapeCast S100000 (W8 m ρ c (Proc.devRef .tc main_v53)) shapeCasts_S100000x1_S100000 : S100000.Idx → EReal) (ix1 n) = _
  rw [shapeCast_apply _ shapeCasts_S100000x1_S100000 (ix1 n) (ix2 n 0) (by
    rw [Shape.rowMajor_val_one, Shape.rowMajor_val_two]
    first | (show n.val * 1 + 0 = n.val; omega) | (show n.val = n.val * 1 + 0; omega))]
  rw [show W8 m ρ c (Proc.devRef .tc main_v53) = (dat3 (V7 m ρ) c).arrAt 6 cfg3.N from W8_arr m ρ c 6,
    Region3.final (V7 m ρ) c, Region3.G_apply]
  have e16 : (V7 m ρ c main_v40 : S100000x32.Idx → EReal) = g3 m ρ c := by
    show W7 m ρ c (Proc.devRef .tc main_v40) = W6 m ρ c (Proc.devRef .tc main_v40)
    host_keep hostOps3
  have e11 : (V7 m ρ c main_v11 : S100000x1.Idx → EReal) = dinvCol m ρ c := dinv_W7 m ρ c
  have e7 : (V7 m ρ c main_arg11 : S32x1.Idx → EReal) = (m ((c : Thread nD τ).loc main_arg11)) := arg11_W7 m ρ c
  rw [seg3 m ρ c, e16, e11, e7, bias_out_apply m ρ c]
  unfold outScaled
  rw [← g1_fun m ρ c, ← g2_fun m ρ c, ← g3_fun m ρ c]
  refine congrArg (· + ((m ((c : Thread nD τ).loc main_arg12)) : S1.Idx → EReal) (ix1 0)) (mm_row _ _ _ n n 0 fun k => ?_)
  unfold combine
  rw [segArr_apply, bias3_apply m ρ c k]

end Cert.KernelIdeal.KernelValue

end
-- ==== Proof.LibVectorGather.lean ====
/-
  A VECTOR GATHERED BY AN INTEGER COLUMN, READ AT AN INDEX.

  What `v[idx]` of a vector `v : [N]` at an integer column `idx : [E, 1]` is: a `stablehlo.gather` of single elements (no
  offset axis, collapsed axis 0, start index map [0], slice sizes [1], index vector axis 1) into `[E]`.

  Proved here, for every `N`, `E` and index width `w`, and for ANY dimension-number record with those fields:
  * `gather_vec_apply`: element `e` of the gather is the operand at `Cert.Lib.SegmentSum.srcRow e` — the start index
    `idx[e, 0]` read as a signed integer and clamped into `[0, N − 1]`, the same row a gather of whole rows by that column reads.
-/
import Idealize.ShloMosaic.PureOps.Ideal
import Idealize.ShloMosaic.Lib.ValueIdx
import proofs.«117947_j46849503265421_2_alg».proof.Proof.LibSegmentSum

noncomputable section

namespace Cert.Lib.VectorGather

open Idealize.ShloMosaic Idealize.ShloMosaic.ValueIdx Cert.Lib.SegmentSum

variable {α : Type}

/-- The element gather's dimension numbers as a record literal (its conditions `wf` arbitrary). -/
abbrev vecGather (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The gather of elements at `e`, for the record literal. -/
theorem vecGather_apply {N E w : Nat} (hN : 0 < N)
    (wf : GatherDims.WF ⟨1, ![N]⟩ ⟨2, ![E, 1]⟩ ⟨1, ![E]⟩ [] [0] [] [0] [] 1 ![1])
    (u : (⟨1, ![N]⟩ : Shape).Idx → α) (si : IVec ⟨2, ![E, 1]⟩ w) (e : Fin E) :
    Host.gather (vecGather N E wf) u si (ix1 e) = u (ix1 (srcRow hN si e)) := by
  unfold Host.gather
  congr 1
  funext a
  obtain rfl : a = 0 := Subsingleton.elim _ _
  refine Fin.ext ?_
  show (vecGather N E wf).start (ix1 e) si 0 + (vecGather N E wf).batchCoord (ix1 e) 0
    + (vecGather N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather N E wf).startIndexMap from List.mem_singleton.mpr rfl)]
  have hsi : (vecGather N E wf).siIdx (ix1 e) ⟨List.idxOf (0 : Fin 1) (vecGather N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE GATHER OF ELEMENTS AT `e`: the operand at `srcRow e` — the start index `si[e, 0]` read signed and clamped into
    `[0, N − 1]` —, for any record with the element gather's fields. -/
theorem gather_vec_apply {N E w : Nat} (hN : 0 < N) (g : GatherDims ⟨1, ![N]⟩ ⟨2, ![E, 1]⟩ ⟨1, ![E]⟩)
    (h1 : g.offsetDims = []) (h2 : g.collapsedSliceDims = [0]) (h3 : g.operandBatchingDims = [])
    (h4 : g.startIndicesBatchingDims = []) (h5 : g.startIndexMap = [0]) (h6 : g.indexVectorDim = 1)
    (h7 : g.sliceSizes = ![1])
    (u : (⟨1, ![N]⟩ : Shape).Idx → α) (si : IVec ⟨2, ![E, 1]⟩ w) (e : Fin E) :
    Host.gather g u si (ix1 e) = u (ix1 (srcRow hN si e)) := by
  obtain ⟨od, cd, ob, sb, sm, iv, ss, wf⟩ := g
  simp only at h1 h2 h3 h4 h5 h6 h7
  subst h1 h2 h3 h4 h5 h6 h7
  exact vecGather_apply hN wf u si e

end Cert.Lib.VectorGather

end
-- ==== Proof.RefValue.lean ====
/-
  THE REFERENCE'S RESULT, INDEX BY INDEX, IS THE EDGE-WEIGHTED NETWORK.

  The reference computes, from the edge list: the in-degree count by a scatter-add of ones, `deg = 1 + count`,
  `dinv = deg^(-1/2)`, the edge weight `dinv[src] · dinv[dst]` by two gathers, and `1 / deg`; then a dense layer, three
  convolutions (gather the source rows, scale by the edge weight, scatter-add at the destination, add the self loop and the
  bias, rectify), and the output projection. Read at an index each stage is the corresponding function of
  GraphConvLaw.lean over the graph the edge list denotes:
  * `landing n`: the edges whose destination index, read signed, is `n` (an index outside `[0, N)` lands nowhere);
  * `srcNode e` / `dstNode e`: the edge's wrapped source / destination index, read signed and clamped into `[0, N − 1]`.
  Proved about the normaliser: `deg n` is a real number `≥ 1` (one plus a finite count), so `dinv n` is a non-negative real
  whose square is `1 / deg n`; and an edge that lands on `n` has `dstNode e = n` (a non-negative index is not wrapped).
-/
import proofs.«117947_j46849503265421_2_alg».proof.Proof.Gen.ReferenceIdeal.Read
import proofs.«117947_j46849503265421_2_alg».proof.Proof.GraphConvLaw
import proofs.«117947_j46849503265421_2_alg».proof.Proof.LibSegmentSum
import proofs.«117947_j46849503265421_2_alg».proof.Proof.LibVectorGather
import proofs.«117947_j46849503265421_2_alg».proof.Proof.LibPlainMatmul
import proofs.«117947_j46849503265421_2_alg».proof.Proof.LibBroadcastInDim
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.ReferenceIdeal.RefValue

open Cert.ReferenceIdeal Cert.ReferenceIdeal.Gen Cert.ReferenceIdeal.Read Idealize.ShloMosaic Idealize.ShloMosaic.ValueIdx Cert.Gcn
open Cert.Lib.SegmentSum Cert.Lib.VectorGather Cert.Lib.PlainMatmul Cert.Lib.BroadcastInDim

theorem hN : 0 < 100000 := by decide

/-- The host's accumulating scatter at the ideal values is the exact sum. -/
theorem scatterAdd_ideal {s si u : Shape} {w : Nat} (d : ScatterDims s si u) (x : FVec Ideal s .f32) (idx : IVec si w)
    (upd : FVec Ideal u .f32) : Host.scatterAdd d x idx upd = Ideal.hostScatterAdd d x idx upd := rfl

/-- The host's reciprocal square root and quotient act entry by entry. -/
theorem hostRsqrt_apply {s : Shape} (y : FVec Ideal s .f32) (i : s.Idx) : Host.rsqrt y i = Ideal.rsqrt (y i) := rfl
theorem hostDivf_apply {s : Shape} (x y : FVec Ideal s .f32) (i : s.Idx) : Host.divf x y i = Ideal.div (x i) (y i) := rfl

/-- A scatter-add of ones into zeros counts: each entry is a natural number. -/
theorem hostScatterAdd_ones {s si su : Shape} {w : Nat} (d : ScatterDims s si su) (x : s.Idx → EReal) (idx : IVec si w)
    (upd : su.Idx → EReal) (i : s.Idx) (hx : x i = 0) (hu : ∀ j, upd j = 1) :
    ∃ k : ℕ, Ideal.hostScatterAdd d x idx upd i = (k : EReal) := by
  unfold Ideal.hostScatterAdd
  rw [hx, zero_add, Finset.sum_congr rfl (fun j _ => hu j), Finset.sum_const, nsmul_one]
  exact ⟨_, rfl⟩

/-- The host's plain product at `(p, q)`. -/
theorem hostDot_apply {A K B : Nat} (d : DotDims ⟨2, ![A, K]⟩ ⟨2, ![K, B]⟩ ⟨2, ![A, B]⟩)
    (h1 : d.lhsContracting = [1]) (h2 : d.rhsContracting = [0]) (h3 : d.lhsNonContracting = [0])
    (h4 : d.rhsNonContracting = [1]) (h5 : d.lhsBatch = []) (h6 : d.rhsBatch = [])
    (l : FVec Ideal ⟨2, ![A, K]⟩ .f32) (r : FVec Ideal ⟨2, ![K, B]⟩ .f32) (p : Fin A) (q : Fin B) :
    Host.dotGeneral d none l r (ix2 p q) = ∑ k : Fin K, l (ix2 p k) * r (ix2 k q) :=
  dotGeneral_plain_apply d h1 h2 h3 h4 h5 h6 none .single l r p q

/-! ## The graph an edge list denotes -/

/-- The edges that land on node `n`: their destination index, read signed, is `n`. -/
def landing (dstCol : IVec S2500000x1 32) (n : Fin 100000) : Finset (Fin 2500000) :=
  Finset.univ.filter (fun e : Fin 2500000 => (dstCol (ix2 e 0)).toInt = (n.val : ℤ))

/-- The raw destination column, the wrapped source column and the wrapped destination column of the edge list. -/
abbrev dstCol (x2 : IVec S2x2500000 32) : IVec S2500000x1 32 := val_main_v46 (F := Ideal) x2
abbrev srcWrapCol (x2 : IVec S2x2500000 32) : IVec S2500000x1 32 := val_main_v40 (F := Ideal) x2
abbrev dstWrapCol (x2 : IVec S2x2500000 32) : IVec S2500000x1 32 := val_main_v23 (F := Ideal) x2

def srcNode (x2 : IVec S2x2500000 32) (e : Fin 2500000) : Fin 100000 := srcRow hN (srcWrapCol x2) e
def dstNode (x2 : IVec S2x2500000 32) (e : Fin 2500000) : Fin 100000 := srcRow hN (dstWrapCol x2) e
def degOf (x2 : IVec S2x2500000 32) (n : Fin 100000) : EReal := val_main_v9 (F := Ideal) x2 (ix1 n)
def dinvOf (x2 : IVec S2x2500000 32) (n : Fin 100000) : EReal := val_main_v10 (F := Ideal) x2 (ix1 n)
def rdegOf (x2 : IVec S2x2500000 32) (n : Fin 100000) : EReal := val_main_v49 (F := Ideal) x2 (ix1 n)

/-! ## Constants -/

theorem one_f32 : Ideal.ofBits .f32 0x3F800000#32 = 1 := by
  simp [Ideal.ofBits, Ideal.ieee, -EReal.coe_mul]; norm_num

theorem zeros_apply {t : Shape} (h : (⟨0, ![]⟩ : Shape).BroadcastsInDim t ![]) (j : t.Idx) :
    broadcastInDim t ![] h (constant (F := Ideal) S_ .f32 0x00000000#32) j = (0 : EReal) := by
  rw [bid_scalar_apply, constant_apply, Ideal.ofBits_zero_f32]

theorem ones_apply {t : Shape} (h : (⟨0, ![]⟩ : Shape).BroadcastsInDim t ![]) (j : t.Idx) :
    broadcastInDim t ![] h (constant (F := Ideal) S_ .f32 0x3F800000#32) j = (1 : EReal) := by
  rw [bid_scalar_apply, constant_apply, one_f32]

/-! ## The normaliser -/

/-- One plus a natural number is a real number `≥ 1`. -/
theorem one_add_nat_real (k : ℕ) : ∃ x : ℝ, 1 ≤ x ∧ (1 : EReal) + (k : EReal) = (x : EReal) :=
  ⟨1 + (k : ℝ), by have h0 : (0 : ℝ) ≤ (k : ℝ) := Nat.cast_nonneg k; linarith,
    by rw [EReal.coe_add, EReal.coe_one, EReal.coe_natCast]⟩

/-- The degree is one plus a finite count: a real number `≥ 1`. -/
theorem deg_real (x2 : IVec S2x2500000 32) (n : Fin 100000) : ∃ x : ℝ, 1 ≤ x ∧ degOf x2 n = (x : EReal) := by
  unfold degOf val_main_v9 val_main_v8 val_main_v7 val_main_v5 val_main_v4 val_main_cst_1 val_main_cst_0 val_main_cst
  generalize val_main_v6 (F := Ideal) x2 = col
  obtain ⟨k, hk⟩ := hostScatterAdd_ones scatter_S100000_S2500000x1_S2500000_n_0_0_1
    (broadcastInDim S100000 ![] bcast_S_S100000 (constant (F := Ideal) S_ .f32 0x00000000#32)) col
    (broadcastInDim S2500000 ![] bcast_S_S2500000 (constant (F := Ideal) S_ .f32 0x3F800000#32)) (ix1 n)
    (zeros_apply bcast_S_S100000 (ix1 n)) (fun j => ones_apply bcast_S_S2500000 j)
  rw [addf_apply, ones_apply, scatterAdd_ideal, hk]
  exact one_add_nat_real k

theorem dinv_eq (x2 : IVec S2x2500000 32) (n : Fin 100000) : dinvOf x2 n = Ideal.rsqrt (degOf x2 n) := by
  unfold dinvOf degOf val_main_v10
  exact hostRsqrt_apply _ _

theorem rdeg_eq (x2 : IVec S2x2500000 32) (n : Fin 100000) : rdegOf x2 n = Ideal.div 1 (degOf x2 n) := by
  unfold rdegOf degOf val_main_v49 val_main_v48 val_main_cst_8
  rw [hostDivf_apply, ones_apply]

/-- `dinv n` is a non-negative real. -/
theorem dinv_real (x2 : IVec S2x2500000 32) (n : Fin 100000) : ∃ r : ℝ, 0 ≤ r ∧ dinvOf x2 n = (r : EReal) := by
  obtain ⟨x, hx, hd⟩ := deg_real x2 n
  rw [dinv_eq, hd]
  exact (rsqrt_facts x hx).1

/-- `dinv n · dinv n = 1 / deg n`. -/
theorem dinv_sq (x2 : IVec S2x2500000 32) (n : Fin 100000) : dinvOf x2 n * dinvOf x2 n = rdegOf x2 n := by
  obtain ⟨x, hx, hd⟩ := deg_real x2 n
  rw [dinv_eq, rdeg_eq, hd]
  exact (rsqrt_facts x hx).2

/-! ## An edge that lands on `n` is weighted by `n`'s normaliser -/

/-- A non-negative index is not wrapped. -/
theorem wrap_of_nonneg (b : BitVec 32) (k : Nat) (hb : b.toInt = (k : ℤ)) :
    Scalar.select (IntOp.cmpi .slt b 0#32) (IntOp.addi b 100000#32) b = b := by
  have hs : b.slt 0#32 = false := by
    rw [BitVec.slt, hb]
    simp
  unfold Scalar.select IntOp.cmpi
  simp [hs]

theorem dst_of_landing (x2 : IVec S2x2500000 32) (n : Fin 100000) (e : Fin 2500000) (he : e ∈ landing (dstCol x2) n) :
    dstNode x2 e = n := by
  have hl : (dstCol x2 (ix2 e 0)).toInt = (n.val : ℤ) := (Finset.mem_filter.mp he).2
  have h46 : dstCol x2 (ix2 e 0) = val_main_v3 (F := Ideal) x2 (ix1 e) := by
    show val_main_v46 (F := Ideal) x2 (ix2 e 0) = _
    unfold val_main_v46
    exact bid_vec_col_apply _ _ e
  have h23 : dstWrapCol x2 (ix2 e 0) = val_main_v3 (F := Ideal) x2 (ix1 e) := by
    show val_main_v23 (F := Ideal) x2 (ix2 e 0) = _
    unfold val_main_v23
    rw [bid_vec_col_apply]
    unfold val_main_v22 val_main_v19 val_main_v21 val_main_v18 val_main_v20 val_main_c_3 val_main_c_4
    rw [h46] at hl
    generalize val_main_v3 (F := Ideal) x2 = v at hl ⊢
    rw [select_apply]
    show Scalar.select (IntOp.cmpi .slt (v (ix1 e)) (broadcastInDim S2500000 ![] bcast_S_S2500000 (constantI S_ 32 0#32) (ix1 e)))
      (IntOp.addi (v (ix1 e)) (broadcastInDim S2500000 ![] bcast_S_S2500000 (constantI S_ 32 100000#32) (ix1 e))) (v (ix1 e)) = _
    rw [bid_scalar_apply, bid_scalar_apply, constantI_apply, constantI_apply]
    exact wrap_of_nonneg _ n.val hl
  unfold dstNode srcRow
  apply Fin.ext
  show min (dstWrapCol x2 (ix2 e 0)).toInt.toNat (100000 - 1) = n.val
  rw [h23, ← h46, hl]
  have := n.isLt
  omega

/-! ## The stages, read at an index -/

/-- A host product `[100000, 32] · [32, 32]` at `(n, q)`. -/
theorem dot32_apply (X : FVec Ideal S100000x32 .f32) (W : FVec Ideal S32x32 .f32) (n : Fin 100000) (q : Fin 32) :
    Host.dotGeneral dot_S100000x32_S32x32_S100000x32_1_0_0_1_n_n none X W (ix2 n q)
      = mm (fun a b => X (ix2 a b)) (fun a b => W (ix2 a b)) n q :=
  hostDot_apply dot_S100000x32_S32x32_S100000x32_1_0_0_1_n_n rfl rfl rfl rfl rfl rfl X W n q

/-- A bias vector broadcast over the rows, at `(n, q)`. -/
theorem bias_apply (b : FVec Ideal S32 .f32) (n : Fin 100000) (q : Fin 32) :
    broadcastInDim S100000x32 ![0, 1] bcast_S1x32_S100000x32_0_1 (broadcastInDim S1x32 ![1] bcast_S32_S1x32_1 b) (ix2 n q)
      = b (ix1 q) := by
  rw [bid_row_mat_apply, bid_vec_row_apply]

/-- The first dense layer. -/
theorem dense0_apply (x0 x1 : FVec Ideal S100000 .f32) (x3 : FVec Ideal S2x32 .f32) (x4 : FVec Ideal S32 .f32)
    (n : Fin 100000) (q : Fin 32) :
    val_main_v33 (F := Ideal) x0 x1 x3 x4 (ix2 n q)
      = dense (fun a b => val_main_v28 (F := Ideal) x0 x1 (ix2 a b)) (fun a b => x3 (ix2 a b)) (fun b => x4 (ix1 b)) n q := by
  unfold val_main_v33 val_main_v32 val_main_v31 val_main_v30 val_main_v29 val_main_call0_v0 val_main_call0_cst
  generalize val_main_v28 (F := Ideal) x0 x1 = xin
  rw [maximumf_apply, addf_apply, zeros_apply, bias_apply,
    hostDot_apply dot_S100000x2_S2x32_S100000x32_1_0_0_1_n_n rfl rfl rfl rfl rfl rfl xin x3 n q]
  unfold dense mm
  rfl

/-- The edge weight: the two gathered normalisers multiplied. -/
theorem norm_apply (x2 : IVec S2x2500000 32) (e : Fin 2500000) :
    val_main_v25 (F := Ideal) x2 (ix1 e) = dinvOf x2 (srcNode x2 e) * dinvOf x2 (dstNode x2 e) := by
  have h16 : val_main_v16 (F := Ideal) x2 = srcWrapCol x2 := rfl
  unfold val_main_v25 val_main_v17 val_main_v24 dinvOf srcNode dstNode
  rw [h16]
  generalize val_main_v10 (F := Ideal) x2 = dv
  rw [mulf_apply,
    gather_vec_apply hN gather_S100000_S2500000x1_S2500000_n_0_n_n_0_1_1 rfl rfl rfl rfl rfl rfl rfl dv _ e,
    gather_vec_apply hN gather_S100000_S2500000x1_S2500000_n_0_n_n_0_1_1 rfl rfl rfl rfl rfl rfl rfl dv _ e]

/-- One convolution with its rectifier, for any feature array `h`, edge-weight vector and self-loop weight vector. -/
theorem layer_apply (h : FVec Ideal S100000x32 .f32) (sCol dCol : IVec S2500000x1 32) (norm : FVec Ideal S2500000 .f32)
    (rd : FVec Ideal S100000 .f32) (b : FVec Ideal S32 .f32) (n : Fin 100000) (q : Fin 32) :
    maximumf (addf (addf (Host.scatterAdd scatter_S100000x32_S2500000x1_S2500000x32_1_0_0_1
          (broadcastInDim S100000x32 ![] bcast_S_S100000x32 (constant (F := Ideal) S_ .f32 0x00000000#32)) dCol
          (mulf (Host.gather gather_S100000x32_S2500000x1_S2500000x32_1_0_n_n_0_1_132 h sCol)
            (broadcastInDim S2500000x32 ![0, 1] bcast_S2500000x1_S2500000x32_0_1
              (broadcastInDim S2500000x1 ![0] bcast_S2500000_S2500000x1_0 norm))))
        (mulf h (broadcastInDim S100000x32 ![0, 1] bcast_S100000x1_S100000x32_0_1
          (broadcastInDim S100000x1 ![0] bcast_S100000_S100000x1_0 rd))))
        (broadcastInDim S100000x32 ![0, 1] bcast_S1x32_S100000x32_0_1 (broadcastInDim S1x32 ![1] bcast_S32_S1x32_1 b)))
      (broadcastInDim S100000x32 ![] bcast_S_S100000x32 (constant (F := Ideal) S_ .f32 0x00000000#32)) (ix2 n q)
    = max (((0 + ∑ e ∈ landing dCol n, h (ix2 (srcRow hN sCol e) q) * norm (ix1 e)) + h (ix2 n q) * rd (ix1 n)) + b (ix1 q)) 0 := by
  rw [maximumf_apply, addf_apply, addf_apply, mulf_apply, zeros_apply, bias_apply, bid_col_mat_apply, bid_vec_col_apply]
  rw [scatterAdd_ideal, scatterAdd_rows_apply scatter_S100000x32_S2500000x1_S2500000x32_1_0_0_1 rfl rfl rfl rfl, zeros_apply]
  unfold landing
  refine congrArg (fun z => max (((0 + z) + h (ix2 n q) * rd (ix1 n)) + b (ix1 q)) 0) (Finset.sum_congr rfl fun e _ => ?_)
  rw [mulf_apply, gather_rows_apply hN gather_S100000x32_S2500000x1_S2500000x32_1_0_n_n_0_1_132 rfl rfl rfl rfl rfl rfl rfl,
    bid_col_mat_apply, bid_vec_col_apply]

/-! ## The three convolutions are one array expression, and the whole result -/

/-- A convolution stage as the reference spells it, over its feature array, index columns, edge weights, self-loop weights
    and bias. -/
def layerArr (h : FVec Ideal S100000x32 .f32) (sCol dCol : IVec S2500000x1 32) (norm : FVec Ideal S2500000 .f32)
    (rd : FVec Ideal S100000 .f32) (b : FVec Ideal S32 .f32) : FVec Ideal S100000x32 .f32 :=
  maximumf (addf (addf (Host.scatterAdd scatter_S100000x32_S2500000x1_S2500000x32_1_0_0_1
          (broadcastInDim S100000x32 ![] bcast_S_S100000x32 (constant (F := Ideal) S_ .f32 0x00000000#32)) dCol
          (mulf (Host.gather gather_S100000x32_S2500000x1_S2500000x32_1_0_n_n_0_1_132 h sCol)
            (broadcastInDim S2500000x32 ![0, 1] bcast_S2500000x1_S2500000x32_0_1
              (broadcastInDim S2500000x1 ![0] bcast_S2500000_S2500000x1_0 norm))))
        (mulf h (broadcastInDim S100000x32 ![0, 1] bcast_S100000x1_S100000x32_0_1
          (broadcastInDim S100000x1 ![0] bcast_S100000_S100000x1_0 rd))))
        (broadcastInDim S100000x32 ![0, 1] bcast_S1x32_S100000x32_0_1 (broadcastInDim S1x32 ![1] bcast_S32_S1x32_1 b)))
      (broadcastInDim S100000x32 ![] bcast_S_S100000x32 (constant (F := Ideal) S_ .f32 0x00000000#32))

theorem v57_eq (x0 x1 : FVec Ideal S100000 .f32) (x2 : IVec S2x2500000 32) (x3 : FVec Ideal S2x32 .f32) (x4 : FVec Ideal S32 .f32)
    (x5 : FVec Ideal S32x32 .f32) (x6 : FVec Ideal S32 .f32) :
    val_main_v57 (F := Ideal) x0 x1 x2 x3 x4 x5 x6
      = layerArr (val_main_v34 (F := Ideal) x0 x1 x3 x4 x5) (srcWrapCol x2) (dstCol x2) (val_main_v25 (F := Ideal) x2)
          (val_main_v49 (F := Ideal) x2) x6 := rfl

theorem v81_eq (x0 x1 : FVec Ideal S100000 .f32) (x2 : IVec S2x2500000 32) (x3 : FVec Ideal S2x32 .f32) (x4 : FVec Ideal S32 .f32)
    (x5 : FVec Ideal S32x32 .f32) (x6 : FVec Ideal S32 .f32) (x7 : FVec Ideal S32x32 .f32) (x8 : FVec Ideal S32 .f32) :
    val_main_v81 (F := Ideal) x0 x1 x2 x3 x4 x5 x6 x7 x8
      = layerArr (val_main_v58 (F := Ideal) x0 x1 x2 x3 x4 x5 x6 x7) (srcWrapCol x2) (dstCol x2) (val_main_v25 (F := Ideal) x2)
          (val_main_v49 (F := Ideal) x2) x8 := rfl

theorem v105_eq (x0 x1 : FVec Ideal S100000 .f32) (x2 : IVec S2x2500000 32) (x3 : FVec Ideal S2x32 .f32) (x4 : FVec Ideal S32 .f32)
    (x5 : FVec Ideal S32x32 .f32) (x6 : FVec Ideal S32 .f32) (x7 : FVec Ideal S32x32 .f32) (x8 : FVec Ideal S32 .f32)
    (x9 : FVec Ideal S32x32 .f32) (x10 : FVec Ideal S32 .f32) :
    val_main_v105 (F := Ideal) x0 x1 x2 x3 x4 x5 x6 x7 x8 x9 x10
      = layerArr (val_main_v82 (F := Ideal) x0 x1 x2 x3 x4 x5 x6 x7 x8 x9) (srcWrapCol x2) (dstCol x2) (val_main_v25 (F := Ideal) x2)
          (val_main_v49 (F := Ideal) x2) x10 := rfl

/-- A convolution stage at `(n, q)` is the edge-weighted form over the graph of the edge list. -/
theorem conv_apply (x2 : IVec S2x2500000 32) (h : FVec Ideal S100000x32 .f32) (b : FVec Ideal S32 .f32)
    (n : Fin 100000) (q : Fin 32) :
    layerArr h (srcWrapCol x2) (dstCol x2) (val_main_v25 (F := Ideal) x2) (val_main_v49 (F := Ideal) x2) b (ix2 n q)
      = conv (landing (dstCol x2)) (srcNode x2) (dstNode x2) (dinvOf x2) (rdegOf x2)
          (fun a c => h (ix2 a c)) (fun c => b (ix1 c)) n q := by
  unfold layerArr
  rw [layer_apply]
  unfold conv rdegOf srcNode
  refine congrArg (fun z => max (((0 + z) + h (ix2 n q) * val_main_v49 (F := Ideal) x2 (ix1 n)) + b (ix1 q)) 0)
    (Finset.sum_congr rfl fun e _ => ?_)
  rw [norm_apply]
  unfold srcNode
  rfl

/-- THE REFERENCE'S RESULT at node `n` is the edge-weighted network over the graph of the edge list. -/
theorem ref_value (x0 x1 : FVec Ideal S100000 .f32) (x2 : IVec S2x2500000 32) (x3 : FVec Ideal S2x32 .f32) (x4 : FVec Ideal S32 .f32)
    (x5 : FVec Ideal S32x32 .f32) (x6 : FVec Ideal S32 .f32) (x7 : FVec Ideal S32x32 .f32) (x8 : FVec Ideal S32 .f32)
    (x9 : FVec Ideal S32x32 .f32) (x10 : FVec Ideal S32 .f32) (x11 : FVec Ideal S32x1 .f32) (x12 : FVec Ideal S1 .f32)
    (n : Fin 100000) :
    val_main_v110 (F := Ideal) x0 x1 x2 x3 x4 x5 x6 x7 x8 x9 x10 x11 x12 (ix1 n)
      = outWeighted (landing (dstCol x2)) (srcNode x2) (dstNode x2) (dinvOf x2) (rdegOf x2)
          (fun a b => val_main_v28 (F := Ideal) x0 x1 (ix2 a b)) (fun a b => x3 (ix2 a b)) (fun b => x4 (ix1 b))
          (fun a b => x5 (ix2 a b)) (fun b => x6 (ix1 b)) (fun a b => x7 (ix2 a b)) (fun b => x8 (ix1 b))
          (fun a b => x9 (ix2 a b)) (fun b => x10 (ix1 b)) (fun a b => x11 (ix2 a b)) (x12 (ix1 0)) n := by
  have hX0 : (fun a b => val_main_v33 (F := Ideal) x0 x1 x3 x4 (ix2 a b))
      = dense (fun a b => val_main_v28 (F := Ideal) x0 x1 (ix2 a b)) (fun a b => x3 (ix2 a b)) (fun b => x4 (ix1 b)) :=
    funext fun a => funext fun b => dense0_apply x0 x1 x3 x4 a b
  have hh1 : (fun a c => val_main_v34 (F := Ideal) x0 x1 x3 x4 x5 (ix2 a c))
      = mm (fun a b => val_main_v33 (F := Ideal) x0 x1 x3 x4 (ix2 a b)) (fun a b => x5 (ix2 a b)) :=
    funext fun a => funext fun c => by unfold val_main_v34; exact dot32_apply _ x5 a c
  have hX1 : (fun a c => val_main_v57 (F := Ideal) x0 x1 x2 x3 x4 x5 x6 (ix2 a c))
      = conv (landing (dstCol x2)) (srcNode x2) (dstNode x2) (dinvOf x2) (rdegOf x2)
          (fun a c => val_main_v34 (F := Ideal) x0 x1 x3 x4 x5 (ix2 a c)) (fun c => x6 (ix1 c)) :=
    funext fun a => funext fun c => by rw [v57_eq]; exact conv_apply x2 _ x6 a c
  have hh2 : (fun a c => val_main_v58 (F := Ideal) x0 x1 x2 x3 x4 x5 x6 x7 (ix2 a c))
      = mm (fun a b => val_main_v57 (F := Ideal) x0 x1 x2 x3 x4 x5 x6 (ix2 a b)) (fun a b => x7 (ix2 a b)) :=
    funext fun a => funext fun c => by unfold val_main_v58; exact dot32_apply _ x7 a c
  have hX2 : (fun a c => val_main_v81 (F := Ideal) x0 x1 x2 x3 x4 x5 x6 x7 x8 (ix2 a c))
      = conv (landing (dstCol x2)) (srcNode x2) (dstNode x2) (dinvOf x2) (rdegOf x2)
          (fun a c => val_main_v58 (F := Ideal) x0 x1 x2 x3 x4 x5 x6 x7 (ix2 a c)) (fun c => x8 (ix1 c)) :=
    funext fun a => funext fun c => by rw [v81_eq]; exact conv_apply x2 _ x8 a c
  have hh3 : (fun a c => val_main_v82 (F := Ideal) x0 x1 x2 x3 x4 x5 x6 x7 x8 x9 (ix2 a c))
      = mm (fun a b => val_main_v81 (F := Ideal) x0 x1 x2 x3 x4 x5 x6 x7 x8 (ix2 a b)) (fun a b => x9 (ix2 a b)) :=
    funext fun a => funext fun c => by unfold val_main_v82; exact dot32_apply _ x9 a c
  have hX3 : (fun a c => val_main_v105 (F := Ideal) x0 x1 x2 x3 x4 x5 x6 x7 x8 x9 x10 (ix2 a c))
      = conv (landing (dstCol x2)) (srcNode x2) (dstNode x2) (dinvOf x2) (rdegOf x2)
          (fun a c => val_main_v82 (F := Ideal) x0 x1 x2 x3 x4 x5 x6 x7 x8 x9 (ix2 a c)) (fun c => x10 (ix1 c)) :=
    funext fun a => funext fun c => by rw [v105_eq]; exact conv_apply x2 _ x10 a c
  unfold val_main_v110
  rw [shapeCast_apply _ shapeCasts_S100000x1_S100000 (ix1 n) (ix2 n 0) (by
    rw [Shape.rowMajor_val_one, Shape.rowMajor_val_two]
    first | (show n.val * 1 + 0 = n.val; omega) | (show n.val = n.val * 1 + 0; omega))]
  unfold val_main_v109 val_main_v108 val_main_v107 val_main_v106
  rw [addf_apply, bid_row_mat_apply, bid_vec_row_apply,
    hostDot_apply dot_S100000x32_S32x1_S100000x1_1_0_0_1_n_n rfl rfl rfl rfl rfl rfl _ x11 n 0]
  unfold outWeighted
  rw [← hX0, ← hh1, ← hX1, ← hh2, ← hX2, ← hh3, ← hX3]
  unfold mm
  rfl

end Cert.ReferenceIdeal.RefValue

end
-- ==== Proof.Bridge.lean ====
/-
  THE TWO PROGRAMS' RESULTS ARE ONE FUNCTION OF THE ARGUMENTS.

  The idealized kernel's result at node `n` is the node-scaled network (KernelValue.lean) over the graph, the normaliser column
  and the stacked input that its first stretch of host operations computes from the launch arrays; the reference's is the
  edge-weighted network (RefValue.lean) over the graph its own operations compute. The first stretch of the kernel's program
  and the opening of the reference are the same operations on the same arguments: the raw index vectors, the wrapped source
  column, the raw destination column, `rsqrt (1 + count)` and the stacked input are the same terms. So the two networks are over
  one graph and one normaliser, and GraphConvLaw.lean's law — the normaliser a non-negative real whose square is `1 / deg`,
  an edge that lands on `n` weighted by `n`'s normaliser — makes them equal.
-/
import proofs.«117947_j46849503265421_2_alg».proof.Proof.KernelValue
import proofs.«117947_j46849503265421_2_alg».proof.Proof.RefValue
import proofs.«117947_j46849503265421_2_alg».proof.Proof.GraphConvLaw
import proofs.«117947_j46849503265421_2_alg».proof.Proof.LibColumnForms
import Idealize.ShloMosaic.Lib.StableHlo.Run

set_option maxRecDepth 16384

noncomputable section

namespace Cert.Proof.Bridge

open Cert.KernelIdeal Cert.KernelIdeal.Gen Cert.KernelIdeal.GenP Cert.KernelIdeal.KernelValue
open Idealize.ShloMosaic Idealize.ShloMosaic.TcCoe Idealize.SL.Sem Idealize.ShloMosaic.StableHlo Idealize.ShloMosaic.ValueIdx Cert.Gcn
open Cert.Lib.ColumnForms

variable (m : (ℓ : Loc nD τ sig) → Buf (Elt Ideal) ℓ) (ρ : Dev nD → PrngReg) (c : Dev nD)

/-! ## The first stretch computes the reference's opening terms -/

theorem src_eq : srcVec m ρ c = Cert.ReferenceIdeal.Read.val_main_v1 (F := Ideal) (m ((c : Thread nD τ).loc main_arg2)) := by
  show StableHlo.after hostOps0 (W0 m ρ c) (Proc.devRef .tc main_v1) = _
  after_results
  rfl

theorem dst_eq : dstVec m ρ c = Cert.ReferenceIdeal.Read.val_main_v3 (F := Ideal) (m ((c : Thread nD τ).loc main_arg2)) := by
  show StableHlo.after hostOps0 (W0 m ρ c) (Proc.devRef .tc main_v3) = _
  after_results
  rfl

theorem srcWrapCol_eq : srcWrapCol (srcVec m ρ c) = Cert.ReferenceIdeal.RefValue.srcWrapCol (m ((c : Thread nD τ).loc main_arg2)) := by
  rw [src_eq]
  rfl

theorem dstRawCol_eq : dstRawCol (dstVec m ρ c) = Cert.ReferenceIdeal.RefValue.dstCol (m ((c : Thread nD τ).loc main_arg2)) := by
  rw [dst_eq]
  rfl

theorem xin_eq : xin m ρ c = Cert.ReferenceIdeal.Read.val_main_v28 (F := Ideal) (m ((c : Thread nD τ).loc main_arg0)) (m ((c : Thread nD τ).loc main_arg1)) := by
  show StableHlo.after hostOps0 (W0 m ρ c) (Proc.devRef .tc main_v14) = _
  after_results
  rfl

/-- The normaliser vector before it is reshaped to a column. -/
theorem dinvVec_eq : W1 m ρ c (Proc.devRef .tc main_v10) = Cert.ReferenceIdeal.Read.val_main_v10 (F := Ideal) (m ((c : Thread nD τ).loc main_arg2)) := by
  show StableHlo.after hostOps0 (W0 m ρ c) (Proc.devRef .tc main_v10) = _
  after_results
  rfl

theorem dinvCol_eq : (dinvCol m ρ c : S100000x1.Idx → EReal)
    = shapeCast S100000x1 (W1 m ρ c (Proc.devRef .tc main_v10) : S100000.Idx → EReal) shapeCasts_S100000_S100000x1 := by
  show StableHlo.after hostOps0 (W0 m ρ c) (Proc.devRef .tc main_v11) = _
  after_results
  rfl

theorem dinv_eq (a : Fin 100000) : dinvCol m ρ c (ix2 a 0) = Cert.ReferenceIdeal.RefValue.dinvOf (m ((c : Thread nD τ).loc main_arg2)) a := by
  rw [dinvCol_eq, dinvVec_eq]
  exact shapeCast_col_apply _ _ a

/-! ## One graph, one normaliser -/

theorem landing_eq : landing (dstVec m ρ c)
    = Cert.ReferenceIdeal.RefValue.landing (Cert.ReferenceIdeal.RefValue.dstCol (m ((c : Thread nD τ).loc main_arg2))) := by
  funext n
  unfold landing Cert.ReferenceIdeal.RefValue.landing
  rw [dstRawCol_eq]

theorem srcNode_eq : srcNode (srcVec m ρ c) = Cert.ReferenceIdeal.RefValue.srcNode (m ((c : Thread nD τ).loc main_arg2)) := by
  funext e
  unfold srcNode Cert.ReferenceIdeal.RefValue.srcNode
  rw [srcWrapCol_eq]

/-- THE RESULTS AGREE: the reference's result term of the kernel's launch arrays is the kernel's result buffer at the last
    boundary. -/
theorem result_eq :
    Cert.ReferenceIdeal.Read.val_main_v110 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12))
      = W9 m ρ c (Proc.devRef .tc main_v54) := by
  funext i
  obtain ⟨n, rfl⟩ : ∃ n : Fin 100000, i = ix1 n := ⟨i 0, eq_ix1 i⟩
  rw [Cert.ReferenceIdeal.RefValue.ref_value]
  refine Eq.trans ?_ (kernel_value m ρ c n).symm
  rw [← outScaled_eq_outWeighted _ _ _ _ _ _ _ _ _ _ _ _ _ _ _ _
    (Cert.ReferenceIdeal.RefValue.dinv_real (m ((c : Thread nD τ).loc main_arg2))) (Cert.ReferenceIdeal.RefValue.dinv_sq (m ((c : Thread nD τ).loc main_arg2)))
    (Cert.ReferenceIdeal.RefValue.dst_of_landing (m ((c : Thread nD τ).loc main_arg2)))]
  have hD : (fun a => dinvCol m ρ c (ix2 a 0)) = Cert.ReferenceIdeal.RefValue.dinvOf (m ((c : Thread nD τ).loc main_arg2)) := funext (dinv_eq m ρ c)
  rw [landing_eq, srcNode_eq, hD, xin_eq]

end Cert.Proof.Bridge

end
-- ==== Proof.lean ====
/-
  THE CERTIFICATE OF A THREE-LAYER GRAPH CONVOLUTION NETWORK: kernel against reference, over the extended reals.

  The kernel's program runs four tiled kernels over the node dimension with a gather and a segment sum between them, and
  carries the node features pre-scaled by `dinv = deg^(-1/2)`: each convolution is `dinv · (segment_sum (g[src]) + g) + bias`
  with `g = h · dinv`. The reference weights every gathered source row by the edge weight `dinv[src] · dinv[dst]` and adds the
  self loop `h / deg`. At the ideal values, where a change of float format is the identity and a matrix product is the plain
  sum, the two are one function of the arguments: `dinv` is a non-negative real (the degree is one plus a finite count), so it
  distributes over every sum of extended reals, `dinv · dinv = 1 / deg`, and an edge that lands on a node carries that node's
  normaliser (GraphConvLaw.lean; the two sides are read index by index in KernelValue.lean and RefValue.lean and joined in
  Bridge.lean). Finiteness of the inputs is never used. The three frames are the programs' runs with the results dropped; the
  ideal pass rewrote nothing, so `preserves` is `True`.
-/
import proofs.«117947_j46849503265421_2_alg».proof.Defs
import proofs.«117947_j46849503265421_2_alg».proof.Proof.Gen.Kernel
import proofs.«117947_j46849503265421_2_alg».proof.Proof.Gen.KernelIdeal
import proofs.«117947_j46849503265421_2_alg».proof.Proof.Gen.ReferenceIdeal
import proofs.«117947_j46849503265421_2_alg».proof.Proof.Gen.Pre_finite_inputs
import proofs.«117947_j46849503265421_2_alg».proof.Proof.Gen.ReferenceIdeal.Run
import proofs.«117947_j46849503265421_2_alg».proof.Proof.Gen.ReferenceIdeal.Read
import proofs.«117947_j46849503265421_2_alg».proof.Proof.PatchedKernelFrame
import proofs.«117947_j46849503265421_2_alg».proof.Proof.PatchedKernelIdealFrame
import proofs.«117947_j46849503265421_2_alg».proof.Proof.ResultRun
import proofs.«117947_j46849503265421_2_alg».proof.Proof.Bridge
import Idealize.ShloMosaic.Adequacy
import Idealize.ShloMosaic.Init

noncomputable section

namespace Cert.Proof

open Idealize.ShloMosaic Idealize.SL.Sem

theorem frame_Kernel : Cert.frame_Kernel (hKernel := Cert.Kernel.Gen.facts) (hPre_finite_inputs := Cert.Pre_finite_inputs.Gen.facts) :=
  fun m ρ _ => Cert.Kernel.GenP.frame m ρ

theorem frame_KernelIdeal : Cert.frame_KernelIdeal (hKernelIdeal := Cert.KernelIdeal.Gen.facts) (hPre_finite_inputs := Cert.Pre_finite_inputs.Gen.facts) :=
  fun m ρ _ => Cert.KernelIdeal.GenP.frame m ρ

theorem frame_ReferenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealized kernel's result buffer ends at the last boundary's contents, the reference's at its result term; from
    memories agreeing on the arguments the two are one function (`Bridge.result_eq`). -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.GenP.W9 m ρ c (Proc.devRef .tc Cert.KernelIdeal.main_v54),
    Cert.KernelIdeal.ResultRun.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12⟩ := hagree c
  rw [Cert.ReferenceIdeal.Read.val_main_v110_eq, e0, e1, e2, e3, e4, e5, e6, e7, e8, e9, e10, e11, e12]
  exact Cert.Proof.Bridge.result_eq m ρ c

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, trivial, algebraic⟩

end Cert.Proof

end
